-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S4000000x2 : Shape := ⟨2, ![4000000, 2]⟩
abbrev S4000000 : Shape := ⟨1, ![4000000]⟩
abbrev S4000000x3 : Shape := ⟨2, ![4000000, 3]⟩
abbrev S1 : Shape := ⟨1, ![1]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S4000000 : S_.BroadcastsInDim S4000000 (![] : Fin 0 → Fin S4000000.rank)
  reducesTo_S4000000_S_d0 : S4000000.ReducesTo [0] S_
  bcast_S_S4000000x3 : S_.BroadcastsInDim S4000000x3 (![] : Fin 0 → Fin S4000000x3.rank)
  reducesTo_S4000000x3_S_d0_1 : S4000000x3.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v50 : IVec S4000000 1) : IVec S_ 1 :=
  let main_c_19 : IVec S_ 1 := constantI S_ 1 1#1
  let main_v51 : IVec S_ 1 := (fun x v => Host.reduce IntOp.andi x v reducesTo_S4000000_S_d0 h_S_) main_v50 main_c_19
  let main_v52 : IVec S_ 1 := andi main_v48 main_v51
  main_v52

def fn_part2 {F : FTy → Type} [FloatOps F] (main_arg2 : FVec F S4000000 .f32) (main_arg8 : FVec F S1 .f32) (main_arg9 : FVec F S1 .f32) (main_arg10 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_cst_18 : FVec F S_ .f32 := constant S_ .f32 0x00000000#32
  let main_v49 : FVec F S4000000 .f32 := broadcastInDim S4000000 ![] bcast_S_S4000000 main_cst_18
  let main_v50 : IVec S4000000 1 := cmpf .une main_arg2 main_v49
  fn_part3 (F := F) main_v48 main_v50

def fn_part1 {F : FTy → Type} [FloatOps F] (main_arg2 : FVec F S4000000 .f32) (main_arg5 : FVec F S4000000 .f32) (main_arg6 : FVec F S4000000x3 .f32) (main_arg7 : FVec F S1000000x3 .f32) (main_arg8 : FVec F S1 .f32) (main_arg9 : FVec F S1 .f32) (main_arg10 : FVec F S1 .f32) (main_v13 : IVec S_ 1) (main_v16 : IVec S4000000 1) : IVec S_ 1 :=
  let main_c_5 : IVec S_ 1 := constantI S_ 1 1#1
  let main_v17 : IVec S_ 1 := (fun x v => Host.reduce IntOp.andi x v reducesTo_S4000000_S_d0 h_S_) main_v16 main_c_5
  let main_v18 : IVec S_ 1 := andi main_v13 main_v17
  let main_v19 : FVec F S4000000 .f32 := Host.absf main_arg5
  let main_cst_6 : FVec F S_ .f32 := constant S_ .f32 0x7F800000#32
  let main_v20 : FVec F S4000000 .f32 := broadcastInDim S4000000 ![] bcast_S_S4000000 main_cst_6
  let main_v21 : IVec S4000000 1 := cmpf .olt main_v19 main_v20
  let main_c_7 : IVec S_ 1 := constantI S_ 1 1#1
  let main_v22 : IVec S_ 1 := (fun x v => Host.reduce IntOp.andi x v reducesTo_S4000000_S_d0 h_S_) main_v21 main_c_7
  let main_v23 : IVec S_ 1 := andi main_v18 main_v22
  let main_v24 : FVec F S4000000x3 .f32 := Host.absf main_arg6
  let main_cst_8 : FVec F S_ .f32 := constant S_ .f32 0x7F800000#32
  let main_v25 : FVec F S4000000x3 .f32 := broadcastInDim S4000000x3 ![] bcast_S_S4000000x3 main_cst_8
  let main_v26 : IVec S4000000x3 1 := cmpf .olt main_v24 main_v25
  let main_c_9 : IVec S_ 1 := constantI S_ 1 1#1
  let main_v27 : IVec S_ 1 := (fun x v => Host.reduce IntOp.andi x v reducesTo_S4000000x3_S_d0_1 h_S_) main_v26 main_c_9
  let main_v28 : IVec S_ 1 := andi main_v23 main_v27
  let main_v29 : FVec F S1000000x3 .f32 := Host.absf main_arg7
  let main_cst_10 : FVec F S_ .f32 := constant S_ .f32 0x7F800000#32
  let main_v30 : FVec F S1000000x3 .f32 := broadcastInDim S1000000x3 ![] bcast_S_S1000000x3 main_cst_10
  let main_v31 : IVec S1000000x3 1 := cmpf .olt main_v29 main_v30
  let main_c_11 : IVec S_ 1 := constantI S_ 1 1#1
  let main_v32 : IVec S_ 1 := (fun x v => Host.reduce IntOp.andi x v reducesTo_S1000000x3_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S1000000x3 .f32) (main_arg1 : IVec S4000000x2 32) (main_arg2 : FVec F S4000000 .f32) (main_arg3 : FVec F S4000000 .f32) (main_arg4 : FVec F S4000000 .f32) (main_arg5 : FVec F S4000000 .f32) (main_arg6 : FVec F S4000000x3 .f32) (main_arg7 : FVec F S1000000x3 .f32) (main_arg8 : FVec F S1 .f32) (main_arg9 : FVec F S1 .f32) (main_arg10 : FVec F S1 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S4000000 .f32 := Host.absf main_arg2
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S4000000 .f32 := Host.absf main_arg3
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S4000000 .f32 := Host.absf main_arg4
  let main_cst_4 : FVec F S_ .f32 := constant S_ .f32 0x7F800000#32
  let main_v15 : FVec F S4000000 .f32 := broadcastInDim S4000000 ![] bcast_S_S4000000 main_cst_4
  let main_v16 : IVec S4000000 1 := cmpf .olt main_v14 main_v15
  fn_part1 (F := F) main_arg2 main_arg5 main_arg6 main_arg7 main_arg8 main_arg9 main_arg10 main_v13 main_v16
-- ==== Kernel.lean ====
abbrev S1000000x3 : Shape := ⟨2, ![1000000, 3]⟩
abbrev S4000000x2 : Shape := ⟨2, ![4000000, 2]⟩
abbrev S4000000 : Shape := ⟨1, ![4000000]⟩
abbrev S4000000x3 : Shape := ⟨2, ![4000000, 3]⟩
abbrev S1 : Shape := ⟨1, ![1]⟩
abbrev S4000000x1 : Shape := ⟨2, ![4000000, 1]⟩
abbrev S1000000x1 : Shape := ⟨2, ![1000000, 1]⟩
abbrev S1000000 : Shape := ⟨1, ![1000000]⟩
abbrev S_ : Shape := ⟨0, ![]⟩
abbrev S2x125x16000 : Shape := ⟨3, ![2, 125, 16000]⟩
abbrev S1x1 : Shape := ⟨2, ![1, 1]⟩
abbrev S2x8x128 : Shape := ⟨3, ![2, 8, 128]⟩
abbrev S1x125x640 : Shape := ⟨3, ![1, 125, 640]⟩
abbrev S1x8x128 : Shape := ⟨3, ![1, 8, 128]⟩
abbrev S8x128 : Shape := ⟨2, ![8, 128]⟩
abbrev S125x640 : Shape := ⟨2, ![125, 640]⟩
abbrev S125 : Shape := ⟨1, ![125]⟩
abbrev S125x1 : Shape := ⟨2, ![125, 1]⟩
abbrev S2x1x1 : Shape := ⟨3, ![2, 1, 1]⟩
abbrev S2 : Shape := ⟨1, ![2]⟩
abbrev S3 : Shape := ⟨1, ![3]⟩
abbrev S1x3 : Shape := ⟨2, ![1, 3]⟩

abbrev nBuf : Space → Nat
  | .hbm => 112
  | .vmem => 29
  | .smem => 0
  | _ => 0

abbrev bufTy : (tb : Table) → Fin (tcTables nBuf tb) → BufTy
  | .hbm, ⟨0, _⟩ => ⟨S1000000x3, .f32⟩
  | .hbm, ⟨1, _⟩ => ⟨S4000000x2, .i32⟩
  | .hbm, ⟨2, _⟩ => ⟨S4000000, .f32⟩
  | .hbm, ⟨3, _⟩ => ⟨S4000000, .f32⟩
  | .hbm, ⟨4, _⟩ => ⟨S4000000, .f32⟩
  | .hbm, ⟨5, _⟩ => ⟨S4000000, .f32⟩
  | .hbm, ⟨6, _⟩ => ⟨S4000000x3, .f32⟩
  | .hbm, ⟨7, _⟩ => ⟨S1000000x3, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S4000000x1, .i32⟩
  | .hbm, ⟨12, _⟩ => ⟨S4000000, .i32⟩
  | .hbm, ⟨13, _⟩ => ⟨S4000000x1, .i32⟩
  | .hbm, ⟨14, _⟩ => ⟨S4000000, .i32⟩
  | .hbm, ⟨15, _⟩ => ⟨S1000000x1, .f32⟩
  | .hbm, ⟨16, _⟩ => ⟨S1000000, .f32⟩
  | .hbm, ⟨17, _⟩ => ⟨S1000000x1, .f32⟩
  | .hbm, ⟨18, _⟩ => ⟨S1000000, .f32⟩
  | .hbm, ⟨19, _⟩ => ⟨S1000000x1, .f32⟩
  | .hbm, ⟨20, _⟩ => ⟨S1000000, .f32⟩
  | .hbm, ⟨21, _⟩ => ⟨S_, .i32⟩
  | .hbm, ⟨22, _⟩ => ⟨S4000000, .i32⟩
  | .hbm, ⟨23, _⟩ => ⟨S4000000, .i1⟩
  | .hbm, ⟨24, _⟩ => ⟨S_, .i32⟩
  | .hbm, ⟨25, _⟩ => ⟨S4000000, .i32⟩
  | .hbm, ⟨26, _⟩ => ⟨S4000000, .i32⟩
  | .hbm, ⟨27, _⟩ => ⟨S4000000, .i32⟩
  | .hbm, ⟨28, _⟩ => ⟨S4000000x1, .i32⟩
  | .hbm, ⟨29, _⟩ => ⟨S4000000, .f32⟩
  | .hbm, ⟨30, _⟩ => ⟨S2x125x16000, .f32⟩
  | .hbm, ⟨31, _⟩ => ⟨S_, .i32⟩
  | .hbm, ⟨32, _⟩ => ⟨S4000000, .i32⟩
  | .hbm, ⟨33, _⟩ => ⟨S4000000, .i1⟩
  | .hbm, ⟨34, _⟩ => ⟨S_, .i32⟩
  | .hbm, ⟨35, _⟩ => ⟨S4000000, .i32⟩
  | .hbm, ⟨36, _⟩ => ⟨S4000000, .i32⟩
  | .hbm, ⟨37, _⟩ => ⟨S4000000, .i32⟩
  | .hbm, ⟨38, _⟩ => ⟨S4000000x1, .i32⟩
  | .hbm, ⟨39, _⟩ => ⟨S4000000, .f32⟩
  | .hbm, ⟨40, _⟩ => ⟨S2x125x16000, .f32⟩
  | .hbm, ⟨41, _⟩ => ⟨S_, .i32⟩
  | .hbm, ⟨42, _⟩ => ⟨S4000000, .i32⟩
  | .hbm, ⟨43, _⟩ => ⟨S4000000, .i1⟩
  | .hbm, ⟨44, _⟩ => ⟨S_, .i32⟩
  | .hbm, ⟨45, _⟩ => ⟨S4000000, .i32⟩
  | .hbm, ⟨46, _⟩ => ⟨S4000000, .i32⟩
  | .hbm, ⟨47, _⟩ => ⟨S4000000, .i32⟩
  | .hbm, ⟨48, _⟩ => ⟨S4000000x1, .i32⟩
  | .hbm, ⟨49, _⟩ => ⟨S4000000, .f32⟩
  | .hbm, ⟨50, _⟩ => ⟨S2x125x16000, .f32⟩
  | .hbm, ⟨51, _⟩ => ⟨S_, .i32⟩
  | .hbm, ⟨52, _⟩ => ⟨S4000000, .i32⟩
  | .hbm, ⟨53, _⟩ => ⟨S4000000, .i1⟩
  | .hbm, ⟨54, _⟩ => ⟨S_, .i32⟩
  | .hbm, ⟨55, _⟩ => ⟨S4000000, .i32⟩
  | .hbm, ⟨56, _⟩ => ⟨S4000000, .i32⟩
  | .hbm, ⟨57, _⟩ => ⟨S4000000, .i32⟩
  | .hbm, ⟨58, _⟩ => ⟨S4000000x1, .i32⟩
  | .hbm, ⟨59, _⟩ => ⟨S4000000, .f32⟩
  | .hbm, ⟨60, _⟩ => ⟨S2x125x16000, .f32⟩
  | .hbm, ⟨61, _⟩ => ⟨S_, .i32⟩
  | .hbm, ⟨62, _⟩ => ⟨S4000000, .i32⟩
  | .hbm, ⟨63, _⟩ => ⟨S4000000, .i1⟩
  | .hbm, ⟨64, _⟩ => ⟨S_, .i32⟩
  | .hbm, ⟨65, _⟩ => ⟨S4000000, .i32⟩
  | .hbm, ⟨66, _⟩ => ⟨S4000000, .i32⟩
  | .hbm, ⟨67, _⟩ => ⟨S4000000, .i32⟩
  | .hbm, ⟨68, _⟩ => ⟨S4000000x1, .i32⟩
  | .hbm, ⟨69, _⟩ => ⟨S4000000, .f32⟩
  | .hbm, ⟨70, _⟩ => ⟨S2x125x16000, .f32⟩
  | .hbm, ⟨71, _⟩ => ⟨S_, .i32⟩
  | .hbm, ⟨72, _⟩ => ⟨S4000000, .i32⟩
  | .hbm, ⟨73, _⟩ => ⟨S4000000, .i1⟩
  | .hbm, ⟨74, _⟩ => ⟨S_, .i32⟩
  | .hbm, ⟨75, _⟩ => ⟨S4000000, .i32⟩
  | .hbm, ⟨76, _⟩ => ⟨S4000000, .i32⟩
  | .hbm, ⟨77, _⟩ => ⟨S4000000, .i32⟩
  | .hbm, ⟨78, _⟩ => ⟨S4000000x1, .i32⟩
  | .hbm, ⟨79, _⟩ => ⟨S4000000, .f32⟩
  | .hbm, ⟨80, _⟩ => ⟨S2x125x16000, .f32⟩
  | .hbm, ⟨81, _⟩ => ⟨S4000000x1, .f32⟩
  | .hbm, ⟨82, _⟩ => ⟨S4000000, .f32⟩
  | .hbm, ⟨83, _⟩ => ⟨S2x125x16000, .f32⟩
  | .hbm, ⟨84, _⟩ => ⟨S4000000x1, .f32⟩
  | .hbm, ⟨85, _⟩ => ⟨S4000000, .f32⟩
  | .hbm, ⟨86, _⟩ => ⟨S2x125x16000, .f32⟩
  | .hbm, ⟨87, _⟩ => ⟨S2x125x16000, .f32⟩
  | .hbm, ⟨88, _⟩ => ⟨S2x125x16000, .f32⟩
  | .hbm, ⟨89, _⟩ => ⟨S2x125x16000, .f32⟩
  | .hbm, ⟨90, _⟩ => ⟨S2x125x16000, .f32⟩
  | .hbm, ⟨91, _⟩ => ⟨S1x1, .f32⟩
  | .hbm, ⟨92, _⟩ => ⟨S1x1, .f32⟩
  | .hbm, ⟨93, _⟩ => ⟨S2x8x128, .f32⟩
  | .hbm, ⟨94, _⟩ => ⟨S2x1x1, .f32⟩
  | .hbm, ⟨95, _⟩ => ⟨S2, .f32⟩
  | .hbm, ⟨96, _⟩ => ⟨S_, .f32⟩
  | .hbm, ⟨97, _⟩ => ⟨S_, .f32⟩
  | .hbm, ⟨98, _⟩ => ⟨S3, .f32⟩
  | .hbm, ⟨99, _⟩ => ⟨S1x3, .f32⟩
  | .hbm, ⟨100, _⟩ => ⟨S1000000x3, .f32⟩
  | .hbm, ⟨101, _⟩ => ⟨S1000000x3, .f32⟩
  | .hbm, ⟨102, _⟩ => ⟨S1000000x3, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .local _ .vmem, ⟨0, _⟩ => ⟨S1x125x640, .f32⟩
  | .local _ .vmem, ⟨1, _⟩ => ⟨S1x125x640, .f32⟩
  | .local _ .vmem, ⟨2, _⟩ => ⟨S1x125x640, .f32⟩
  | .local _ .vmem, ⟨3, _⟩ => ⟨S1x125x640, .f32⟩
  | .local _ .vmem, ⟨4, _⟩ => ⟨S1x125x640, .f32⟩
  | .local _ .vmem, ⟨5, _⟩ => ⟨S1x125x640, .f32⟩
  | .local _ .vmem, ⟨6, _⟩ => ⟨S1x125x640, .f32⟩
  | .local _ .vmem, ⟨7, _⟩ => ⟨S1x125x640, .f32⟩
  | .local _ .vmem, ⟨8, _⟩ => ⟨S1x125x640, .f32⟩
  | .local _ .vmem, ⟨9, _⟩ => ⟨S1x125x640, .f32⟩
  | .local _ .vmem, ⟨10, _⟩ => ⟨S1x125x640, .f32⟩
  | .local _ .vmem, ⟨11, _⟩ => ⟨S1x125x640, .f32⟩
  | .local _ .vmem, ⟨12, _⟩ => ⟨S1x125x640, .f32⟩
  | .local _ .vmem, ⟨13, _⟩ => ⟨S1x125x640, .f32⟩
  | .local _ .vmem, ⟨14, _⟩ => ⟨S1x125x640, .f32⟩
  | .local _ .vmem, ⟨15, _⟩ => ⟨S1x125x640, .f32⟩
  | .local _ .vmem, ⟨16, _⟩ => ⟨S1x125x640, .f32⟩
  | .local _ .vmem, ⟨17, _⟩ => ⟨S1x125x640, .f32⟩
  | .local _ .vmem, ⟨18, _⟩ => ⟨S1x125x640, .f32⟩
  | .local _ .vmem, ⟨19, _⟩ => ⟨S1x125x640, .f32⟩
  | .local _ .vmem, ⟨20, _⟩ => ⟨S1x125x640, .f32⟩
  | .local _ .vmem, ⟨21, _⟩ => ⟨S1x125x640, .f32⟩
  | .local _ .vmem, ⟨22, _⟩ => ⟨S1x125x640, .f32⟩
  | .local _ .vmem, ⟨23, _⟩ => ⟨S1x125x640, .f32⟩
  | .local _ .vmem, ⟨24, _⟩ => ⟨S1x1, .f32⟩
  | .local _ .vmem, ⟨25, _⟩ => ⟨S1x1, .f32⟩
  | .local _ .vmem, ⟨26, _⟩ => ⟨S1x8x128, .f32⟩
  | .local _ .vmem, ⟨27, _⟩ => ⟨S1x8x128, .f32⟩
  | .local _ .vmem, ⟨28, _⟩ => ⟨S8x128, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_11 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_12 : Ref sig .tc := ⟨.hbm, 109, rfl⟩
abbrev main_v84 : Ref sig .tc := ⟨.hbm, 110, rfl⟩
abbrev main_v85 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v115 : BitVec 1 := Scalar.cmpi .eq arg1 c24_i32
  let v116 : BitVec 32 := Scalar.extui v115
  let c0_i32_56 : BitVec 32 := 0#32
  let v117 : BitVec 1 := Scalar.cmpi .ne v116 c0_i32_56
  v117

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x125x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x125x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x125x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x125x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x125x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x125x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x125x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x125x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x125x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x125x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x125x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x125x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  slices_S1000000x3_S1000000x1_0_2 : S1000000x3.Slices ![0, 2] S1000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  shapeCasts_S4000000_S2x125x16000 : S4000000.ShapeCasts S2x125x16000
  slices_S4000000x3_S4000000x1_0_0 : S4000000x3.Slices ![0, 0] S4000000x1
  slices_S4000000x3_S4000000x1_0_2 : S4000000x3.Slices ![0, 2] S4000000x1
  shapeCasts_S1_S1x1 : S1.ShapeCasts S1x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x125x640_S1x125x640_0_0_0 : ∀ a, (![0, 0, 0] : Fin 3 → Nat) a + S1x125x640.size a ≤ S1x125x640.size a
  h_S1x125x640 : 0 < S1x125x640.numel
  shapeCasts_S1x125x640_S125x640 : S1x125x640.ShapeCasts S125x640
  reduces_S125x640_S125 : S125x640.Reduces [1] S125
  shapeCasts_S125_S125x1 : S125.ShapeCasts S125x1
  reduces_S125x1_S1 : S125x1.Reduces [0] S1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  concatenates_S1_S1_S1_S3_d0 : Shape.Concatenates [S1, S1, S1] S3 0
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  reducesTo_S1000000x3_S_d0_1 : S1000000x3.ReducesTo [0, 1] S_
  shapeCasts_S1_S_ : S1.ShapeCasts S_
  gather_S1000000_S4000000x1_S4000000_n_0_n_n_0_1_1_wf : GatherDims.WF S1000000 S4000000x1 S4000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x125x640.size a ≤ S2x125x16000.size a
  hwx0_0 : ∀ i : grid0.Coords, EltTy.bits .f32 = 32 ∨ (Rect.block (s := S2x125x16000) S1x125x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x125x640.size a ≤ S2x125x16000.size a
  hwx0_1 : ∀ i : grid0.Coords, EltTy.bits .f32 = 32 ∨ (Rect.block (s := S2x125x16000) S1x125x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x125x640.size a ≤ S2x125x16000.size a
  hwx0_2 : ∀ i : grid0.Coords, EltTy.bits .f32 = 32 ∨ (Rect.block (s := S2x125x16000) S1x125x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x125x640.size a ≤ S2x125x16000.size a
  hwx0_3 : ∀ i : grid0.Coords, EltTy.bits .f32 = 32 ∨ (Rect.block (s := S2x125x16000) S1x125x640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x125x640.size a ≤ S2x125x16000.size a
  hwx0_4 : ∀ i : grid0.Coords, EltTy.bits .f32 = 32 ∨ (Rect.block (s := S2x125x16000) S1x125x640.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x125x640.size a ≤ S2x125x16000.size a
  hwx0_5 : ∀ i : grid0.Coords, EltTy.bits .f32 = 32 ∨ (Rect.block (s := S2x125x16000) S1x125x640.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x125x640.size a ≤ S2x125x16000.size a
  hwx0_6 : ∀ i : grid0.Coords, EltTy.bits .f32 = 32 ∨ (Rect.block (s := S2x125x16000) S1x125x640.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x125x640.size a ≤ S2x125x16000.size a
  hwx0_7 : ∀ i : grid0.Coords, EltTy.bits .f32 = 32 ∨ (Rect.block (s := S2x125x16000) S1x125x640.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x125x640.size a ≤ S2x125x16000.size a
  hwx0_8 : ∀ i : grid0.Coords, EltTy.bits .f32 = 32 ∨ (Rect.block (s := S2x125x16000) S1x125x640.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x125x640.size a ≤ S2x125x16000.size a
  hwx0_9 : ∀ i : grid0.Coords, EltTy.bits .f32 = 32 ∨ (Rect.block (s := S2x125x16000) S1x125x640.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x125x640.size a ≤ S2x125x16000.size a
  hwx0_10 : ∀ i : grid0.Coords, EltTy.bits .f32 = 32 ∨ (Rect.block (s := S2x125x16000) S1x125x640.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x125x640.size a ≤ S2x125x16000.size a
  hwx0_11 : ∀ i : grid0.Coords, EltTy.bits .f32 = 32 ∨ (Rect.block (s := S2x125x16000) S1x125x640.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x8x128.size a ≤ S2x8x128.size a
  hwx0_14 : ∀ i : grid0.Coords, EltTy.bits .f32 = 32 ∨ (Rect.block (s := S2x8x128) S1x8x128.size (cc0_transform_14 i) (hinb0_14 i)).WholeWords (EltTy.packing .f32)

variable [Facts₀]

def gather_S1000000_S4000000x1_S4000000_n_0_n_n_0_1_1 : GatherDims S1000000 S4000000x1 S4000000 where
  offsetDims := []
  collapsedSliceDims := [0]
  operandBatchingDims := []
  startIndicesBatchingDims := []
  startIndexMap := [0]
  indexVectorDim := 1
  sliceSizes := ![1]
  wf := gather_S1000000_S4000000x1_S4000000_n_0_n_n_0_1_1_wf

abbrev win0_0 : Pipeline.Window sig grid0 :=
  Pipeline.Window.ofSpec (Memref.whole main_v17) S1x125x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x125x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x125x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x125x640.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v49) S1x125x640.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v57) S1x125x640.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v60) S1x125x640.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v63) S1x125x640.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v64) S1x125x640.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v65) S1x125x640.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v66) S1x125x640.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v67) S1x125x640.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v68) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v69) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v70) S1x8x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | ⟨_ + 15, h⟩ => absurd h (Nat.not_lt.2 (Nat.le_add_left _ _))

class Facts : Prop extends Facts₀ where

variable [Facts]
-- ==== ReferenceIdeal.lean ====
abbrev S1000000x3 : Shape := ⟨2, ![1000000, 3]⟩
abbrev S4000000x2 : Shape := ⟨2, ![4000000, 2]⟩
abbrev S4000000 : Shape := ⟨1, ![4000000]⟩
abbrev S4000000x3 : Shape := ⟨2, ![4000000, 3]⟩
abbrev S1 : Shape := ⟨1, ![1]⟩
abbrev S3 : Shape := ⟨1, ![3]⟩
abbrev S1x3 : Shape := ⟨2, ![1, 3]⟩
abbrev S4000000x1 : Shape := ⟨2, ![4000000, 1]⟩
abbrev S_ : Shape := ⟨0, ![]⟩

abbrev nBuf : Space → Nat
  | .hbm => 138
  | .vmem => 0
  | .smem => 0
  | _ => 0

abbrev hbmTy0_0 (i : Nat) : BufTy := match i % 128 with
  | 0 => ⟨S1000000x3, .f32⟩
  | 1 => ⟨S4000000x2, .i32⟩
  | 2 => ⟨S4000000, .f32⟩
  | 3 => ⟨S4000000, .f32⟩
  | 4 => ⟨S4000000, .f32⟩
  | 5 => ⟨S4000000, .f32⟩
  | 6 => ⟨S4000000x3, .f32⟩
  | 7 => ⟨S1000000x3, .f32⟩
  | 8 => ⟨S1, .f32⟩
  | 9 => ⟨S1, .f32⟩
  | 10 => ⟨S1, .f32⟩
  | 11 => ⟨S3, .f32⟩
  | 12 => ⟨S1x3, .f32⟩
  | 13 => ⟨S1000000x3, .f32⟩
  | 14 => ⟨S1000000x3, .f32⟩
  | 15 => ⟨S4000000x1, .i32⟩
  | 16 => ⟨S4000000, .i32⟩
  | 17 => ⟨S4000000x1, .i32⟩
  | 18 => ⟨S4000000, .i32⟩
  | 19 => ⟨S_, .i32⟩
  | 20 => ⟨S4000000, .i32⟩
  | 21 => ⟨S4000000, .i1⟩
  | 22 => ⟨S_, .i32⟩
  | 23 => ⟨S4000000, .i32⟩
  | 24 => ⟨S4000000, .i32⟩
  | 25 => ⟨S4000000, .i32⟩
  | 26 => ⟨S4000000x1, .i32⟩
  | 27 => ⟨S4000000x3, .f32⟩
  | 28 => ⟨S_, .i32⟩
  | 29 => ⟨S4000000, .i32⟩
  | 30 => ⟨S4000000, .i1⟩
  | 31 => ⟨S_, .i32⟩
  | 32 => ⟨S4000000, .i32⟩
  | 33 => ⟨S4000000, .i32⟩
  | 34 => ⟨S4000000, .i32⟩
  | 35 => ⟨S4000000x1, .i32⟩
  | 36 => ⟨S4000000x3, .f32⟩
  | 37 => ⟨S4000000x1, .f32⟩
  | 38 => ⟨S4000000, .f32⟩
  | 39 => ⟨S4000000x1, .f32⟩
  | 40 => ⟨S4000000, .f32⟩
  | 41 => ⟨S4000000, .f32⟩
  | 42 => ⟨S4000000, .f32⟩
  | 43 => ⟨S4000000x1, .f32⟩
  | 44 => ⟨S4000000, .f32⟩
  | 45 => ⟨S4000000, .f32⟩
  | 46 => ⟨S4000000x1, .f32⟩
  | 47 => ⟨S4000000, .f32⟩
  | 48 => ⟨S4000000, .f32⟩
  | 49 => ⟨S4000000, .f32⟩
  | 50 => ⟨S4000000, .f32⟩
  | 51 => ⟨S4000000x1, .f32⟩
  | 52 => ⟨S4000000, .f32⟩
  | 53 => ⟨S4000000, .f32⟩
  | 54 => ⟨S4000000x1, .f32⟩
  | 55 => ⟨S4000000, .f32⟩
  | 56 => ⟨S4000000, .f32⟩
  | 57 => ⟨S4000000, .f32⟩
  | 58 => ⟨S4000000x1, .f32⟩
  | 59 => ⟨S4000000, .f32⟩
  | 60 => ⟨S4000000x1, .f32⟩
  | 61 => ⟨S4000000, .f32⟩
  | 62 => ⟨S4000000, .f32⟩
  | 63 => ⟨S4000000x1, .f32⟩
  | 64 => ⟨S4000000, .f32⟩
  | 65 => ⟨S4000000, .f32⟩
  | 66 => ⟨S4000000, .f32⟩
  | 67 => ⟨S4000000, .f32⟩
  | 68 => ⟨S4000000x1, .f32⟩
  | 69 => ⟨S4000000, .f32⟩
  | 70 => ⟨S4000000, .f32⟩
  | 71 => ⟨S4000000x1, .f32⟩
  | 72 => ⟨S4000000, .f32⟩
  | 73 => ⟨S4000000, .f32⟩
  | 74 => ⟨S4000000, .f32⟩
  | 75 => ⟨S4000000x1, .f32⟩
  | 76 => ⟨S4000000, .f32⟩
  | 77 => ⟨S4000000, .f32⟩
  | 78 => ⟨S4000000, .f32⟩
  | 79 => ⟨S_, .f32⟩
  | 80 => ⟨S4000000, .f32⟩
  | 81 => ⟨S4000000, .f32⟩
  | 82 => ⟨S4000000, .f32⟩
  | 83 => ⟨S4000000, .f32⟩
  | 84 => ⟨S4000000, .f32⟩
  | 85 => ⟨S_, .f32⟩
  | 86 => ⟨S4000000, .f32⟩
  | 87 => ⟨S4000000, .f32⟩
  | 88 => ⟨S4000000, .f32⟩
  | 89 => ⟨S4000000, .f32⟩
  | 90 => ⟨S_, .f32⟩
  | 91 => ⟨S4000000, .f32⟩
  | 92 => ⟨S4000000, .f32⟩
  | 93 => ⟨S4000000, .f32⟩
  | 94 => ⟨S_, .f32⟩
  | 95 => ⟨S4000000, .f32⟩
  | 96 => ⟨S4000000, .f32⟩
  | 97 => ⟨S4000000, .f32⟩
  | 98 => ⟨S_, .f32⟩
  | 99 => ⟨S4000000, .f32⟩
  | 100 => ⟨S4000000, .f32⟩
  | 101 => ⟨S4000000, .f32⟩
  | 102 => ⟨S4000000, .f32⟩
  | 103 => ⟨S4000000, .f32⟩
  | 104 => ⟨S_, .f32⟩
  | 105 => ⟨S4000000, .f32⟩
  | 106 => ⟨S4000000, .f32⟩
  | 107 => ⟨S4000000, .f32⟩
  | 108 => ⟨S4000000, .f32⟩
  | 109 => ⟨S4000000, .f32⟩
  | 110 => ⟨S_, .f32⟩
  | 111 => ⟨S4000000, .f32⟩
  | 112 => ⟨S4000000, .f32⟩
  | 113 => ⟨S4000000, .f32⟩
  | 114 => ⟨S4000000, .f32⟩
  | 115 => ⟨S4000000, .f32⟩
  | 116 => ⟨S4000000, .f32⟩
  | 117 => ⟨S_, .f32⟩
  | 118 => ⟨S4000000, .f32⟩
  | 119 => ⟨S4000000, .f32⟩
  | 120 => ⟨S4000000, .f32⟩
  | 121 => ⟨S4000000, .f32⟩
  | 122 => ⟨S4000000, .f32⟩
  | 123 => ⟨S4000000, .f32⟩
  | 124 => ⟨S4000000, .f32⟩
  | 125 => ⟨S4000000, .f32⟩
  | 126 => ⟨S_, .f32⟩
  | 127 => ⟨S_, .f32⟩
  | _ => ⟨S1000000x3, .f32⟩

abbrev hbmTy0_1 (i : Nat) : BufTy := match i % 128 with
  | 0 => ⟨S1000000x3, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_3 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_4 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_5 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_6 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_7 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_8 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_9 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_10 : Ref sig .tc := ⟨.hbm, 126, rfl⟩
abbrev main_v103 : Ref sig .tc := ⟨.hbm, 127, rfl⟩
abbrev main_v104 : Ref sig .tc := ⟨.hbm, 128, rfl⟩
abbrev main_cst_11 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_12 : Ref sig .tc := ⟨.hbm, 135, rfl⟩
abbrev main_v110 : Ref sig .tc := ⟨.hbm, 136, rfl⟩
abbrev main_v111 : Ref sig .tc := ⟨.hbm, 137, rfl⟩

abbrev nD : Nat := 1
abbrev τ : Topo := Topo.v7x

variable {F : FTy → Type} [FloatOps F]

class Facts₀ : Prop where
  concatenates_S1_S1_S1_S3_d0 : Shape.Concatenates [S1, S1, S1] S3 0
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  slices_S4000000x3_S4000000x1_0_0 : S4000000x3.Slices ![0, 0] S4000000x1
  slices_S4000000x3_S4000000x1_0_2 : S4000000x3.Slices ![0, 2] S4000000x1
  slices_S4000000x3_S4000000x1_0_1 : S4000000x3.Slices ![0, 1] S4000000x1
  reducesTo_S4000000_S_d0 : S4000000.ReducesTo [0] S_
  h_S_ : 0 < S_.numel
  reducesTo_S1000000x3_S_d0_1 : S1000000x3.ReducesTo [0, 1] S_
  shapeCasts_S1_S_ : S1.ShapeCasts S_
  gather_S1000000x3_S4000000x1_S4000000x3_1_0_n_n_0_1_13_wf : GatherDims.WF S1000000x3 S4000000x1 S4000000x3 [1] [0] [] [0] [] 1 ![1, 3]

variable [Facts₀]

def gather_S1000000x3_S4000000x1_S4000000x3_1_0_n_n_0_1_13 : GatherDims S1000000x3 S4000000x1 S4000000x3 where
  offsetDims := [1]
  collapsedSliceDims := [0]
  operandBatchingDims := []
  startIndicesBatchingDims := []
  startIndexMap := [0]
  indexVectorDim := 1
  sliceSizes := ![1, 3]
  wf := gather_S1000000x3_S4000000x1_S4000000x3_1_0_n_n_0_1_13_wf

class Facts : Prop extends Facts₀ where

variable [Facts]
-- ==== Proof.K.Setup.lean ====
/-
  The region of the edge-energy kernel as @main sees it, at any float instance.
  @main is: host lines (the two node-index columns made non-negative, six gathers of a node column along an
  index column, the edge arrays re-laid as [2, 125, 16000]), the region (grid 2 x 25: a row p of 125 x 16000
  edges walked in 25 tiles of 640 columns), host lines (the two rows' totals added, the external work
  subtracted, the quotient by the characteristic energy). Here: the memory the region is entered with (V0, V),
  @main in that three-part form (hmain), that the later host lines touch no staging buffer, allocate nothing
  and write no array of the region, that no host line writes an argument array, each window's block at a grid
  point (iblk) and that an input's staging buffer holds it there, the frame claim's post from the launch
  theorem's (frame_of), the two branch conditions of the body in closed form over the 50 grid points
  (first tile: t % 25 = 0, where the running total restarts; last tile: t % 25 = 24, where the row's total is
  stored), where the output window is idle, and the invariant of the region with the running total's buffer
  named.
-/
import proofs.«111899_j63788854280708_2_alg».proof.Proof.Gen.Kernel.Launch
import proofs.«111899_j63788854280708_2_alg».proof.Proof.Gen.Kernel.Skeleton
import proofs.«111899_j63788854280708_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's TensorCore buffers when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later host lines touch only unscoped TensorCore buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 8000000 in
/-- and write no array of the region: each writes its own result buffer only. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-! ## The argument arrays: no host line writes one -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current staging buffer holds its block at every point, fetched there or not. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- For any proof data, a run to the launch theorem's post gives the frame claim's: no argument array is an array of
    the region, and no host line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c)⟩) h

/-! ## The body's two branch conditions -/

/-- The first column tile of a row (j = 0): the running total restarts. -/
abbrev condFirst (i : grid0.Coords) : Prop := (Scalar.cmpi .ne (Scalar.extui (Scalar.cmpi .eq (BitVec.ofNat 32 (i 1).val) 0#32)) 0#32) = 1#1
theorem condFirst_iff : ∀ t : Fin cfg0.N, condFirst (grid0.coords t) ↔ t.val % 25 = 0 :=
  (by decide +kernel : ∀ t : Fin grid0.N, condFirst (grid0.coords t) ↔ t.val % 25 = 0)

/-- The last column tile of a row (j = 24): the row's total is stored into the output block. -/
abbrev condLast (i : grid0.Coords) : Prop := k0_cond2 i = 1#1
theorem condLast_iff : ∀ t : Fin cfg0.N, condLast (grid0.coords t) ↔ t.val % 25 = 24 :=
  (by decide +kernel : ∀ t : Fin grid0.N, condLast (grid0.coords t) ↔ t.val % 25 = 24)

/-! ## Where the windows are idle -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
theorem live13 : ∀ t : Fin cfg0.N, cfg0.idle 13 (grid0.coords t) = false := by decide +kernel
/-- Away from a row's last tile the body stores nothing into the output block, and the block is not written back; -/
theorem out_idle : ∀ t : Fin cfg0.N, ¬condLast (grid0.coords t) → cfg0.idle 14 (grid0.coords t) = true := by decide +kernel
theorem out_noFlush : ∀ t : Fin cfg0.N, ¬condLast (grid0.coords t) → (cfg0.win 14).flush t = false := by decide +kernel
/-- at the last tile it does. -/
theorem out_live : ∀ t : Fin cfg0.N, condLast (grid0.coords t) → cfg0.idle 14 (grid0.coords t) = false := by decide +kernel

/-! ## The staging buffers at a point, and the running total's buffer -/
abbrev ms0 (t : Fin cfg0.N) : Memref sig .tc .vmem S1x125x640 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x125x640 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x125x640 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x125x640 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x125x640 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x125x640 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x125x640 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x125x640 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x125x640 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x125x640 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x125x640 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x125x640 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x1 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x1 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x8x128 .f32 := win0_14.stage (cfg0.slots t 14)
abbrev hs14 (t : Fin cfg0.N) : (ms14 t).IsWhole := hstage0_14 ((cfg0.slots t 14).cast nbuf0_14)
/-- The buffer the body keeps its running total in, a scoped buffer of the kernel's own. -/
abbrev scM : Memref sig .tc .vmem S8x128 .f32 := Memref.whole cc0_scratch0
abbrev VS : View sig .tc .vmem S8x128 .f32 := scM.view
/-- One staging buffer of the output window, through which its contents are stated. -/
abbrev VO : View sig .tc .vmem S1x8x128 .f32 := (Memref.whole cc0_stg14_0 : Memref sig .tc .vmem S1x8x128 .f32).view

/-- The region's invariant with the running total's buffer named: owned at some contents, beside the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.K.RunFirst.lean ====
/-
  The kernel body at the first column tile of a row (the running total restarts from zero, then takes the tile's energy sum; nothing is stored into the output block),
  run once on any whole staging buffers: from the fourteen input buffers at given contents
  and the output buffer at given contents, handed back untouched, the body terminates without a fault with the inputs as they were and the
  running total's buffer overwritten by the stores the run meets (found by the run, listed last first).
-/
import proofs.«111899_j63788854280708_2_alg».proof.Proof.K.Setup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runFirst (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) :
    Σ' (LO : List (View.Piece (Elt F) S1x8x128 .f32)), { LS : List (View.Piece (Elt F) S8x128 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi ∗ (∃ f, arg17.view.loc (c : Thread nD τ) ↦[arg17.view.set]{fullShare} arg17.view.writes (Elt F) f LS)) -∗ K ⟨⟩))
          ⊢ wp frame (wpE (defs₀ (F := F)) Variants.none c none) E (cc0__edge_energy_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, fun xi E K => ?run⟩
  case run =>
    simp only [cc0__edge_energy_kernel_eq_skeleton]; unfold cc0__edge_energy_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HO]
    · iexists _; isplitr; · ipureintro; exact harg16.read_unread _
      iexact HO
    iexists _; iexact HS

end Cert.Kernel.Fr

end
-- ==== Proof.K.RunMid.lean ====
/-
  The kernel body at a middle column tile of a row (the running total, left by the tile before, takes the tile's energy sum; nothing is stored into the output block),
  run once on any whole staging buffers: from the fourteen input buffers at given contents, the running total's buffer at given contents
  and the output buffer at given contents, handed back untouched, the body terminates without a fault with the inputs as they were and the
  running total's buffer overwritten by the stores the run meets (found by the run, listed last first).
-/
import proofs.«111899_j63788854280708_2_alg».proof.Proof.K.Setup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runMid (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) :
    Σ' (LO : List (View.Piece (Elt F) S1x8x128 .f32)), { LS : List (View.Piece (Elt F) S8x128 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi ∗ owns (c : Thread nD τ) arg17 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi ∗ (∃ f, arg17.view.loc (c : Thread nD τ) ↦[arg17.view.set]{fullShare} arg17.view.writes (Elt F) f LS)) -∗ K ⟨⟩))
          ⊢ wp frame (wpE (defs₀ (F := F)) Variants.none c none) E (cc0__edge_energy_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, fun xi E K => ?run⟩
  case run =>
    simp only [cc0__edge_energy_kernel_eq_skeleton]; unfold cc0__edge_energy_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hfO; obtain rfl := harg17.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HO]
    · iexists _; isplitr; · ipureintro; exact harg16.read_unread _
      iexact HO
    iexists _; iexact HS

end Cert.Kernel.Fr

end
-- ==== Proof.K.RunLast.lean ====
/-
  The kernel body at the last column tile of a row (the running total takes the tile's energy sum and is then stored into the output block),
  run once on any whole staging buffers: from the fourteen input buffers at given contents, the running total's buffer at given contents
  and the output buffer at anything, the body terminates without a fault with the inputs as they were and the
  running total's buffer and the output buffer overwritten by the stores the run meets (found by the run, listed last first).
-/
import proofs.«111899_j63788854280708_2_alg».proof.Proof.K.Setup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runLast (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) :
    Σ' (LO : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f LO) ∗ (∃ f, arg17.view.loc (c : Thread nD τ) ↦[arg17.view.set]{fullShare} arg17.view.writes (Elt F) f LS)) -∗ K ⟨⟩))
          ⊢ wp frame (wpE (defs₀ (F := F)) Variants.none c none) E (cc0__edge_energy_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0__edge_energy_kernel_eq_skeleton]; unfold cc0__edge_energy_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%dO, %fO, -, HO⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HO]; · iexists _; iexact HO
    iexists _; iexact HS

end Cert.Kernel.Fr

end
-- ==== Proof.K.Frame.lean ====
/-
  The frame of the edge-energy program, at any float instance: under no hypothesis on the memory, every weakly
  fair execution of @main terminates without a fault and leaves the eleven argument arrays as they were.
  The region's body has three control cases over the 50 grid points t = 25 p + j: the first column tile of a
  row (j = 0: the running total restarts), a middle tile, the last tile (j = 24: the row's total is stored
  into the output block, the only points where that block is written back). What each case leaves in the
  running total's buffer and in the output block is read back from the stores its run met (they tile the
  buffer); what the buffers hold after each point follows by recursion on the point, a middle or last tile
  starting from what the tile before left. The invariant of the region carries the running total's buffer at
  that value between points. With this the body meets the launch theorem's obligation at every point, the
  launch theorem gives the run, and the run gives the frame.
-/
import proofs.«111899_j63788854280708_2_alg».proof.Proof.K.RunFirst
import proofs.«111899_j63788854280708_2_alg».proof.Proof.K.RunMid
import proofs.«111899_j63788854280708_2_alg».proof.Proof.K.RunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The stores of the first-tile case into the running total's buffer tile it. -/
theorem scoverFirst (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (y : S8x128.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.1 S8x128.size (by sl_kernel_rfl) y
/-- What the first-tile case leaves there. -/
def sLeftFirst (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) : Vec F S8x128 .f32 :=
  VS.read (Elt F) (VS.writes (Elt F) VS.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.1)

theorem scoverMid (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) (y : S8x128.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).2.1, y ∈ pc.1.set :=
  View.cover_of_tiledL (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).2.1 S8x128.size (by sl_kernel_rfl) y
/-- What a middle-tile case leaves there, from what the tile before left (xs). -/
def sLeftMid (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) : Vec F S8x128 .f32 :=
  VS.read (Elt F) (VS.writes (Elt F) VS.junk (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).2.1)

theorem scoverLast (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) (y : S8x128.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).2.1 S8x128.size (by sl_kernel_rfl) y
/-- What the last-tile case leaves in the running total's buffer, -/
def sLeftLast (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) : Vec F S8x128 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).2.1)
/-- and in the output block: its one store covers the block. -/
theorem ocoverLast (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) (y : S1x8x128.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).1 S1x8x128.size (by sl_kernel_rfl) y
def oLeftLast (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) : Vec F S1x8x128 .f32 :=
  VO.read (Elt F) (VO.writes (Elt F) VO.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).1)
/-- Away from a last tile nothing is stored into the output block: a value nothing consults (the block is neither
    written back there nor read at the next point). -/
def oIdle : Vec F S1x8x128 .f32 := VO.read (Elt F) (VO.writes (Elt F) VO.junk [])

/-! ## What the buffers hold after each point -/

/-- After the body at position n: the output block's staging buffer and the running total's buffer. -/
def accAt (c : Dev nD) : (n : ℕ) → n < cfg0.N → Vec F S1x8x128 .f32 × Vec F S8x128 .f32
  | 0, hn => (oIdle, sLeftFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) (ms13 ⟨0, hn⟩) (hs13 ⟨0, hn⟩) (ms14 ⟨0, hn⟩) (hs14 ⟨0, hn⟩) scM (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩))
  | n + 1, hn =>
    if h0 : (n + 1) % 25 = 0 then
      if h1 : (n + 1) % 25 = 24 then
        False.elim (by omega)
      else
        (oIdle, sLeftFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) scM (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩))
    else
      if h1 : (n + 1) % 25 = 24 then
        (oLeftLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (accAt c n (Nat.lt_of_succ_lt hn)).2,
         sLeftLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (accAt c n (Nat.lt_of_succ_lt hn)).2)
      else
        (oIdle, sLeftMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) scM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (accAt c n (Nat.lt_of_succ_lt hn)).2)

theorem accAt_First (c : Dev nD) (t : Fin cfg0.N) (h0 : t.val % 25 = 0) (h1 : ¬t.val % 25 = 24) :
    accAt m c t.val t.isLt = (oIdle, sLeftFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  obtain ⟨n, hn⟩ := t
  cases n with
  | zero => exact rfl
  | succ n => exact (dif_pos h0).trans ((dif_neg h1).trans rfl)

theorem accAt_Mid (c : Dev nD) (t : Fin cfg0.N) (h0 : ¬t.val % 25 = 0) (h1 : ¬t.val % 25 = 24) :
    accAt m c t.val t.isLt = (oIdle, sLeftMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (accAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem accAt_Last (c : Dev nD) (t : Fin cfg0.N) (h0 : ¬t.val % 25 = 0) (h1 : t.val % 25 = 24) :
    accAt m c t.val t.isLt = (oLeftLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (accAt m c (t.val - 1) (Nat.lt_of_le_of_lt (Nat.sub_le _ _) t.isLt)).2,
      sLeftLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (accAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the launch's; afterwards the running total's
    buffer at what the point before left in it, beside the generator register. -/
def PhiS (c : Dev nD) : (n : ℕ) → n ≤ cfg0.N → sProp 𝕄
  | 0, _ => Pipeline.ΦA spec0 c
  | n + 1, hn => iprop(iprop(owns (c : Thread nD τ) scM fullShare ((accAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((accAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((accAt m c (n - 1) (by omega)).2)) ∗ (∃ r, prngReg c r)) := by
  cases n with
  | zero => exact absurd rfl hz
  | succ n => rfl

/-! ## The proof data -/

/-- The arrays as the region finds them; after the body at point t each input's buffer at its block and the
    output block's at the accumulation's first component; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (accAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = (accAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 16000000 in
/-- The body at any point: each input's buffer holds its block; the closed forms of the two conditions say which case
    the point is in; the invariant hands the body the running total's buffer (at anything before the very first point,
    else at what the point before left) and takes it back at this point's value; the output block is handed back
    untouched away from a last tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  by_cases h0 : t.val % 25 = 0
  · by_cases h1 : t.val % 25 = 24
    · exfalso; omega
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t], after8]
      rw [show (dats m 0 c).leavesExact 9 t = owns (c : Thread nD τ) (ms9 t) fullShare ((dats m 0 c).after 9 t) from by
        unfold Dat.leavesExact; rw [live9 t], after9]
      rw [show (dats m 0 c).leavesExact 10 t = owns (c : Thread nD τ) (ms10 t) fullShare ((dats m 0 c).after 10 t) from by
        unfold Dat.leavesExact; rw [live10 t], after10]
      rw [show (dats m 0 c).leavesExact 11 t = owns (c : Thread nD τ) (ms11 t) fullShare ((dats m 0 c).after 11 t) from by
        unfold Dat.leavesExact; rw [live11 t], after11]
      rw [show (dats m 0 c).leavesExact 12 t = owns (c : Thread nD τ) (ms12 t) fullShare ((dats m 0 c).after 12 t) from by
        unfold Dat.leavesExact; rw [live12 t], after12]
      rw [show (dats m 0 c).leavesExact 13 t = owns (c : Thread nD τ) (ms13 t) fullShare ((dats m 0 c).after 13 t) from by
        unfold Dat.leavesExact; rw [live13 t], after13]
      rw [Dat.leavesExact_idle (dats m 0 c) 14 t (out_idle t (fun h => h1 ((condLast_iff t).mp h))) (out_noFlush t (fun h => h1 ((condLast_iff t).mp h)))]
      rw [accAt_First m c t h0 h1]
      unfold sLeftFirst; (try dsimp only)
      by_cases hz : t.val = 0
      ·
        rw [PhiS_castSucc m c t, PhiS_zero m c _ _ hz, PhiA_eq]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [HS]; · iexact HS
        iintro ⟨H0, H1, H2, H3, H4, H5, H6, H7, H8, H9, H10, H11, H12, H13, H14, ⟨%es, HS⟩⟩
        isplitl [HS Hg]
        · isplitl [HS]
          · unfold owns; iexists _; isplitr
            swap; · iexact HS
            ipureintro; exact View.read_writes_of_cover _ _ _ _ _ (scoverFirst c _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexists _; iexact H14
      ·
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [HS]; · iexists _; iexact HS
        iintro ⟨H0, H1, H2, H3, H4, H5, H6, H7, H8, H9, H10, H11, H12, H13, H14, ⟨%es, HS⟩⟩
        isplitl [HS Hg]
        · isplitl [HS]
          · unfold owns; iexists _; isplitr
            swap; · iexact HS
            ipureintro; exact View.read_writes_of_cover _ _ _ _ _ (scoverFirst c _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexists _; iexact H14
  · by_cases h1 : t.val % 25 = 24
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t], after8]
      rw [show (dats m 0 c).leavesExact 9 t = owns (c : Thread nD τ) (ms9 t) fullShare ((dats m 0 c).after 9 t) from by
        unfold Dat.leavesExact; rw [live9 t], after9]
      rw [show (dats m 0 c).leavesExact 10 t = owns (c : Thread nD τ) (ms10 t) fullShare ((dats m 0 c).after 10 t) from by
        unfold Dat.leavesExact; rw [live10 t], after10]
      rw [show (dats m 0 c).leavesExact 11 t = owns (c : Thread nD τ) (ms11 t) fullShare ((dats m 0 c).after 11 t) from by
        unfold Dat.leavesExact; rw [live11 t], after11]
      rw [show (dats m 0 c).leavesExact 12 t = owns (c : Thread nD τ) (ms12 t) fullShare ((dats m 0 c).after 12 t) from by
        unfold Dat.leavesExact; rw [live12 t], after12]
      rw [show (dats m 0 c).leavesExact 13 t = owns (c : Thread nD τ) (ms13 t) fullShare ((dats m 0 c).after 13 t) from by
        unfold Dat.leavesExact; rw [live13 t], after13]
      rw [show (dats m 0 c).leavesExact 14 t = owns (c : Thread nD τ) (ms14 t) fullShare ((dats m 0 c).after 14 t) from by
        unfold Dat.leavesExact; rw [out_live t ((condLast_iff t).mpr h1)], after14]
      rw [accAt_Last m c t h0 h1]
      unfold oLeftLast sLeftLast; (try dsimp only)
      by_cases hz : t.val = 0
      · exfalso; omega
      ·
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [HS]; · iexact HS
        iintro ⟨H0, H1, H2, H3, H4, H5, H6, H7, H8, H9, H10, H11, H12, H13, ⟨%e14, H14⟩, ⟨%es, HS⟩⟩
        isplitl [HS Hg]
        · isplitl [HS]
          · unfold owns; iexists _; isplitr
            swap; · iexact HS
            ipureintro; exact View.read_writes_of_cover _ _ _ _ _ (scoverLast c _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        unfold owns; iexists _; isplitr
        swap; · iexact H14
        ipureintro; exact View.read_writes_of_cover _ _ _ _ _ (ocoverLast c _ _ _ _ _ _ _ _ _ _ _ _ _ _ _ _ _ _ _ _ _ _ _ _ _ _ _ _ _ _ _ _ _ _ _ _ _ _ _ _ _ _ _ _ _ _ _ _ _ _)
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t], after8]
      rw [show (dats m 0 c).leavesExact 9 t = owns (c : Thread nD τ) (ms9 t) fullShare ((dats m 0 c).after 9 t) from by
        unfold Dat.leavesExact; rw [live9 t], after9]
      rw [show (dats m 0 c).leavesExact 10 t = owns (c : Thread nD τ) (ms10 t) fullShare ((dats m 0 c).after 10 t) from by
        unfold Dat.leavesExact; rw [live10 t], after10]
      rw [show (dats m 0 c).leavesExact 11 t = owns (c : Thread nD τ) (ms11 t) fullShare ((dats m 0 c).after 11 t) from by
        unfold Dat.leavesExact; rw [live11 t], after11]
      rw [show (dats m 0 c).leavesExact 12 t = owns (c : Thread nD τ) (ms12 t) fullShare ((dats m 0 c).after 12 t) from by
        unfold Dat.leavesExact; rw [live12 t], after12]
      rw [show (dats m 0 c).leavesExact 13 t = owns (c : Thread nD τ) (ms13 t) fullShare ((dats m 0 c).after 13 t) from by
        unfold Dat.leavesExact; rw [live13 t], after13]
      rw [Dat.leavesExact_idle (dats m 0 c) 14 t (out_idle t (fun h => h1 ((condLast_iff t).mp h))) (out_noFlush t (fun h => h1 ((condLast_iff t).mp h)))]
      rw [accAt_Mid m c t h0 h1]
      unfold sLeftMid; (try dsimp only)
      by_cases hz : t.val = 0
      · exfalso; omega
      ·
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [HS]; · iexact HS
        iintro ⟨H0, H1, H2, H3, H4, H5, H6, H7, H8, H9, H10, H11, H12, H13, H14, ⟨%es, HS⟩⟩
        isplitl [HS Hg]
        · isplitl [HS]
          · unfold owns; iexists _; isplitr
            swap; · iexact HS
            ipureintro; exact View.read_writes_of_cover _ _ _ _ _ (scoverMid c _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexists _; iexact H14

/-- The launch theorem's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the running total's named value is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 50 := N_0; omega)

/-! ## The run and the frame -/

set_option backward.isDefEq.respectTransparency.types false in
/-- Every weakly fair execution of @main terminates; at the end every array of the region holds what the proof data
    says and every other unscoped buffer what the later host lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.Kernel.Fr

end
-- ==== Proof.KI.Setup.lean ====
/-
  The region of the edge-energy kernel as @main sees it, at any float instance.
  @main is: host lines (the two node-index columns made non-negative, six gathers of a node column along an
  index column, the edge arrays re-laid as [2, 125, 16000]), the region (grid 2 x 25: a row p of 125 x 16000
  edges walked in 25 tiles of 640 columns), host lines (the two rows' totals added, the external work
  subtracted, the quotient by the characteristic energy). Here: the memory the region is entered with (V0, V),
  @main in that three-part form (hmain), that the later host lines touch no staging buffer, allocate nothing
  and write no array of the region, that no host line writes an argument array, each window's block at a grid
  point (iblk) and that an input's staging buffer holds it there, the frame claim's post from the launch
  theorem's (frame_of), the two branch conditions of the body in closed form over the 50 grid points
  (first tile: t % 25 = 0, where the running total restarts; last tile: t % 25 = 24, where the row's total is
  stored), where the output window is idle, and the invariant of the region with the running total's buffer
  named.
-/
import proofs.«111899_j63788854280708_2_alg».proof.Proof.Gen.KernelIdeal.Launch
import proofs.«111899_j63788854280708_2_alg».proof.Proof.Gen.KernelIdeal.Skeleton
import proofs.«111899_j63788854280708_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's TensorCore buffers when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later host lines touch only unscoped TensorCore buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 8000000 in
/-- and write no array of the region: each writes its own result buffer only. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-! ## The argument arrays: no host line writes one -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current staging buffer holds its block at every point, fetched there or not. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- For any proof data, a run to the launch theorem's post gives the frame claim's: no argument array is an array of
    the region, and no host line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c)⟩) h

/-! ## The body's two branch conditions -/

/-- The first column tile of a row (j = 0): the running total restarts. -/
abbrev condFirst (i : grid0.Coords) : Prop := (Scalar.cmpi .ne (Scalar.extui (Scalar.cmpi .eq (BitVec.ofNat 32 (i 1).val) 0#32)) 0#32) = 1#1
theorem condFirst_iff : ∀ t : Fin cfg0.N, condFirst (grid0.coords t) ↔ t.val % 25 = 0 :=
  (by decide +kernel : ∀ t : Fin grid0.N, condFirst (grid0.coords t) ↔ t.val % 25 = 0)

/-- The last column tile of a row (j = 24): the row's total is stored into the output block. -/
abbrev condLast (i : grid0.Coords) : Prop := k0_cond2 i = 1#1
theorem condLast_iff : ∀ t : Fin cfg0.N, condLast (grid0.coords t) ↔ t.val % 25 = 24 :=
  (by decide +kernel : ∀ t : Fin grid0.N, condLast (grid0.coords t) ↔ t.val % 25 = 24)

/-! ## Where the windows are idle -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
theorem live13 : ∀ t : Fin cfg0.N, cfg0.idle 13 (grid0.coords t) = false := by decide +kernel
/-- Away from a row's last tile the body stores nothing into the output block, and the block is not written back; -/
theorem out_idle : ∀ t : Fin cfg0.N, ¬condLast (grid0.coords t) → cfg0.idle 14 (grid0.coords t) = true := by decide +kernel
theorem out_noFlush : ∀ t : Fin cfg0.N, ¬condLast (grid0.coords t) → (cfg0.win 14).flush t = false := by decide +kernel
/-- at the last tile it does. -/
theorem out_live : ∀ t : Fin cfg0.N, condLast (grid0.coords t) → cfg0.idle 14 (grid0.coords t) = false := by decide +kernel

/-! ## The staging buffers at a point, and the running total's buffer -/
abbrev ms0 (t : Fin cfg0.N) : Memref sig .tc .vmem S1x125x640 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x125x640 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x125x640 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x125x640 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x125x640 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x125x640 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x125x640 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x125x640 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x125x640 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x125x640 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x125x640 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x125x640 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x1 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x1 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x8x128 .f32 := win0_14.stage (cfg0.slots t 14)
abbrev hs14 (t : Fin cfg0.N) : (ms14 t).IsWhole := hstage0_14 ((cfg0.slots t 14).cast nbuf0_14)
/-- The buffer the body keeps its running total in, a scoped buffer of the kernel's own. -/
abbrev scM : Memref sig .tc .vmem S8x128 .f32 := Memref.whole cc0_scratch0
abbrev VS : View sig .tc .vmem S8x128 .f32 := scM.view
/-- One staging buffer of the output window, through which its contents are stated. -/
abbrev VO : View sig .tc .vmem S1x8x128 .f32 := (Memref.whole cc0_stg14_0 : Memref sig .tc .vmem S1x8x128 .f32).view

/-- The region's invariant with the running total's buffer named: owned at some contents, beside the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.KI.RunFirst.lean ====
/-
  The kernel body at the first column tile of a row (the running total restarts from zero, then takes the tile's energy sum; nothing is stored into the output block),
  run once on any whole staging buffers: from the fourteen input buffers at given contents
  and the output buffer at given contents, handed back untouched, the body terminates without a fault with the inputs as they were and the
  running total's buffer overwritten by the stores the run meets (found by the run, listed last first).
-/
import proofs.«111899_j63788854280708_2_alg».proof.Proof.KI.Setup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runFirst (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) :
    Σ' (LO : List (View.Piece (Elt F) S1x8x128 .f32)), { LS : List (View.Piece (Elt F) S8x128 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi ∗ (∃ f, arg17.view.loc (c : Thread nD τ) ↦[arg17.view.set]{fullShare} arg17.view.writes (Elt F) f LS)) -∗ K ⟨⟩))
          ⊢ wp frame (wpE (defs₀ (F := F)) Variants.none c none) E (cc0__edge_energy_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, fun xi E K => ?run⟩
  case run =>
    simp only [cc0__edge_energy_kernel_eq_skeleton]; unfold cc0__edge_energy_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HO]
    · iexists _; isplitr; · ipureintro; exact harg16.read_unread _
      iexact HO
    iexists _; iexact HS

end Cert.KernelIdeal.Fr

end
-- ==== Proof.KI.RunMid.lean ====
/-
  The kernel body at a middle column tile of a row (the running total, left by the tile before, takes the tile's energy sum; nothing is stored into the output block),
  run once on any whole staging buffers: from the fourteen input buffers at given contents, the running total's buffer at given contents
  and the output buffer at given contents, handed back untouched, the body terminates without a fault with the inputs as they were and the
  running total's buffer overwritten by the stores the run meets (found by the run, listed last first).
-/
import proofs.«111899_j63788854280708_2_alg».proof.Proof.KI.Setup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runMid (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) :
    Σ' (LO : List (View.Piece (Elt F) S1x8x128 .f32)), { LS : List (View.Piece (Elt F) S8x128 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi ∗ owns (c : Thread nD τ) arg17 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi ∗ (∃ f, arg17.view.loc (c : Thread nD τ) ↦[arg17.view.set]{fullShare} arg17.view.writes (Elt F) f LS)) -∗ K ⟨⟩))
          ⊢ wp frame (wpE (defs₀ (F := F)) Variants.none c none) E (cc0__edge_energy_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, fun xi E K => ?run⟩
  case run =>
    simp only [cc0__edge_energy_kernel_eq_skeleton]; unfold cc0__edge_energy_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hfO; obtain rfl := harg17.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HO]
    · iexists _; isplitr; · ipureintro; exact harg16.read_unread _
      iexact HO
    iexists _; iexact HS

end Cert.KernelIdeal.Fr

end
-- ==== Proof.KI.RunLast.lean ====
/-
  The kernel body at the last column tile of a row (the running total takes the tile's energy sum and is then stored into the output block),
  run once on any whole staging buffers: from the fourteen input buffers at given contents, the running total's buffer at given contents
  and the output buffer at anything, the body terminates without a fault with the inputs as they were and the
  running total's buffer and the output buffer overwritten by the stores the run meets (found by the run, listed last first).
-/
import proofs.«111899_j63788854280708_2_alg».proof.Proof.KI.Setup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runLast (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) :
    Σ' (LO : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f LO) ∗ (∃ f, arg17.view.loc (c : Thread nD τ) ↦[arg17.view.set]{fullShare} arg17.view.writes (Elt F) f LS)) -∗ K ⟨⟩))
          ⊢ wp frame (wpE (defs₀ (F := F)) Variants.none c none) E (cc0__edge_energy_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0__edge_energy_kernel_eq_skeleton]; unfold cc0__edge_energy_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%dO, %fO, -, HO⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HO]; · iexists _; iexact HO
    iexists _; iexact HS

end Cert.KernelIdeal.Fr

end
-- ==== Proof.KI.Frame.lean ====
/-
  The frame of the edge-energy program, at any float instance: under no hypothesis on the memory, every weakly
  fair execution of @main terminates without a fault and leaves the eleven argument arrays as they were.
  The region's body has three control cases over the 50 grid points t = 25 p + j: the first column tile of a
  row (j = 0: the running total restarts), a middle tile, the last tile (j = 24: the row's total is stored
  into the output block, the only points where that block is written back). What each case leaves in the
  running total's buffer and in the output block is read back from the stores its run met (they tile the
  buffer); what the buffers hold after each point follows by recursion on the point, a middle or last tile
  starting from what the tile before left. The invariant of the region carries the running total's buffer at
  that value between points. With this the body meets the launch theorem's obligation at every point, the
  launch theorem gives the run, and the run gives the frame.
-/
import proofs.«111899_j63788854280708_2_alg».proof.Proof.KI.RunFirst
import proofs.«111899_j63788854280708_2_alg».proof.Proof.KI.RunMid
import proofs.«111899_j63788854280708_2_alg».proof.Proof.KI.RunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The stores of the first-tile case into the running total's buffer tile it. -/
theorem scoverFirst (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (y : S8x128.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.1 S8x128.size (by sl_kernel_rfl) y
/-- What the first-tile case leaves there. -/
def sLeftFirst (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) : Vec F S8x128 .f32 :=
  VS.read (Elt F) (VS.writes (Elt F) VS.junk (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13).2.1)

theorem scoverMid (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) (y : S8x128.Idx) :
    ∃ pc ∈ (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).2.1, y ∈ pc.1.set :=
  View.cover_of_tiledL (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).2.1 S8x128.size (by sl_kernel_rfl) y
/-- What a middle-tile case leaves there, from what the tile before left (xs). -/
def sLeftMid (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) : Vec F S8x128 .f32 :=
  VS.read (Elt F) (VS.writes (Elt F) VS.junk (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).2.1)

theorem scoverLast (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) (y : S8x128.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).2.1 S8x128.size (by sl_kernel_rfl) y
/-- What the last-tile case leaves in the running total's buffer, -/
def sLeftLast (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) : Vec F S8x128 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).2.1)
/-- and in the output block: its one store covers the block. -/
theorem ocoverLast (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) (y : S1x8x128.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).1 S1x8x128.size (by sl_kernel_rfl) y
def oLeftLast (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) : Vec F S1x8x128 .f32 :=
  VO.read (Elt F) (VO.writes (Elt F) VO.junk (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs).1)
/-- Away from a last tile nothing is stored into the output block: a value nothing consults (the block is neither
    written back there nor read at the next point). -/
def oIdle : Vec F S1x8x128 .f32 := VO.read (Elt F) (VO.writes (Elt F) VO.junk [])

/-! ## What the buffers hold after each point -/

/-- After the body at position n: the output block's staging buffer and the running total's buffer. -/
def accAt (c : Dev nD) : (n : ℕ) → n < cfg0.N → Vec F S1x8x128 .f32 × Vec F S8x128 .f32
  | 0, hn => (oIdle, sLeftFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) (ms13 ⟨0, hn⟩) (hs13 ⟨0, hn⟩) (ms14 ⟨0, hn⟩) (hs14 ⟨0, hn⟩) scM (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩))
  | n + 1, hn =>
    if h0 : (n + 1) % 25 = 0 then
      if h1 : (n + 1) % 25 = 24 then
        False.elim (by omega)
      else
        (oIdle, sLeftFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) scM (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩))
    else
      if h1 : (n + 1) % 25 = 24 then
        (oLeftLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (accAt c n (Nat.lt_of_succ_lt hn)).2,
         sLeftLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (accAt c n (Nat.lt_of_succ_lt hn)).2)
      else
        (oIdle, sLeftMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) scM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (accAt c n (Nat.lt_of_succ_lt hn)).2)

theorem accAt_First (c : Dev nD) (t : Fin cfg0.N) (h0 : t.val % 25 = 0) (h1 : ¬t.val % 25 = 24) :
    accAt m c t.val t.isLt = (oIdle, sLeftFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  obtain ⟨n, hn⟩ := t
  cases n with
  | zero => exact rfl
  | succ n => exact (dif_pos h0).trans ((dif_neg h1).trans rfl)

theorem accAt_Mid (c : Dev nD) (t : Fin cfg0.N) (h0 : ¬t.val % 25 = 0) (h1 : ¬t.val % 25 = 24) :
    accAt m c t.val t.isLt = (oIdle, sLeftMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (accAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem accAt_Last (c : Dev nD) (t : Fin cfg0.N) (h0 : ¬t.val % 25 = 0) (h1 : t.val % 25 = 24) :
    accAt m c t.val t.isLt = (oLeftLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (accAt m c (t.val - 1) (Nat.lt_of_le_of_lt (Nat.sub_le _ _) t.isLt)).2,
      sLeftLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (accAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the launch's; afterwards the running total's
    buffer at what the point before left in it, beside the generator register. -/
def PhiS (c : Dev nD) : (n : ℕ) → n ≤ cfg0.N → sProp 𝕄
  | 0, _ => Pipeline.ΦA spec0 c
  | n + 1, hn => iprop(iprop(owns (c : Thread nD τ) scM fullShare ((accAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((accAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((accAt m c (n - 1) (by omega)).2)) ∗ (∃ r, prngReg c r)) := by
  cases n with
  | zero => exact absurd rfl hz
  | succ n => rfl

/-! ## The proof data -/

/-- The arrays as the region finds them; after the body at point t each input's buffer at its block and the
    output block's at the accumulation's first component; the invariant PhiS; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (accAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = (accAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 16000000 in
/-- The body at any point: each input's buffer holds its block; the closed forms of the two conditions say which case
    the point is in; the invariant hands the body the running total's buffer (at anything before the very first point,
    else at what the point before left) and takes it back at this point's value; the output block is handed back
    untouched away from a last tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  by_cases h0 : t.val % 25 = 0
  · by_cases h1 : t.val % 25 = 24
    · exfalso; omega
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t], after8]
      rw [show (dats m 0 c).leavesExact 9 t = owns (c : Thread nD τ) (ms9 t) fullShare ((dats m 0 c).after 9 t) from by
        unfold Dat.leavesExact; rw [live9 t], after9]
      rw [show (dats m 0 c).leavesExact 10 t = owns (c : Thread nD τ) (ms10 t) fullShare ((dats m 0 c).after 10 t) from by
        unfold Dat.leavesExact; rw [live10 t], after10]
      rw [show (dats m 0 c).leavesExact 11 t = owns (c : Thread nD τ) (ms11 t) fullShare ((dats m 0 c).after 11 t) from by
        unfold Dat.leavesExact; rw [live11 t], after11]
      rw [show (dats m 0 c).leavesExact 12 t = owns (c : Thread nD τ) (ms12 t) fullShare ((dats m 0 c).after 12 t) from by
        unfold Dat.leavesExact; rw [live12 t], after12]
      rw [show (dats m 0 c).leavesExact 13 t = owns (c : Thread nD τ) (ms13 t) fullShare ((dats m 0 c).after 13 t) from by
        unfold Dat.leavesExact; rw [live13 t], after13]
      rw [Dat.leavesExact_idle (dats m 0 c) 14 t (out_idle t (fun h => h1 ((condLast_iff t).mp h))) (out_noFlush t (fun h => h1 ((condLast_iff t).mp h)))]
      rw [accAt_First m c t h0 h1]
      unfold sLeftFirst; (try dsimp only)
      by_cases hz : t.val = 0
      ·
        rw [PhiS_castSucc m c t, PhiS_zero m c _ _ hz, PhiA_eq]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [HS]; · iexact HS
        iintro ⟨H0, H1, H2, H3, H4, H5, H6, H7, H8, H9, H10, H11, H12, H13, H14, ⟨%es, HS⟩⟩
        isplitl [HS Hg]
        · isplitl [HS]
          · unfold owns; iexists _; isplitr
            swap; · iexact HS
            ipureintro; exact View.read_writes_of_cover _ _ _ _ _ (scoverFirst c _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexists _; iexact H14
      ·
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [HS]; · iexists _; iexact HS
        iintro ⟨H0, H1, H2, H3, H4, H5, H6, H7, H8, H9, H10, H11, H12, H13, H14, ⟨%es, HS⟩⟩
        isplitl [HS Hg]
        · isplitl [HS]
          · unfold owns; iexists _; isplitr
            swap; · iexact HS
            ipureintro; exact View.read_writes_of_cover _ _ _ _ _ (scoverFirst c _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexists _; iexact H14
  · by_cases h1 : t.val % 25 = 24
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t], after8]
      rw [show (dats m 0 c).leavesExact 9 t = owns (c : Thread nD τ) (ms9 t) fullShare ((dats m 0 c).after 9 t) from by
        unfold Dat.leavesExact; rw [live9 t], after9]
      rw [show (dats m 0 c).leavesExact 10 t = owns (c : Thread nD τ) (ms10 t) fullShare ((dats m 0 c).after 10 t) from by
        unfold Dat.leavesExact; rw [live10 t], after10]
      rw [show (dats m 0 c).leavesExact 11 t = owns (c : Thread nD τ) (ms11 t) fullShare ((dats m 0 c).after 11 t) from by
        unfold Dat.leavesExact; rw [live11 t], after11]
      rw [show (dats m 0 c).leavesExact 12 t = owns (c : Thread nD τ) (ms12 t) fullShare ((dats m 0 c).after 12 t) from by
        unfold Dat.leavesExact; rw [live12 t], after12]
      rw [show (dats m 0 c).leavesExact 13 t = owns (c : Thread nD τ) (ms13 t) fullShare ((dats m 0 c).after 13 t) from by
        unfold Dat.leavesExact; rw [live13 t], after13]
      rw [show (dats m 0 c).leavesExact 14 t = owns (c : Thread nD τ) (ms14 t) fullShare ((dats m 0 c).after 14 t) from by
        unfold Dat.leavesExact; rw [out_live t ((condLast_iff t).mpr h1)], after14]
      rw [accAt_Last m c t h0 h1]
      unfold oLeftLast sLeftLast; (try dsimp only)
      by_cases hz : t.val = 0
      · exfalso; omega
      ·
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [HS]; · iexact HS
        iintro ⟨H0, H1, H2, H3, H4, H5, H6, H7, H8, H9, H10, H11, H12, H13, ⟨%e14, H14⟩, ⟨%es, HS⟩⟩
        isplitl [HS Hg]
        · isplitl [HS]
          · unfold owns; iexists _; isplitr
            swap; · iexact HS
            ipureintro; exact View.read_writes_of_cover _ _ _ _ _ (scoverLast c _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        unfold owns; iexists _; isplitr
        swap; · iexact H14
        ipureintro; exact View.read_writes_of_cover _ _ _ _ _ (ocoverLast c _ _ _ _ _ _ _ _ _ _ _ _ _ _ _ _ _ _ _ _ _ _ _ _ _ _ _ _ _ _ _ _ _ _ _ _ _ _ _ _ _ _ _ _ _ _ _ _ _ _)
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t], after8]
      rw [show (dats m 0 c).leavesExact 9 t = owns (c : Thread nD τ) (ms9 t) fullShare ((dats m 0 c).after 9 t) from by
        unfold Dat.leavesExact; rw [live9 t], after9]
      rw [show (dats m 0 c).leavesExact 10 t = owns (c : Thread nD τ) (ms10 t) fullShare ((dats m 0 c).after 10 t) from by
        unfold Dat.leavesExact; rw [live10 t], after10]
      rw [show (dats m 0 c).leavesExact 11 t = owns (c : Thread nD τ) (ms11 t) fullShare ((dats m 0 c).after 11 t) from by
        unfold Dat.leavesExact; rw [live11 t], after11]
      rw [show (dats m 0 c).leavesExact 12 t = owns (c : Thread nD τ) (ms12 t) fullShare ((dats m 0 c).after 12 t) from by
        unfold Dat.leavesExact; rw [live12 t], after12]
      rw [show (dats m 0 c).leavesExact 13 t = owns (c : Thread nD τ) (ms13 t) fullShare ((dats m 0 c).after 13 t) from by
        unfold Dat.leavesExact; rw [live13 t], after13]
      rw [Dat.leavesExact_idle (dats m 0 c) 14 t (out_idle t (fun h => h1 ((condLast_iff t).mp h))) (out_noFlush t (fun h => h1 ((condLast_iff t).mp h)))]
      rw [accAt_Mid m c t h0 h1]
      unfold sLeftMid; (try dsimp only)
      by_cases hz : t.val = 0
      · exfalso; omega
      ·
        rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [HS]; · iexact HS
        iintro ⟨H0, H1, H2, H3, H4, H5, H6, H7, H8, H9, H10, H11, H12, H13, H14, ⟨%es, HS⟩⟩
        isplitl [HS Hg]
        · isplitl [HS]
          · unfold owns; iexists _; isplitr
            swap; · iexact HS
            ipureintro; exact View.read_writes_of_cover _ _ _ _ _ (scoverMid c _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexists _; iexact H14

/-- The launch theorem's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the running total's named value is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 50 := N_0; omega)

/-! ## The run and the frame -/

set_option backward.isDefEq.respectTransparency.types false in
/-- Every weakly fair execution of @main terminates; at the end every array of the region holds what the proof data
    says and every other unscoped buffer what the later host lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.KernelIdeal.Fr

end
-- ==== Proof.EdgeLaw.lean ====
/- The per-element strain-energy law of a planar beam element, written twice over the extended reals:
   once multiplying by a reciprocal `1 / L` (`edgeK`) and once dividing by `L` (`edgeR`).  On finite
   inputs with `L ≠ 0` both are the same real number: every product, sum and difference of finite
   extended reals is the coercion of the real one, a quotient by a nonzero real is the real quotient,
   and the two real expressions agree as rational functions of `L`. -/
import Mathlib
import Idealize.ShloMosaic.PureOps.Ideal

noncomputable section

namespace Cert.Edge

open Idealize.ShloMosaic

/-! ### The six float constants as the reals their patterns denote -/

/-- `0.5`. -/
theorem half_eq : Ideal.ofBits .f32 0x3F000000#32 = ((1 / 2 : ℝ) : EReal) := by
  simp [Ideal.ofBits, Ideal.ieee, -EReal.coe_mul]; norm_num

/-- `1.0`. -/
theorem one_eq : Ideal.ofBits .f32 0x3F800000#32 = ((1 : ℝ) : EReal) := by
  simp [Ideal.ofBits, Ideal.ieee, -EReal.coe_mul]; norm_num

/-- `2.0`. -/
theorem two_eq : Ideal.ofBits .f32 0x40000000#32 = ((2 : ℝ) : EReal) := by
  simp [Ideal.ofBits, Ideal.ieee, -EReal.coe_mul]; norm_num

/-- `4.0`. -/
theorem four_eq : Ideal.ofBits .f32 0x40800000#32 = ((4 : ℝ) : EReal) := by
  simp [Ideal.ofBits, Ideal.ieee, -EReal.coe_mul]; norm_num

/-- `12.0`. -/
theorem twelve_eq : Ideal.ofBits .f32 0x41400000#32 = ((12 : ℝ) : EReal) := by
  simp [Ideal.ofBits, Ideal.ieee, -EReal.coe_mul]; norm_num

/-- `+0.0`. -/
theorem zero_eq : Ideal.ofBits .f32 0x00000000#32 = ((0 : ℝ) : EReal) := by
  simp [Ideal.ofBits, Ideal.ieee]

/-- A quotient of two reals by a nonzero real is the coercion of the real quotient. -/
theorem div_real (x y : ℝ) (hy : y ≠ 0) : Ideal.div (x : EReal) (y : EReal) = ((x / y : ℝ) : EReal) := by
  rw [Ideal.div_coe hy, ← EReal.coe_mul, mul_one_div]

/-- An extended real that is neither infinity is the coercion of a real. -/
theorem exists_real (x : EReal) (h₁ : x ≠ ⊤) (h₂ : x ≠ ⊥) : ∃ r : ℝ, x = r :=
  ⟨x.toReal, (EReal.coe_toReal h₁ h₂).symm⟩

/-! ### The two formulas -/

local macro "cH" : term => `((Ideal.ofBits .f32 0x3F000000#32 : EReal))
local macro "c1" : term => `((Ideal.ofBits .f32 0x3F800000#32 : EReal))
local macro "c2" : term => `((Ideal.ofBits .f32 0x40000000#32 : EReal))
local macro "c4" : term => `((Ideal.ofBits .f32 0x40800000#32 : EReal))
local macro "c12" : term => `((Ideal.ofBits .f32 0x41400000#32 : EReal))
local macro "c0" : term => `((Ideal.ofBits .f32 0x00000000#32 : EReal))

/-- The energy with the reciprocal `1 / L` formed once and multiplied in. -/
def edgeK (uc thc xA yA tA xB yB tB c s L pE pA pI : EReal) : EReal :=
  let a := xA * uc; let b := yA * uc; let tha := tA * thc
  let a' := xB * uc; let b' := yB * uc; let thb := tB * thc
  let inv := Ideal.div c1 L
  let inv2 := inv * inv
  let EA := pE * pA; let EI := pE * pI
  let uA := c * a + s * b; let wA := (c0 - s) * a + c * b
  let uB := c * a' + s * b'; let wB := (c0 - s) * a' + c * b'
  let du := uB - uA
  let Uax := (((cH * EA) * inv) * du) * du
  let dw := wB - wA
  let k := (cH * EI) * inv
  let q := (((c4 * tha) * tha + (c4 * thb) * thb) + (c4 * tha) * thb)
  let sq := (wA * wA + wB * wB) - (c2 * wA) * wB
  let br := (q + (c12 * inv2) * sq) - ((c12 * inv) * dw) * (tha + thb)
  Uax + k * br

/-- The energy with every division by `L`, `2 L`, `L²` written as a division. -/
def edgeR (uc thc xA yA tA xB yB tB c s L pE pA pI : EReal) : EReal :=
  let a := xA * uc; let b := yA * uc; let tha := tA * thc
  let a' := xB * uc; let b' := yB * uc; let thb := tB * thc
  let uA := c * a + s * b; let wA := (-s) * a + c * b
  let uB := c * a' + s * b'; let wB := (-s) * a' + c * b'
  let du := uB - uA
  let Uax := (cH * (Ideal.div (pE * pA) L)) * (du * du)
  let dw := wB - wA
  let k := Ideal.div (pE * pI) (c2 * L)
  let q := ((c4 * (tha * tha) + c4 * (thb * thb)) + (c4 * tha) * thb)
  let sq := (wA * wA + wB * wB) - (c2 * wA) * wB
  let br := (q + (Ideal.div c12 (L * L)) * sq) - ((Ideal.div c12 L) * dw) * (tha + thb)
  Uax + k * br

/-- On real inputs with `L ≠ 0` the two formulas are the same real number. -/
theorem edge_eq (uc thc xA yA tA xB yB tB c s L pE pA pI : ℝ) (hL : L ≠ 0) :
    edgeK (uc : EReal) thc xA yA tA xB yB tB c s L pE pA pI
      = edgeR (uc : EReal) thc xA yA tA xB yB tB c s L pE pA pI := by
  have h2L : (2 : ℝ) * L ≠ 0 := mul_ne_zero two_ne_zero hL
  have hLL : L * L ≠ 0 := mul_ne_zero hL hL
  simp only [edgeK, edgeR, half_eq, one_eq, two_eq, four_eq, twelve_eq, zero_eq,
    ← EReal.coe_mul, ← EReal.coe_add, ← EReal.coe_sub, ← EReal.coe_neg,
    div_real _ _ hL, div_real _ _ h2L, div_real _ _ hLL]
  rw [EReal.coe_eq_coe_iff]
  field_simp
  ring

/-- The same on extended reals known to be finite. -/
theorem edge_eq' (uc thc xA yA tA xB yB tB c s L pE pA pI : EReal)
    (huc : ∃ r : ℝ, uc = r) (hthc : ∃ r : ℝ, thc = r)
    (hxA : ∃ r : ℝ, xA = r) (hyA : ∃ r : ℝ, yA = r) (htA : ∃ r : ℝ, tA = r)
    (hxB : ∃ r : ℝ, xB = r) (hyB : ∃ r : ℝ, yB = r) (htB : ∃ r : ℝ, tB = r)
    (hc : ∃ r : ℝ, c = r) (hs : ∃ r : ℝ, s = r) (hLr : ∃ r : ℝ, L = r)
    (hpE : ∃ r : ℝ, pE = r) (hpA : ∃ r : ℝ, pA = r) (hpI : ∃ r : ℝ, pI = r)
    (hL : L ≠ 0) :
    edgeK uc thc xA yA tA xB yB tB c s L pE pA pI = edgeR uc thc xA yA tA xB yB tB c s L pE pA pI := by
  obtain ⟨uc, rfl⟩ := huc; obtain ⟨thc, rfl⟩ := hthc
  obtain ⟨xA, rfl⟩ := hxA; obtain ⟨yA, rfl⟩ := hyA; obtain ⟨tA, rfl⟩ := htA
  obtain ⟨xB, rfl⟩ := hxB; obtain ⟨yB, rfl⟩ := hyB; obtain ⟨tB, rfl⟩ := htB
  obtain ⟨c, rfl⟩ := hc; obtain ⟨s, rfl⟩ := hs; obtain ⟨L, rfl⟩ := hLr
  obtain ⟨pE, rfl⟩ := hpE; obtain ⟨pA, rfl⟩ := hpA; obtain ⟨pI, rfl⟩ := hpI
  exact edge_eq uc thc xA yA tA xB yB tB c s L pE pA pI (by exact_mod_cast hL)

end Cert.Edge

end
-- ==== Proof.Spec.lean ====
/-
  What both programs compute, stated on the argument arrays at the extended reals.
  An edge e of the 4,000,000 has two end nodes: the signed 32-bit entries of its row of the connectivity array,
  a negative one shifted up by the number of nodes (1,000,000), then clamped into [0, 999999] (what a gather
  does with a start index). Its energy is a function of fourteen numbers: the two scale factors, the three
  raw displacements of each end node, the direction cosines (columns 0 and 2 of its direction row), its
  length and its three section properties. The kernel forms it with one reciprocal 1/L (edgeK), the
  reference with quotients by L (edgeR); they are the same function on finite inputs with L ≠ 0 (EdgeLaw).
-/
import Idealize.ShloMosaic.PureOps.Ideal
import Idealize.ShloMosaic.Lib.ValueIdx
import proofs.«111899_j63788854280708_2_alg».proof.Proof.EdgeLaw

noncomputable section

namespace Cert.Spec

open Idealize.ShloMosaic Idealize.ShloMosaic.ValueIdx

/-- The shapes of the argument arrays. -/
abbrev SN3 : Shape := ⟨2, ![1000000, 3]⟩
abbrev SE2 : Shape := ⟨2, ![4000000, 2]⟩
abbrev SE : Shape := ⟨1, ![4000000]⟩
abbrev SE3 : Shape := ⟨2, ![4000000, 3]⟩
abbrev SOne : Shape := ⟨1, ![1]⟩

/-- A signed 32-bit node index made non-negative: a negative one is shifted up by the number of nodes. -/
def wrapIdx (v : BitVec 32) : BitVec 32 :=
  if Scalar.cmpi .slt v 0#32 = 1#1 then v + 1000000#32 else v

/-- The node that end k (0 or 1) of edge e refers to: the wrapped entry, read signed, clamped into [0, 999999]. -/
def node (conn : SE2.Idx → BitVec 32) (k : Fin 2) (e : Fin 4000000) : Fin 1000000 :=
  ⟨min (wrapIdx (conn (ix2 e k))).toInt.toNat (1000000 - 1), by omega⟩

theorem node_val (conn : SE2.Idx → BitVec 32) (k : Fin 2) (e : Fin 4000000) :
    (node conn k e).val = min (wrapIdx (conn (ix2 e k))).toInt.toNat (1000000 - 1) := rfl

/-- The fourteen numbers of edge e, fed to a per-edge formula f. -/
def atEdge (f : EReal → EReal → EReal → EReal → EReal → EReal → EReal → EReal → EReal → EReal → EReal → EReal → EReal → EReal → EReal)
    (pred : SN3.Idx → EReal) (conn : SE2.Idx → BitVec 32) (len pE pA pI : SE.Idx → EReal) (dir : SE3.Idx → EReal)
    (uc thc : SOne.Idx → EReal) (e : Fin 4000000) : EReal :=
  f (uc (ix1 0)) (thc (ix1 0))
    (pred (ix2 (node conn 0 e) 0)) (pred (ix2 (node conn 0 e) 1)) (pred (ix2 (node conn 0 e) 2))
    (pred (ix2 (node conn 1 e) 0)) (pred (ix2 (node conn 1 e) 1)) (pred (ix2 (node conn 1 e) 2))
    (dir (ix2 e 0)) (dir (ix2 e 2)) (len (ix1 e)) (pE (ix1 e)) (pA (ix1 e)) (pI (ix1 e))

/-- Edge e's energy as the kernel forms it, and as the reference forms it. -/
abbrev eK := atEdge Cert.Edge.edgeK
abbrev eR := atEdge Cert.Edge.edgeR

/-- On finite inputs with no zero length the two are one function. -/
theorem eK_eq_eR (pred : SN3.Idx → EReal) (conn : SE2.Idx → BitVec 32) (len pE pA pI : SE.Idx → EReal) (dir : SE3.Idx → EReal)
    (uc thc : SOne.Idx → EReal)
    (hpred : ∀ i, ∃ r : ℝ, pred i = r) (hlen : ∀ i, ∃ r : ℝ, len i = r) (hpE : ∀ i, ∃ r : ℝ, pE i = r)
    (hpA : ∀ i, ∃ r : ℝ, pA i = r) (hpI : ∀ i, ∃ r : ℝ, pI i = r) (hdir : ∀ i, ∃ r : ℝ, dir i = r)
    (huc : ∀ i, ∃ r : ℝ, uc i = r) (hthc : ∀ i, ∃ r : ℝ, thc i = r) (hL : ∀ i, len i ≠ 0) (e : Fin 4000000) :
    eK pred conn len pE pA pI dir uc thc e = eR pred conn len pE pA pI dir uc thc e :=
  Cert.Edge.edge_eq' _ _ _ _ _ _ _ _ _ _ _ _ _ _ (huc _) (hthc _) (hpred _) (hpred _) (hpred _) (hpred _) (hpred _) (hpred _)
    (hdir _) (hdir _) (hlen _) (hpE _) (hpA _) (hpI _) (hL _)

end Cert.Spec

end
-- ==== Proof.LibRowScatter.lean ====
/-
  A gather of rows and a scatter-add of rows, read at an index, at the ideal values.

  Let `x` be an `N × C` array and `idx` a column of `E` integers (an `E × 1` array of words read as signed integers).

  The ROW GATHER of `x` at `idx` is the `E × C` array whose row `e` is row `idx e` of `x`, the integer first
  clamped into `[0, N − 1]`: entry `(e, c)` is `x (rowOf idx e, c)`, where the row `rowOf idx e` depends on the index
  column and on `e` only — not on the column `c`, nor on `x`.

  The ROW SCATTER-ADD of an `E × C` array `upd` into `x` along `idx` adds row `e` of `upd` to row `idx e` of `x`,
  for every `e`; a row whose integer is outside `[0, N − 1]` is dropped, not clamped. The update entry `(e, c')`
  lands on the entry `(n, c)` exactly when `idx e = n` as integers and `c' = c`. At the ideal values the colliding
  updates are summed exactly, so entry `(n, c)` of the result is `x (n, c)` plus the sum of `upd (e, c)` over the
  `e` with `idx e = n`.

  Scattering the constant `1` into zeros counts the updates that land on each entry: the result is a natural number.
-/
import Idealize.ShloMosaic.PureOps.Ideal.Laws
import Idealize.ShloMosaic.Lib.ValueIdx

noncomputable section

namespace Cert.LibRowScatter

open Idealize.ShloMosaic Idealize.ShloMosaic.ValueIdx

variable {N E C w : Nat}

/-! ### The row scatter -/

section Scatter

variable (d : ScatterDims ⟨2, ![N, C]⟩ ⟨2, ![E, 1]⟩ ⟨2, ![E, C]⟩)

/-- On the row axis the window starts at the update row's integer, read signed. -/
theorem start_row (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) : d.start j idx 0 = (idx (ix2 (j 0) (0 : Fin 1))).toInt := by
  obtain ⟨uw, iw, sd, iv, wf⟩ := d
  dsimp only at huw hiw hsd hiv
  subst huw hiw hsd hiv
  unfold ScatterDims.start
  rw [dif_pos (List.mem_singleton.mpr rfl)]
  congr 2
  funext b
  refine Fin.ext ?_
  match b with
  | ⟨0, _⟩ => rfl
  | ⟨1, _⟩ => rfl

/-- On the column axis the window starts at `0`: the scatter index names the row axis only. -/
theorem start_col (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) : d.start j idx 1 = 0 := by
  obtain ⟨uw, iw, sd, iv, wf⟩ := d
  dsimp only at huw hiw hsd hiv
  subst huw hiw hsd hiv
  unfold ScatterDims.start
  rw [dif_neg (show (1 : Fin 2) ∉ ([0] : List (Fin 2)) by decide)]

/-- The row axis is inserted: no window coordinate on it. -/
theorem window_row (huw : d.updateWindowDims = [1]) (hiw : d.insertedWindowDims = [0])
    (hsd : d.scatterDimsToOperandDims = [0]) (hiv : d.indexVectorDim = 1)
    (j : (⟨2, ![E, C]⟩ : Shape).Idx) : d.window j 0 = 0 := by
  obtain ⟨uw, iw, sd, iv, wf⟩ := d
  dsimp only at huw hiw hsd hiv
  subst huw hiw hsd hiv
  unfold ScatterDims.window
  exact dif_neg (show (0 : Fin 2) ∉ ([1] : List (Fin 2)) by decide)

/-- On the column axis the window coordinate is the update's column. -/
theorem window_col (huw : d.updateWindowDims = [1]) (hiw : d.insertedWindowDims = [0])
    (hsd : d.scatterDimsToOperandDims = [0]) (hiv : d.indexVectorDim = 1)
    (j : (⟨2, ![E, C]⟩ : Shape).Idx) : d.window j 1 = (j 1).val := by
  obtain ⟨uw, iw, sd, iv, wf⟩ := d
  dsimp only at huw hiw hsd hiv
  subst huw hiw hsd hiv
  unfold ScatterDims.window
  exact (dif_pos (show (1 : Fin 2) ∈ ([1] : List (Fin 2)) by decide)).trans rfl

/-- Update entry `j` lands on entry `i` exactly when its row's integer is `i`'s row and the columns agree. -/
theorem rowScatter_resultIdx?_eq_some_iff (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) (i : (⟨2, ![N, C]⟩ : Shape).Idx) :
    d.resultIdx? j idx = some i ↔
      (idx (ix2 (j 0) (0 : Fin 1))).toInt = ((i 0).val : Int) ∧ (j 1).val = (i 1).val := by
  have hs0 := start_row d huw hiw hsd hiv idx j
  have hs1 := start_col d huw hiw hsd hiv idx j
  have hw0 := window_row d huw hiw hsd hiv j
  have hw1 := window_col d huw hiw hsd hiv j
  have hi0 := idx2_lt0 i
  have hi1 := idx2_lt1 i
  have hj1 := idx2_lt1 j
  unfold ScatterDims.resultIdx?
  constructor
  · intro h
    split at h
    · rename_i hr
      have hi := Option.some.inj h
      have e0 := congrArg (fun f => (f 0).val) hi
      have e1 := congrArg (fun f => (f 1).val) hi
      have r0 := hr 0
      simp only [hs0, hs1, hw0, hw1] at e0 e1 r0
      omega
    · exact absurd h (by simp)
  · rintro ⟨h0, h1⟩
    have hr : ∀ a, 0 ≤ d.start j idx a + d.window j a ∧
        d.start j idx a + d.window j a < (⟨2, ![N, C]⟩ : Shape).size a := by
      intro a
      match a with
      | ⟨0, _⟩ =>
        show 0 ≤ d.start j idx 0 + d.window j 0 ∧ d.start j idx 0 + d.window j 0 < ((N : Nat) : Int)
        rw [hs0, hw0]; omega
      | ⟨1, _⟩ =>
        show 0 ≤ d.start j idx 1 + d.window j 1 ∧ d.start j idx 1 + d.window j 1 < ((C : Nat) : Int)
        rw [hs1, hw1]; omega
    rw [dif_pos hr]
    congr 1
    funext a
    refine Fin.ext ?_
    match a with
    | ⟨0, _⟩ =>
      show (d.start j idx 0 + d.window j 0).toNat = (i 0).val
      rw [hs0, hw0]; omega
    | ⟨1, _⟩ =>
      show (d.start j idx 1 + d.window j 1).toNat = (i 1).val
      rw [hs1, hw1]; omega

/-- THE ROW SCATTER-ADD READ AT `(n, c)`: the operand's entry plus the sum, over the update rows `e` whose integer is
    `n`, of the update's entry `(e, c)`. -/
theorem hostScatterAdd_rows_apply (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c) = x (ix2 n c) +
      ∑ e ∈ Finset.univ.filter (fun e : Fin E => (idx (ix2 e (0 : Fin 1))).toInt = (n.val : Int)), upd (ix2 e c) := by
  unfold Ideal.hostScatterAdd
  congr 1
  -- both sums as sums of indicator terms; the left one split into rows and columns
  rw [Finset.sum_filter, Finset.sum_filter, sum_idx2]
  refine Finset.sum_congr rfl fun e _ => ?_
  simp only [rowScatter_resultIdx?_eq_some_iff d huw hiw hsd hiv]
  -- in row `e` only the column `c` can contribute
  by_cases hA : (idx (ix2 e (0 : Fin 1))).toInt = (n.val : Int)
  · rw [if_pos hA, Finset.sum_eq_single c]
    · exact if_pos ⟨hA, rfl⟩
    · intro b _ hb
      exact if_neg fun h => hb (Fin.ext h.2)
    · intro h
      exact absurd (Finset.mem_univ c) h
  · rw [if_neg hA]
    exact Finset.sum_eq_zero fun b _ => if_neg fun h => hA h.1

end Scatter

/-! ### Counting the updates -/

/-- Scattering ones into zeros, with an `add` body, gives at every entry a natural number: how many updates land
    there. For any shapes and any dimension numbers. -/
theorem hostScatterAdd_zero_one_nat {s si u : Shape} (d : ScatterDims s si u) {w : Nat} (idx : IVec si w) (i : s.Idx) :
    ∃ k : ℕ, Ideal.hostScatterAdd d (fun _ => (0 : EReal)) idx (fun _ => (1 : EReal)) i = (k : EReal) := by
  refine ⟨(Finset.univ.filter (fun j => d.resultIdx? j idx = some i)).card, ?_⟩
  unfold Ideal.hostScatterAdd
  rw [zero_add, Finset.sum_const, nsmul_one]

/-! ### The row gather -/

/-- The row of the operand that row `e` of a gather reads: the integer `idx e`, clamped into `[0, N − 1]`. -/
def rowOf (hN : 0 < N) (idx : IVec ⟨2, ![E, 1]⟩ w) (e : Fin E) : Fin N :=
  ⟨min (idx (ix2 e (0 : Fin 1))).toInt.toNat (N - 1), by omega⟩

theorem rowOf_val (hN : 0 < N) (idx : IVec ⟨2, ![E, 1]⟩ w) (e : Fin E) :
    (rowOf hN idx e).val = min (idx (ix2 e (0 : Fin 1))).toInt.toNat (N - 1) := rfl

section Gather

variable {α : Type} (g : GatherDims ⟨2, ![N, C]⟩ ⟨2, ![E, 1]⟩ ⟨2, ![E, C]⟩)

/-- On the row axis the slice starts at the result row's integer, read signed and clamped into `[0, N − 1]`. -/
theorem gather_start_row (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (idx : IVec ⟨2, ![E, 1]⟩ w)
    (j : (⟨2, ![E, C]⟩ : Shape).Idx) :
    g.start j idx 0 = min (idx (ix2 (j 0) (0 : Fin 1))).toInt.toNat (N - 1) := by
  obtain ⟨od, cd, ob, sb, sm, iv, ss, wf⟩ := g
  dsimp only at hod hcd hob hsb hsm hiv hss
  subst hod hcd hob hsb hsm hiv hss
  unfold GatherDims.start
  rw [dif_pos (List.mem_singleton.mpr rfl)]
  refine congrArg₂ min (congrArg (fun v => (idx v).toInt.toNat) ?_) rfl
  funext b
  refine Fin.ext ?_
  match b with
  | ⟨0, _⟩ => rfl
  | ⟨1, _⟩ => rfl

/-- On the column axis the slice starts at `0`: the start index names the row axis only. -/
theorem gather_start_col (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (idx : IVec ⟨2, ![E, 1]⟩ w)
    (j : (⟨2, ![E, C]⟩ : Shape).Idx) : g.start j idx 1 = 0 := by
  obtain ⟨od, cd, ob, sb, sm, iv, ss, wf⟩ := g
  dsimp only at hod hcd hob hsb hsm hiv hss
  subst hod hcd hob hsb hsm hiv hss
  unfold GatherDims.start
  exact dif_neg (show (1 : Fin 2) ∉ ([0] : List (Fin 2)) by decide)

/-- The row axis is collapsed: no offset coordinate on it. -/
theorem gather_off_row (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C])
    (j : (⟨2, ![E, C]⟩ : Shape).Idx) : g.offCoord j 0 = 0 := by
  obtain ⟨od, cd, ob, sb, sm, iv, ss, wf⟩ := g
  dsimp only at hod hcd hob hsb hsm hiv hss
  subst hod hcd hob hsb hsm hiv hss
  unfold GatherDims.offCoord
  exact dif_neg (show (0 : Fin 2) ∉ ([1] : List (Fin 2)) by decide)

/-- On the column axis the offset coordinate is the result's column. -/
theorem gather_off_col (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C])
    (j : (⟨2, ![E, C]⟩ : Shape).Idx) : g.offCoord j 1 = (j 1).val := by
  obtain ⟨od, cd, ob, sb, sm, iv, ss, wf⟩ := g
  dsimp only at hod hcd hob hsb hsm hiv hss
  subst hod hcd hob hsb hsm hiv hss
  unfold GatherDims.offCoord
  exact (dif_pos (show (1 : Fin 2) ∈ ([1] : List (Fin 2)) by decide)).trans rfl

/-- THE ROW GATHER READ AT `(e, c)`: the operand at row `rowOf idx e`, column `c`. -/
theorem gather_rows_apply (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (hN : 0 < N)
    (x : (⟨2, ![N, C]⟩ : Shape).Idx → α) (idx : IVec ⟨2, ![E, 1]⟩ w) (e : Fin E) (c : Fin C) :
    Host.gather g x idx (ix2 e c) = x (ix2 (rowOf hN idx e) c) := by
  have hb : ∀ a, g.batchCoord (ix2 e c) a = 0 := fun a =>
    g.batchCoord_eq_zero _ a (by rw [hob]; exact List.not_mem_nil)
  unfold Host.gather
  congr 1
  funext a
  refine Fin.ext ?_
  match a with
  | ⟨0, _⟩ =>
    show g.start (ix2 e c) idx 0 + g.batchCoord (ix2 e c) 0 + g.offCoord (ix2 e c) 0 = _
    rw [hb, gather_start_row g hod hcd hob hsb hsm hiv hss, gather_off_row g hod hcd hob hsb hsm hiv hss]
    rfl
  | ⟨1, _⟩ =>
    show g.start (ix2 e c) idx 1 + g.batchCoord (ix2 e c) 1 + g.offCoord (ix2 e c) 1 = _
    rw [hb, gather_start_col g hod hcd hob hsb hsm hiv hss, gather_off_col g hod hcd hob hsb hsm hiv hss]
    show 0 + 0 + c.val = c.val
    omega

/-- The same, with the clamped row written out. -/
theorem gather_rows_apply_min (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (hN : 0 < N)
    (x : (⟨2, ![N, C]⟩ : Shape).Idx → α) (idx : IVec ⟨2, ![E, 1]⟩ w) (e : Fin E) (c : Fin C) :
    Host.gather g x idx (ix2 e c)
      = x (ix2 (⟨min (idx (ix2 e (0 : Fin 1))).toInt.toNat (N - 1), by omega⟩ : Fin N) c) :=
  gather_rows_apply g hod hcd hob hsb hsm hiv hss hN x idx e c

end Gather

end Cert.LibRowScatter

end
-- ==== Proof.LibSliceConcat.lean ====
/-
  Slices, reshapes with unit axes and a four-way concatenation of columns, read at an index built from explicit
  coordinates.  A [1, b, 1] array flattened to [b]; a column [a, 1] flattened to [a]; a [1, 1] array read as a scalar; a
  rectangle cut out of a rank-2 array at an offset; one entry of the last axis of a [1, b, d] array cut out as
  [1, b, 1]; four columns [a, 1] laid side by side as [a, 4].  Each lemma says which element of the operand an element
  of the result is.
-/
import Idealize.ShloMosaic.Shape
import Idealize.ShloMosaic.Lib.Pipeline.Value
import Idealize.ShloMosaic.Lib.ValueIdx

noncomputable section

namespace Cert.LibSliceConcat

open Idealize.ShloMosaic Idealize.ShloMosaic.ValueIdx

variable {α : Type}

/-- A [1, b, 1] array flattened to [b]: element q is element (0, q, 0). -/
theorem shapeCast_1b1_b_apply {b : ℕ} (x : (⟨3, ![1, b, 1]⟩ : Shape).Idx → α)
    (h : (⟨3, ![1, b, 1]⟩ : Shape).ShapeCasts ⟨1, ![b]⟩) (q : Fin b) :
    shapeCast ⟨1, ![b]⟩ x h (ix1 q) = x (ix3 (0 : Fin 1) q (0 : Fin 1)) :=
  shapeCast_apply x h _ _ (by
    rw [Shape.rowMajor_val_three, Shape.rowMajor_val_one]
    show (0 * b + q.val) * 1 + 0 = q.val
    simp only [Nat.zero_mul, Nat.zero_add, Nat.mul_one, Nat.add_zero])

/-- A column [a, 1] flattened to [a]: element p is element (p, 0). -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    simp only [Nat.mul_one, Nat.add_zero])

/-- A [1, 1] array read as a scalar: the scalar is element (0, 0). -/
theorem shapeCast_11_scalar_apply (x : (⟨2, ![1, 1]⟩ : Shape).Idx → α)
    (h : (⟨2, ![1, 1]⟩ : Shape).ShapeCasts ⟨0, ![]⟩) :
    shapeCast ⟨0, ![]⟩ x h ix0 = x (ix2 (0 : Fin 1) (0 : Fin 1)) :=
  shapeCast_apply x h _ _ (by
    rw [Shape.rowMajor_val_two]
    show 0 * 1 + 0 = (Shape.rowMajorPi _ _).val
    rw [Shape.rowMajorPi_zero])

/-- A rectangle of an [a, b] array starting at (i, j): its element (p, q) is element (i + p, j + q). -/
theorem slice2_apply {a b a' b' : ℕ} (i j : ℕ) (x : (⟨2, ![a, b]⟩ : Shape).Idx → α)
    (h : (⟨2, ![a, b]⟩ : Shape).Slices ![i, j] ⟨2, ![a', b']⟩) (p : Fin a') (q : Fin b') (P : Fin a) (Q : Fin b)
    (hP : P.val = i + p.val) (hQ : Q.val = j + q.val) :
    extractStridedSlice ⟨2, ![a', b']⟩ ![i, j] x h (ix2 p q) = x (ix2 P Q) :=
  extractStridedSlice_apply ![i, j] x h _ _ (fun d => match d with
    | ⟨0, _⟩ => hP
    | ⟨1, _⟩ => hQ)

/-- Entry j of the last axis of a [1, b, d] array, cut out as [1, b, 1]: element (0, p, 0) is element (0, p, j). -/
theorem sliceLast_apply {b d : ℕ} (j : ℕ) (x : (⟨3, ![1, b, d]⟩ : Shape).Idx → α)
    (h : (⟨3, ![1, b, d]⟩ : Shape).Slices ![0, 0, j] ⟨3, ![1, b, 1]⟩) (p : Fin b) (q : Fin d) (hq : q.val = j) :
    extractStridedSlice ⟨3, ![1, b, 1]⟩ ![0, 0, j] x h (ix3 (0 : Fin 1) p (0 : Fin 1)) = x (ix3 (0 : Fin 1) p q) :=
  extractStridedSlice_apply ![0, 0, j] x h _ _ (fun e => match e with
    | ⟨0, _⟩ => by show 0 = 0 + 0; omega
    | ⟨1, _⟩ => by show p.val = 0 + p.val; omega
    | ⟨2, _⟩ => by show q.val = j + 0; omega)

/-- Four columns [a, 1] laid side by side as [a, 4]: element (p, k) is element (p, 0) of column k. -/
theorem fourCols_apply {a : ℕ} (A B C D : (⟨2, ![a, 1]⟩ : Shape).Idx → α)
    (h : Shape.Concatenates [⟨2, ![a, 1]⟩, ⟨2, ![a, 1]⟩, ⟨2, ![a, 1]⟩, ⟨2, ![a, 1]⟩] (⟨2, ![a, 4]⟩ : Shape) 1)
    (p : Fin a) (k : Fin 4) (Y : (⟨2, ![a, 1]⟩ : Shape).Idx → α)
    (hY : ([⟨⟨2, ![a, 1]⟩, A⟩, ⟨⟨2, ![a, 1]⟩, B⟩, ⟨⟨2, ![a, 1]⟩, C⟩, ⟨⟨2, ![a, 1]⟩, D⟩] :
      List ((s : Shape) × (s.Idx → α)))[k.val]'k.isLt = ⟨⟨2, ![a, 1]⟩, Y⟩) :
    concatenate (⟨2, ![a, 4]⟩ : Shape) 1 [⟨⟨2, ![a, 1]⟩, A⟩, ⟨⟨2, ![a, 1]⟩, B⟩, ⟨⟨2, ![a, 1]⟩, C⟩, ⟨⟨2, ![a, 1]⟩, D⟩] h (ix2 p k)
      = Y (ix2 p (0 : Fin 1)) := by
  refine concatenate_apply_piece (t := (⟨2, ![a, 4]⟩ : Shape)) (1 : Fin 2)
    [⟨⟨2, ![a, 1]⟩, A⟩, ⟨⟨2, ![a, 1]⟩, B⟩, ⟨⟨2, ![a, 1]⟩, C⟩, ⟨⟨2, ![a, 1]⟩, D⟩] h (ix2 p k) k.val k.isLt
    ⟨2, ![a, 1]⟩ Y hY rfl k.val ?_ (ix2 p (0 : Fin 1)) ?_ ?_
  · match k with
    | ⟨0, _⟩ => rfl
    | ⟨1, _⟩ => rfl
    | ⟨2, _⟩ => rfl
    | ⟨3, _⟩ => rfl
  · intro d hd
    match d with
    | ⟨0, _⟩ => rfl
    | ⟨1, _⟩ => exact absurd rfl hd
  · show k.val + 0 = k.val
    omega

end Cert.LibSliceConcat

end
-- ==== Proof.RefValue.lean ====
/-
  The reference program read as mathematics, at the extended reals.
  (1) energy_apply: the array the reference sums, U_axial + U_bend, at edge e is the per-edge formula of the
      specification (Cert.Spec.eR) at the edge's fourteen numbers. Each of the two row gathers reads, at row e, the
      row of the scaled displacements named by the edge's wrapped and clamped end node; every other operation
      acts element by element, or cuts one column out of a two-dimensional array.
  (2) result_eq: the reference's result is one fixed function (refTail) of the sum of the per-edge energies:
      the external work is subtracted and the difference divided by max(F_c · u_c, 1e-30).
  (3) total_apply: that sum is 0 plus the sum over the 4,000,000 edges of the per-edge formula.
-/
import proofs.«111899_j63788854280708_2_alg».proof.Proof.Gen.ReferenceIdeal.Read
import proofs.«111899_j63788854280708_2_alg».proof.Proof.Spec
import proofs.«111899_j63788854280708_2_alg».proof.Proof.LibRowScatter
import proofs.«111899_j63788854280708_2_alg».proof.Proof.LibSliceConcat
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo Idealize.ShloMosaic.TcCoe Idealize.SL.Sem

/-! ### The index columns of the two gathers -/

/-- The first index column at row e: the wrapped entry (e, 0) of the connectivity array. The column is entry 0 of
    each row (a slice and a reshape), compared with 0, shifted by 1,000,000 where negative, and laid out as [E, 1]. -/
theorem col0_apply (a1 : IVec S4000000x2 32) (e : Fin 4000000) :
    val_main_v13 (F := Ideal) a1 (ix2 e (0 : Fin 1)) = Cert.Spec.wrapIdx (a1 (ix2 e (0 : Fin 2))) := by
  rw [val_main_v13_apply, val_main_v12_apply, val_main_v9_apply, val_main_v11_apply, val_main_v8_apply,
    val_main_v10_apply, val_main_c_apply, val_main_c_0_apply, val_main_v5_apply, val_main_v4_apply]
  have hi : idx_main_v4 (idx_main_v5 (idx_main_v13 (ix2 e (0 : Fin 1)))) = ix2 e (0 : Fin 2) := by
    funext a
    refine Fin.ext ?_
    match a with
    | ⟨0, _⟩ => exact Nat.div_one _
    | ⟨1, _⟩ => rfl
  rw [hi]
  unfold Cert.Spec.wrapIdx Scalar.select
  rfl

/-- The second index column at row e: the wrapped entry (e, 1). -/
theorem col1_apply (a1 : IVec S4000000x2 32) (e : Fin 4000000) :
    val_main_v20 (F := Ideal) a1 (ix2 e (0 : Fin 1)) = Cert.Spec.wrapIdx (a1 (ix2 e (1 : Fin 2))) := by
  rw [val_main_v20_apply, val_main_v19_apply, val_main_v16_apply, val_main_v18_apply, val_main_v15_apply,
    val_main_v17_apply, val_main_c_1_apply, val_main_c_2_apply, val_main_v7_apply, val_main_v6_apply]
  have hi : idx_main_v6 (idx_main_v7 (idx_main_v20 (ix2 e (0 : Fin 1)))) = ix2 e (1 : Fin 2) := by
    funext a
    refine Fin.ext ?_
    match a with
    | ⟨0, _⟩ => exact Nat.div_one _
    | ⟨1, _⟩ => rfl
  rw [hi]
  unfold Cert.Spec.wrapIdx Scalar.select
  rfl

/-- So the row a gather reads for edge e is the edge's end node: the wrapped entry, read signed, clamped. -/
theorem rowA (a1 : IVec S4000000x2 32) (e : Fin 4000000) :
    Cert.LibRowScatter.rowOf (by decide : 0 < 1000000) (val_main_v13 (F := Ideal) a1) e = Cert.Spec.node a1 0 e :=
  Fin.ext (by rw [Cert.LibRowScatter.rowOf_val, Cert.Spec.node_val, col0_apply])

theorem rowB (a1 : IVec S4000000x2 32) (e : Fin 4000000) :
    Cert.LibRowScatter.rowOf (by decide : 0 < 1000000) (val_main_v20 (F := Ideal) a1) e = Cert.Spec.node a1 1 e :=
  Fin.ext (by rw [Cert.LibRowScatter.rowOf_val, Cert.Spec.node_val, col1_apply])

/-! ### The scaled displacements -/

/-- The joined scale vector read at a position whose coordinate is 0, 1 or 2. -/
theorem scale0 (a8 a9 : FVec Ideal S1 .f32) (j : S3.Idx) (h : (j 0).val = 0) :
    val_main_v0 (F := Ideal) a8 a9 j = a8 (ix1 (0 : Fin 1)) := by
  unfold val_main_v0
  exact concatenate_apply_piece (t := S3) (0 : Fin 1) [⟨S1, a8⟩, ⟨S1, a8⟩, ⟨S1, a9⟩] concatenates_S1_S1_S1_S3_d0 j 0 (by simp) S1 a8 rfl rfl 0 rfl
    (ix1 (0 : Fin 1)) (fun b hb => absurd (Subsingleton.elim _ _) hb) (by rw [h]; rfl)

theorem scale1 (a8 a9 : FVec Ideal S1 .f32) (j : S3.Idx) (h : (j 0).val = 1) :
    val_main_v0 (F := Ideal) a8 a9 j = a8 (ix1 (0 : Fin 1)) := by
  unfold val_main_v0
  exact concatenate_apply_piece (t := S3) (0 : Fin 1) [⟨S1, a8⟩, ⟨S1, a8⟩, ⟨S1, a9⟩] concatenates_S1_S1_S1_S3_d0 j 1 (by simp) S1 a8 rfl rfl 1 rfl
    (ix1 (0 : Fin 1)) (fun b hb => absurd (Subsingleton.elim _ _) hb) (by rw [h]; rfl)

theorem scale2 (a8 a9 : FVec Ideal S1 .f32) (j : S3.Idx) (h : (j 0).val = 2) :
    val_main_v0 (F := Ideal) a8 a9 j = a9 (ix1 (0 : Fin 1)) := by
  unfold val_main_v0
  exact concatenate_apply_piece (t := S3) (0 : Fin 1) [⟨S1, a8⟩, ⟨S1, a8⟩, ⟨S1, a9⟩] concatenates_S1_S1_S1_S3_d0 j 2 (by simp) S1 a9 rfl rfl 2 rfl
    (ix1 (0 : Fin 1)) (fun b hb => absurd (Subsingleton.elim _ _) hb) (by rw [h]; rfl)

/-- The scaled displacements at node n: columns 0 and 1 times the displacement scale, column 2 times the rotation scale. -/
theorem uphys0 (a0 : FVec Ideal S1000000x3 .f32) (a8 a9 : FVec Ideal S1 .f32) (n : Fin 1000000) :
    val_main_v3 (F := Ideal) a0 a8 a9 (ix2 n (0 : Fin 3)) = a0 (ix2 n (0 : Fin 3)) * a8 (ix1 (0 : Fin 1)) := by
  rw [val_main_v3_apply, val_main_v2_apply, val_main_v1_apply, scale0 a8 a9 _ rfl]; rfl

theorem uphys1 (a0 : FVec Ideal S1000000x3 .f32) (a8 a9 : FVec Ideal S1 .f32) (n : Fin 1000000) :
    val_main_v3 (F := Ideal) a0 a8 a9 (ix2 n (1 : Fin 3)) = a0 (ix2 n (1 : Fin 3)) * a8 (ix1 (0 : Fin 1)) := by
  rw [val_main_v3_apply, val_main_v2_apply, val_main_v1_apply, scale1 a8 a9 _ rfl]; rfl

theorem uphys2 (a0 : FVec Ideal S1000000x3 .f32) (a8 a9 : FVec Ideal S1 .f32) (n : Fin 1000000) :
    val_main_v3 (F := Ideal) a0 a8 a9 (ix2 n (2 : Fin 3)) = a0 (ix2 n (2 : Fin 3)) * a9 (ix1 (0 : Fin 1)) := by
  rw [val_main_v3_apply, val_main_v2_apply, val_main_v1_apply, scale2 a8 a9 _ rfl]; rfl

/-! ### The two gathers -/

/-- Row e of the first gather is the scaled displacement row of the edge's first end node. -/
theorem gatherA (a0 : FVec Ideal S1000000x3 .f32) (a1 : IVec S4000000x2 32) (a8 a9 : FVec Ideal S1 .f32) (e : Fin 4000000) (c : Fin 3) :
    val_main_v14 (F := Ideal) a0 a1 a8 a9 (ix2 e c) = val_main_v3 (F := Ideal) a0 a8 a9 (ix2 (Cert.Spec.node a1 0 e) c) := by
  unfold val_main_v14
  rw [Cert.LibRowScatter.gather_rows_apply _ rfl rfl rfl rfl rfl rfl rfl (by decide : 0 < 1000000) _ _ e c, rowA]

/-- Row e of the second gather is that of its second end node. -/
theorem gatherB (a0 : FVec Ideal S1000000x3 .f32) (a1 : IVec S4000000x2 32) (a8 a9 : FVec Ideal S1 .f32) (e : Fin 4000000) (c : Fin 3) :
    val_main_v21 (F := Ideal) a0 a1 a8 a9 (ix2 e c) = val_main_v3 (F := Ideal) a0 a8 a9 (ix2 (Cert.Spec.node a1 1 e) c) := by
  unfold val_main_v21
  rw [Cert.LibRowScatter.gather_rows_apply _ rfl rfl rfl rfl rfl rfl rfl (by decide : 0 < 1000000) _ _ e c, rowB]

/-! ### One column cut out of a two-dimensional array and flattened: its element e is element (e, column) -/

/-- The direction cosine c of edge e: column 0 of its direction row. -/
theorem dirC (a6 : FVec Ideal S4000000x3 .f32) (e : Fin 4000000) :
    val_main_v23 (F := Ideal) a6 (ix1 e) = a6 (ix2 e (0 : Fin 3)) := by
  rw [val_main_v23_apply, val_main_v22_apply]
  have hi : idx_main_v22 (idx_main_v23 (ix1 e)) = ix2 e (0 : Fin 3) := by
    funext a
    refine Fin.ext ?_
    match a with
    | ⟨0, _⟩ => exact Nat.div_one _
    | ⟨1, _⟩ => rfl
  rw [hi]

/-- The direction cosine s of edge e: column 2 of its direction row. -/
theorem dirS (a6 : FVec Ideal S4000000x3 .f32) (e : Fin 4000000) :
    val_main_v25 (F := Ideal) a6 (ix1 e) = a6 (ix2 e (2 : Fin 3)) := by
  rw [val_main_v25_apply, val_main_v24_apply]
  have hi : idx_main_v24 (idx_main_v25 (ix1 e)) = ix2 e (2 : Fin 3) := by
    funext a
    refine Fin.ext ?_
    match a with
    | ⟨0, _⟩ => exact Nat.div_one _
    | ⟨1, _⟩ => rfl
  rw [hi]

/-- Column 0 of the first gather's result, at edge e. -/
theorem colA_29 (a0 : FVec Ideal S1000000x3 .f32) (a1 : IVec S4000000x2 32) (a8 a9 : FVec Ideal S1 .f32) (e : Fin 4000000) :
    val_main_v29 (F := Ideal) a0 a1 a8 a9 (ix1 e) = val_main_v14 (F := Ideal) a0 a1 a8 a9 (ix2 e (0 : Fin 3)) := by
  rw [val_main_v29_apply, val_main_v28_apply]
  have hi : idx_main_v28 (idx_main_v29 (ix1 e)) = ix2 e (0 : Fin 3) := by
    funext a
    refine Fin.ext ?_
    match a with
    | ⟨0, _⟩ => exact Nat.div_one _
    | ⟨1, _⟩ => rfl
  rw [hi]

/-- Column 1 of the first gather's result, at edge e. -/
theorem colA_32 (a0 : FVec Ideal S1000000x3 .f32) (a1 : IVec S4000000x2 32) (a8 a9 : FVec Ideal S1 .f32) (e : Fin 4000000) :
    val_main_v32 (F := Ideal) a0 a1 a8 a9 (ix1 e) = val_main_v14 (F := Ideal) a0 a1 a8 a9 (ix2 e (1 : Fin 3)) := by
  rw [val_main_v32_apply, val_main_v31_apply]
  have hi : idx_main_v31 (idx_main_v32 (ix1 e)) = ix2 e (1 : Fin 3) := by
    funext a
    refine Fin.ext ?_
    match a with
    | ⟨0, _⟩ => exact Nat.div_one _
    | ⟨1, _⟩ => rfl
  rw [hi]

/-- Column 0 of the first gather's result, at edge e. -/
theorem colA_37 (a0 : FVec Ideal S1000000x3 .f32) (a1 : IVec S4000000x2 32) (a8 a9 : FVec Ideal S1 .f32) (e : Fin 4000000) :
    val_main_v37 (F := Ideal) a0 a1 a8 a9 (ix1 e) = val_main_v14 (F := Ideal) a0 a1 a8 a9 (ix2 e (0 : Fin 3)) := by
  rw [val_main_v37_apply, val_main_v36_apply]
  have hi : idx_main_v36 (idx_main_v37 (ix1 e)) = ix2 e (0 : Fin 3) := by
    funext a
    refine Fin.ext ?_
    match a with
    | ⟨0, _⟩ => exact Nat.div_one _
    | ⟨1, _⟩ => rfl
  rw [hi]

/-- Column 1 of the first gather's result, at edge e. -/
theorem colA_40 (a0 : FVec Ideal S1000000x3 .f32) (a1 : IVec S4000000x2 32) (a8 a9 : FVec Ideal S1 .f32) (e : Fin 4000000) :
    val_main_v40 (F := Ideal) a0 a1 a8 a9 (ix1 e) = val_main_v14 (F := Ideal) a0 a1 a8 a9 (ix2 e (1 : Fin 3)) := by
  rw [val_main_v40_apply, val_main_v39_apply]
  have hi : idx_main_v39 (idx_main_v40 (ix1 e)) = ix2 e (1 : Fin 3) := by
    funext a
    refine Fin.ext ?_
    match a with
    | ⟨0, _⟩ => exact Nat.div_one _
    | ⟨1, _⟩ => rfl
  rw [hi]

/-- Column 2 of the first gather's result, at edge e. -/
theorem colA_44 (a0 : FVec Ideal S1000000x3 .f32) (a1 : IVec S4000000x2 32) (a8 a9 : FVec Ideal S1 .f32) (e : Fin 4000000) :
    val_main_v44 (F := Ideal) a0 a1 a8 a9 (ix1 e) = val_main_v14 (F := Ideal) a0 a1 a8 a9 (ix2 e (2 : Fin 3)) := by
  rw [val_main_v44_apply, val_main_v43_apply]
  have hi : idx_main_v43 (idx_main_v44 (ix1 e)) = ix2 e (2 : Fin 3) := by
    funext a
    refine Fin.ext ?_
    match a with
    | ⟨0, _⟩ => exact Nat.div_one _
    | ⟨1, _⟩ => rfl
  rw [hi]

/-- Column 0 of the second gather's result, at edge e. -/
theorem colB_46 (a0 : FVec Ideal S1000000x3 .f32) (a1 : IVec S4000000x2 32) (a8 a9 : FVec Ideal S1 .f32) (e : Fin 4000000) :
    val_main_v46 (F := Ideal) a0 a1 a8 a9 (ix1 e) = val_main_v21 (F := Ideal) a0 a1 a8 a9 (ix2 e (0 : Fin 3)) := by
  rw [val_main_v46_apply, val_main_v45_apply]
  have hi : idx_main_v45 (idx_main_v46 (ix1 e)) = ix2 e (0 : Fin 3) := by
    funext a
    refine Fin.ext ?_
    match a with
    | ⟨0, _⟩ => exact Nat.div_one _
    | ⟨1, _⟩ => rfl
  rw [hi]

/-- Column 1 of the second gather's result, at edge e. -/
theorem colB_49 (a0 : FVec Ideal S1000000x3 .f32) (a1 : IVec S4000000x2 32) (a8 a9 : FVec Ideal S1 .f32) (e : Fin 4000000) :
    val_main_v49 (F := Ideal) a0 a1 a8 a9 (ix1 e) = val_main_v21 (F := Ideal) a0 a1 a8 a9 (ix2 e (1 : Fin 3)) := by
  rw [val_main_v49_apply, val_main_v48_apply]
  have hi : idx_main_v48 (idx_main_v49 (ix1 e)) = ix2 e (1 : Fin 3) := by
    funext a
    refine Fin.ext ?_
    match a with
    | ⟨0, _⟩ => exact Nat.div_one _
    | ⟨1, _⟩ => rfl
  rw [hi]

/-- Column 0 of the second gather's result, at edge e. -/
theorem colB_54 (a0 : FVec Ideal S1000000x3 .f32) (a1 : IVec S4000000x2 32) (a8 a9 : FVec Ideal S1 .f32) (e : Fin 4000000) :
    val_main_v54 (F := Ideal) a0 a1 a8 a9 (ix1 e) = val_main_v21 (F := Ideal) a0 a1 a8 a9 (ix2 e (0 : Fin 3)) := by
  rw [val_main_v54_apply, val_main_v53_apply]
  have hi : idx_main_v53 (idx_main_v54 (ix1 e)) = ix2 e (0 : Fin 3) := by
    funext a
    refine Fin.ext ?_
    match a with
    | ⟨0, _⟩ => exact Nat.div_one _
    | ⟨1, _⟩ => rfl
  rw [hi]

/-- Column 1 of the second gather's result, at edge e. -/
theorem colB_57 (a0 : FVec Ideal S1000000x3 .f32) (a1 : IVec S4000000x2 32) (a8 a9 : FVec Ideal S1 .f32) (e : Fin 4000000) :
    val_main_v57 (F := Ideal) a0 a1 a8 a9 (ix1 e) = val_main_v21 (F := Ideal) a0 a1 a8 a9 (ix2 e (1 : Fin 3)) := by
  rw [val_main_v57_apply, val_main_v56_apply]
  have hi : idx_main_v56 (idx_main_v57 (ix1 e)) = ix2 e (1 : Fin 3) := by
    funext a
    refine Fin.ext ?_
    match a with
    | ⟨0, _⟩ => exact Nat.div_one _
    | ⟨1, _⟩ => rfl
  rw [hi]

/-- Column 2 of the second gather's result, at edge e. -/
theorem colB_61 (a0 : FVec Ideal S1000000x3 .f32) (a1 : IVec S4000000x2 32) (a8 a9 : FVec Ideal S1 .f32) (e : Fin 4000000) :
    val_main_v61 (F := Ideal) a0 a1 a8 a9 (ix1 e) = val_main_v21 (F := Ideal) a0 a1 a8 a9 (ix2 e (2 : Fin 3)) := by
  rw [val_main_v61_apply, val_main_v60_apply]
  have hi : idx_main_v60 (idx_main_v61 (ix1 e)) = ix2 e (2 : Fin 3) := by
    funext a
    refine Fin.ext ?_
    match a with
    | ⟨0, _⟩ => exact Nat.div_one _
    | ⟨1, _⟩ => rfl
  rw [hi]

/-! ### (1) The summand: the per-edge energy -/

/-- The array the reference sums, at edge e, is the per-edge formula at the edge's fourteen numbers: every
    remaining operation acts element by element, in the order the formula is written in. -/
theorem energy_apply (a0 : FVec Ideal S1000000x3 .f32) (a1 : IVec S4000000x2 32) (a2 a3 a4 a5 : FVec Ideal S4000000 .f32)
    (a6 : FVec Ideal S4000000x3 .f32) (a8 a9 : FVec Ideal S1 .f32) (e : Fin 4000000) :
    val_main_v102 (F := Ideal) a0 a1 a2 a3 a4 a5 a6 a8 a9 (ix1 e) = Cert.Spec.eR a0 a1 a2 a3 a4 a5 a6 a8 a9 e := by
  simp only [
    val_main_v102_apply, val_main_v101_apply, val_main_v100_apply, val_main_v99_apply, val_main_v98_apply,
    val_main_v97_apply, val_main_v96_apply, val_main_v95_apply, val_main_v94_apply, val_main_v93_apply,
    val_main_v92_apply, val_main_v91_apply, val_main_v90_apply, val_main_v89_apply, val_main_v88_apply,
    val_main_v87_apply, val_main_v86_apply, val_main_v85_apply, val_main_v84_apply, val_main_v83_apply,
    val_main_v82_apply, val_main_v81_apply, val_main_v80_apply, val_main_v79_apply, val_main_v78_apply,
    val_main_v77_apply, val_main_v76_apply, val_main_v75_apply, val_main_v74_apply, val_main_v73_apply,
    val_main_v72_apply, val_main_v71_apply, val_main_v70_apply, val_main_v69_apply, val_main_v68_apply,
    val_main_v67_apply, val_main_v66_apply, val_main_v65_apply, val_main_v64_apply, val_main_v63_apply,
    val_main_v62_apply, val_main_v59_apply, val_main_v58_apply, val_main_v55_apply, val_main_v52_apply,
    val_main_v51_apply, val_main_v50_apply, val_main_v47_apply, val_main_v42_apply, val_main_v41_apply,
    val_main_v38_apply, val_main_v35_apply, val_main_v34_apply, val_main_v33_apply, val_main_v30_apply,
    val_main_v27_apply, val_main_v26_apply, val_main_cst_apply, val_main_cst_3_apply, val_main_cst_4_apply,
    val_main_cst_5_apply, val_main_cst_6_apply, val_main_cst_7_apply, val_main_cst_8_apply, val_main_cst_9_apply,
    dirC, dirS, colA_29, colA_32, colA_37, colA_40, colA_44, colB_46, colB_49, colB_54, colB_57, colB_61, gatherA,
    gatherB, uphys0, uphys1, uphys2]
  rfl

/-! ### (2) The result as a function of the sum -/

/-- Everything the reference does after the sum of the per-edge energies, as one function of that sum U:
    the external work (the sum over every node and column of the load times the scaled displacement) is
    subtracted, and the difference is divided by the larger of F_c · u_c and 1e-30. -/
def refTail (U : FVec Ideal S_ .f32) (a0 a7 : FVec Ideal S1000000x3 .f32) (a8 a9 a10 : FVec Ideal S1 .f32) :
    FVec Ideal S_ .f32 :=
  Host.divf (F := Ideal)
    (subf (F := Ideal) U
      (Host.reduceAdd (F := Ideal)
        (mulf (F := Ideal) a7
          (mulf (F := Ideal) a0
            (broadcastInDim S1000000x3 ![0, 1] bcast_S1x3_S1000000x3_0_1
              (broadcastInDim S1x3 ![1] bcast_S3_S1x3_1
                (concatenate S3 0 [⟨S1, a8⟩, ⟨S1, a8⟩, ⟨S1, a9⟩] concatenates_S1_S1_S1_S3_d0)))))
        (constant (F := Ideal) S_ .f32 0x00000000#32) reducesTo_S1000000x3_S_d0_1 h_S_))
    (maximumf (F := Ideal)
      (mulf (F := Ideal) (shapeCast _ a10 shapeCasts_S1_S_) (shapeCast _ a8 shapeCasts_S1_S_))
      (constant (F := Ideal) S_ .f32 0x0DA24260#32))

/-- The reference's result is the tail applied to the sum of the per-edge energies. -/
theorem result_eq (a0 : FVec Ideal S1000000x3 .f32) (a1 : IVec S4000000x2 32) (a2 a3 a4 a5 : FVec Ideal S4000000 .f32)
    (a6 : FVec Ideal S4000000x3 .f32) (a7 : FVec Ideal S1000000x3 .f32) (a8 a9 a10 : FVec Ideal S1 .f32) :
    val_main_v111 (F := Ideal) a0 a1 a2 a3 a4 a5 a6 a7 a8 a9 a10
      = refTail (Host.reduceAdd (F := Ideal) (val_main_v102 (F := Ideal) a0 a1 a2 a3 a4 a5 a6 a8 a9)
          (constant (F := Ideal) S_ .f32 0x00000000#32) reducesTo_S4000000_S_d0 h_S_) a0 a7 a8 a9 a10 := by
  unfold val_main_v111 val_main_v106 val_main_v103 val_main_v105 val_main_v104 val_main_v110 val_main_v109
    val_main_v107 val_main_v108 val_main_cst_10 val_main_cst_11 val_main_cst_12 val_main_v3 val_main_v2 val_main_v1
    val_main_v0 refTail
  rfl

/-- The same for the term the run theorem states, at any memory m on device c. -/
theorem result_run_eq (m : (ℓ : Loc nD τ sig) → Buf (Elt Ideal) ℓ) (c : Dev nD) :
    Cert.ReferenceIdeal.Value.res_main_v111 (F := Ideal) m c
      = refTail (Host.reduceAdd (F := Ideal)
          (val_main_v102 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg8))
            (m ((c.tc : Thread nD τ).loc main_arg9)))
          (constant (F := Ideal) S_ .f32 0x00000000#32) reducesTo_S4000000_S_d0 h_S_)
        (m ((c.tc : Thread nD τ).loc main_arg0)) (m ((c.tc : Thread nD τ).loc main_arg7))
        (m ((c.tc : Thread nD τ).loc main_arg8)) (m ((c.tc : Thread nD τ).loc main_arg9))
        (m ((c.tc : Thread nD τ).loc main_arg10)) :=
  (val_main_v111_eq m c).trans (result_eq _ _ _ _ _ _ _ _ _ _ _)

/-! ### (3) The sum -/

/-- A sum over the positions of a one-dimensional array is the sum over its coordinate. -/
theorem sum_idx1 {M : Type*} [AddCommMonoid M] {n : Nat} (f : (⟨1, ![n]⟩ : Shape).Idx → M) :
    ∑ j, f j = ∑ k : Fin n, f (ix1 k) :=
  (Equiv.sum_comp (⟨fun j => j 0, ix1, fun j => (eq_ix1 j).symm, fun _ => rfl⟩ : (⟨1, ![n]⟩ : Shape).Idx ≃ Fin n).symm f).symm

/-- The sum of the per-edge energies the reference forms: the initial value 0 plus the sum over the edges. -/
theorem total_apply (a0 : FVec Ideal S1000000x3 .f32) (a1 : IVec S4000000x2 32) (a2 a3 a4 a5 : FVec Ideal S4000000 .f32)
    (a6 : FVec Ideal S4000000x3 .f32) (a8 a9 : FVec Ideal S1 .f32) :
    Host.reduceAdd (F := Ideal) (val_main_v102 (F := Ideal) a0 a1 a2 a3 a4 a5 a6 a8 a9)
        (constant (F := Ideal) S_ .f32 0x00000000#32) reducesTo_S4000000_S_d0 h_S_ ix0
      = 0 + ∑ e : Fin 4000000, Cert.Spec.eR a0 a1 a2 a3 a4 a5 a6 a8 a9 e := by
  refine (val_main_v103_apply a0 a1 a2 a3 a4 a5 a6 a8 a9 ix0).trans ?_
  rw [val_main_cst_10_apply, sum_idx1]
  simp only [energy_apply]
  show Ideal.ofBits .f32 0x00000000#32 + _ = _
  rw [Ideal.ofBits_zero_f32]

end Cert.ReferenceIdeal.RefValue

end
-- ==== Proof.KI.Tail.lean ====
/-
  The kernel's host lines after the region, read as mathematics at the extended reals.
  The region leaves a [2, 8, 128] array whose entry (p, 0, 0) is the total of row p of the edges. The host lines
  after it cut those two entries out, add them from 0 (kU), and then do exactly what the reference does after
  its own sum: subtract the external work and divide by max(F_c · u_c, 1e-30). So the kernel's result is the
  reference's tail (refTail) applied to kU of the region's result array (kTail_eq_refTail), the final memory at
  the result buffer is that function of the region's result array and of the launch contents of the five
  argument arrays the lines read (tail_value), and kU is 0 plus the two row totals (kU_apply).
-/
import proofs.«111899_j63788854280708_2_alg».proof.Proof.KI.Setup
import proofs.«111899_j63788854280708_2_alg».proof.Proof.RefValue
import Idealize.ShloMosaic.Lib.ValueIdx
import Idealize.ShloMosaic.Lib.Pipeline.Value
import Idealize.ShloMosaic.Lib.Pipeline.FrameSuffix
import Idealize.ShloMosaic.Lib.StableHlo.Run
import Idealize.ShloMosaic.PureOps.Ideal.Laws

noncomputable section

namespace Cert.KernelIdeal.Tail

open Cert.KernelIdeal Cert.KernelIdeal.Gen
open Idealize.ShloMosaic Idealize.ShloMosaic.ValueIdx Idealize.ShloMosaic.StableHlo Idealize.ShloMosaic.TcCoe Idealize.SL.Sem
open Idealize.ShloMosaic.Rounds

/-- The sum the kernel's host lines form from the region's result array: entry (p, 0, 0) of each of its two
    rows (a slice and a reshape), added from 0. -/
def kU (OUT : FVec Ideal S2x8x128 .f32) : FVec Ideal S_ .f32 :=
  Host.reduceAdd (F := Ideal)
    (shapeCast S2 (extractStridedSlice S2x1x1 ![0, 0, 0] OUT slices_S2x8x128_S2x1x1_0_0_0) shapeCasts_S2x1x1_S2)
    (constant (F := Ideal) S_ .f32 0x00000000#32) reducesTo_S2_S_d0 h_S_

/-- The eighteen host lines after the region, composed: the two rows' totals added, the external work
    subtracted, the difference divided by the larger of F_c · u_c and 1e-30. -/
def kTail (OUT : FVec Ideal S2x8x128 .f32) (a0 a7 : FVec Ideal S1000000x3 .f32) (a8 a9 a10 : FVec Ideal S1 .f32) :
    FVec Ideal S_ .f32 :=
  Host.divf (F := Ideal)
    (subf (F := Ideal)
      (Host.reduceAdd (F := Ideal)
        (shapeCast S2 (extractStridedSlice S2x1x1 ![0, 0, 0] OUT slices_S2x8x128_S2x1x1_0_0_0) shapeCasts_S2x1x1_S2)
        (constant (F := Ideal) S_ .f32 0x00000000#32) reducesTo_S2_S_d0 h_S_)
      (Host.reduceAdd (F := Ideal)
        (mulf (F := Ideal) a7
          (mulf (F := Ideal) a0
            (broadcastInDim S1000000x3 ![0, 1] bcast_S1x3_S1000000x3_0_1
              (broadcastInDim S1x3 ![1] bcast_S3_S1x3_1
                (concatenate S3 0 [⟨S1, a8⟩, ⟨S1, a8⟩, ⟨S1, a9⟩] concatenates_S1_S1_S1_S3_d0)))))
        (constant (F := Ideal) S_ .f32 0x00000000#32) reducesTo_S1000000x3_S_d0_1 h_S_))
    (maximumf (F := Ideal)
      (mulf (F := Ideal) (shapeCast _ a10 shapeCasts_S1_S_) (shapeCast _ a8 shapeCasts_S1_S_))
      (constant (F := Ideal) S_ .f32 0x0DA24260#32))

/-- The kernel's host lines after the region are the reference's tail, applied to the kernel's sum. -/
theorem kTail_eq_refTail (OUT : FVec Ideal S2x8x128 .f32) (a0 a7 : FVec Ideal S1000000x3 .f32)
    (a8 a9 a10 : FVec Ideal S1 .f32) :
    kTail OUT a0 a7 a8 a9 a10 = Cert.ReferenceIdeal.RefValue.refTail (kU OUT) a0 a7 a8 a9 a10 := rfl

/-- The kernel's sum: 0 plus entry (p, 0, 0) of the result array over its two rows p. -/
theorem kU_apply (OUT : FVec Ideal S2x8x128 .f32) :
    kU OUT ix0 = 0 + ∑ p : Fin 2, OUT (ix3 p (0 : Fin 8) (0 : Fin 128)) := by
  unfold kU
  simp only [Host.reduceAdd, Ideal.hostReduceAdd_def]
  rw [Ideal.hostReduceAdd_total reducesTo_S2_S_d0 (fun b => b.elim0) _ _ ix0, constant_apply, Ideal.ofBits_zero_f32,
    Cert.ReferenceIdeal.RefValue.sum_idx1]
  refine congrArg (0 + ·) (Finset.sum_congr rfl fun p _ => ?_)
  rw [shapeCast_apply _ shapeCasts_S2x1x1_S2 (ix1 p) (ix3 p (0 : Fin 1) (0 : Fin 1)) (by
      rw [Shape.rowMajor_val_three, Shape.rowMajor_val_one]
      show (p.val * 1 + 0) * 1 + 0 = p.val
      omega)]
  exact extractStridedSlice_apply ![0, 0, 0] OUT slices_S2x8x128_S2x1x1_0_0_0 _ _ (fun d => match d with
    | ⟨0, _⟩ => (Nat.zero_add _).symm
    | ⟨1, _⟩ => rfl
    | ⟨2, _⟩ => rfl)

set_option maxHeartbeats 4000000 in
/-- The host lines after the region, run from any contents G of the buffers: the last result is the composed
    function of the region's result array and the five argument arrays the lines read. -/
theorem tail_generic (G : Valuation τ sig (Elt Ideal)) :
    StableHlo.after (hostOps1 (F := Ideal)) G (Proc.devRef .tc main_v85)
      = kTail (G (Proc.devRef .tc main_v70)) (G (Proc.devRef .tc main_arg0)) (G (Proc.devRef .tc main_arg7))
          (G (Proc.devRef .tc main_arg8)) (G (Proc.devRef .tc main_arg9)) (G (Proc.devRef .tc main_arg10)) := by
  after_results
  rfl

variable (m : (ℓ : Loc nD τ sig) → Buf (Elt Ideal) ℓ)

/-- The final memory at the result buffer: the composed host lines at the region's result array (window 14's
    array as the region leaves it) and the launch contents of the argument arrays, which no host line writes. -/
theorem tail_value (dats : (p : Fin 1) → (c : Dev nD) → Pipeline.Dat τ (Elt Ideal) Unit ℕ (UR sig nD τ) ℕ (cfgs p) c)
    (c : Dev nD) :
    Pipeline.afterTail₀ cfgs dats 0 (Cert.KernelIdeal.Fr.V0 m) [hostOps1] c main_v85
      = kTail ((dats 0 c).arrAt 14 cfg0.N) (m ((c : Thread nD τ).loc main_arg0)) (m ((c : Thread nD τ).loc main_arg7))
          (m ((c : Thread nD τ).loc main_arg8)) (m ((c : Thread nD τ).loc main_arg9))
          (m ((c : Thread nD τ).loc main_arg10)) := by
  unfold Pipeline.afterTail₀
  show StableHlo.after hostOps1 (Pipeline.withArrays spec0 c (Cert.KernelIdeal.Fr.V0 m c)
      fun w => (dats 0 c).arrAt w cfg0.N) (Proc.devRef .tc main_v85) = _
  have e70 : Pipeline.withArrays spec0 c (Cert.KernelIdeal.Fr.V0 m c) (fun w => (dats 0 c).arrAt w cfg0.N)
      (Proc.devRef .tc main_v70) = (dats 0 c).arrAt 14 cfg0.N :=
    Pipeline.withArrays_arr spec0 launch0.win.arr_inj c _ _ 14
  have e0 : Pipeline.withArrays spec0 c (Cert.KernelIdeal.Fr.V0 m c) (fun w => (dats 0 c).arrAt w cfg0.N)
      (Proc.devRef .tc main_arg0) = m ((c : Thread nD τ).loc main_arg0) :=
    (Pipeline.withArrays_of_ne _ c (Cert.KernelIdeal.Fr.V0 m c) _ main_arg0
      (by decide : ∀ w, Pipeline.arrRef spec0 w ≠ main_arg0)).trans (Cert.KernelIdeal.Fr.V_main_arg0 m c)
  have e7 : Pipeline.withArrays spec0 c (Cert.KernelIdeal.Fr.V0 m c) (fun w => (dats 0 c).arrAt w cfg0.N)
      (Proc.devRef .tc main_arg7) = m ((c : Thread nD τ).loc main_arg7) :=
    (Pipeline.withArrays_of_ne _ c (Cert.KernelIdeal.Fr.V0 m c) _ main_arg7
      (by decide : ∀ w, Pipeline.arrRef spec0 w ≠ main_arg7)).trans (Cert.KernelIdeal.Fr.V_main_arg7 m c)
  have e8 : Pipeline.withArrays spec0 c (Cert.KernelIdeal.Fr.V0 m c) (fun w => (dats 0 c).arrAt w cfg0.N)
      (Proc.devRef .tc main_arg8) = m ((c : Thread nD τ).loc main_arg8) :=
    (Pipeline.withArrays_of_ne _ c (Cert.KernelIdeal.Fr.V0 m c) _ main_arg8
      (by decide : ∀ w, Pipeline.arrRef spec0 w ≠ main_arg8)).trans (Cert.KernelIdeal.Fr.V_main_arg8 m c)
  have e9 : Pipeline.withArrays spec0 c (Cert.KernelIdeal.Fr.V0 m c) (fun w => (dats 0 c).arrAt w cfg0.N)
      (Proc.devRef .tc main_arg9) = m ((c : Thread nD τ).loc main_arg9) :=
    (Pipeline.withArrays_of_ne _ c (Cert.KernelIdeal.Fr.V0 m c) _ main_arg9
      (by decide : ∀ w, Pipeline.arrRef spec0 w ≠ main_arg9)).trans (Cert.KernelIdeal.Fr.V_main_arg9 m c)
  have e10 : Pipeline.withArrays spec0 c (Cert.KernelIdeal.Fr.V0 m c) (fun w => (dats 0 c).arrAt w cfg0.N)
      (Proc.devRef .tc main_arg10) = m ((c : Thread nD τ).loc main_arg10) :=
    (Pipeline.withArrays_of_ne _ c (Cert.KernelIdeal.Fr.V0 m c) _ main_arg10
      (by decide : ∀ w, Pipeline.arrRef spec0 w ≠ main_arg10)).trans (Cert.KernelIdeal.Fr.V_main_arg10 m c)
  rw [tail_generic, e70, e0, e7, e8, e9, e10]

end Cert.KernelIdeal.Tail

end
-- ==== Proof.LibGather1.lean ====
/-
  A gather of single entries of a vector, read at an index.

  Let x be a vector of N entries and idx a column of E integers (an E × 1 array of words read as signed integers).
  The gather of single entries of x along idx — no offset axis, the one operand axis collapsed, slices of size 1 —
  is the vector of E entries whose entry e is x at the integer idx e, first clamped into [0, N − 1]: the entry
  rowOf idx e depends on the index column and on e only, not on x.
-/
import Idealize.ShloMosaic.PureOps.Ideal.Laws
import Idealize.ShloMosaic.Lib.ValueIdx
import proofs.«111899_j63788854280708_2_alg».proof.Proof.LibRowScatter

noncomputable section

namespace Cert.LibGather1

open Idealize.ShloMosaic Idealize.ShloMosaic.ValueIdx Cert.LibRowScatter

variable {N E w : Nat} {α : Type} (g1 : GatherDims ⟨1, ![N]⟩ ⟨2, ![E, 1]⟩ ⟨1, ![E]⟩)

/-- On the one axis of the vector the slice starts at the result entry's integer, read signed and clamped into
    [0, N − 1]. -/
theorem gather1_start (hod : g1.offsetDims = []) (hcd : g1.collapsedSliceDims = [0])
    (hob : g1.operandBatchingDims = []) (hsb : g1.startIndicesBatchingDims = []) (hsm : g1.startIndexMap = [0])
    (hiv : g1.indexVectorDim = 1) (hss : g1.sliceSizes = ![1]) (idx : IVec ⟨2, ![E, 1]⟩ w)
    (j : (⟨1, ![E]⟩ : Shape).Idx) :
    g1.start j idx 0 = min (idx (ix2 (j 0) (0 : Fin 1))).toInt.toNat (N - 1) := by
  obtain ⟨od, cd, ob, sb, sm, iv, ss, wf⟩ := g1
  dsimp only at hod hcd hob hsb hsm hiv hss
  subst hod hcd hob hsb hsm hiv hss
  unfold GatherDims.start
  rw [dif_pos (List.mem_singleton.mpr rfl)]
  refine congrArg₂ min (congrArg (fun v => (idx v).toInt.toNat) ?_) rfl
  funext b
  refine Fin.ext ?_
  match b with
  | ⟨0, _⟩ => rfl
  | ⟨1, _⟩ => rfl

/-- THE GATHER OF ENTRIES READ AT e: the vector at the integer of e clamped into [0, N − 1]. -/
theorem gather1_apply (hod : g1.offsetDims = []) (hcd : g1.collapsedSliceDims = [0])
    (hob : g1.operandBatchingDims = []) (hsb : g1.startIndicesBatchingDims = []) (hsm : g1.startIndexMap = [0])
    (hiv : g1.indexVectorDim = 1) (hss : g1.sliceSizes = ![1]) (hN : 0 < N)
    (x : (⟨1, ![N]⟩ : Shape).Idx → α) (idx : IVec ⟨2, ![E, 1]⟩ w) (e : Fin E) :
    Host.gather g1 x idx (ix1 e) = x (ix1 (rowOf hN idx e)) := by
  unfold Host.gather
  congr 1
  funext a
  obtain rfl : a = 0 := Subsingleton.elim _ _
  refine Fin.ext ?_
  show g1.start (ix1 e) idx 0 + g1.batchCoord (ix1 e) 0 + g1.offCoord (ix1 e) 0 = _
  rw [g1.batchCoord_eq_zero _ _ (by rw [hob]; exact List.not_mem_nil),
    g1.offCoord_eq_zero _ _ (fun h => ((g1.mem_sKept _).mp h).1 (by rw [hcd]; exact List.mem_singleton.mpr rfl)),
    gather1_start g1 hod hcd hob hsb hsm hiv hss]
  rfl

end Cert.LibGather1

end
-- ==== Proof.KI.Blocks.lean ====
import proofs.«111899_j63788854280708_2_alg».proof.Proof.KI.Setup
import proofs.«111899_j63788854280708_2_alg».proof.Proof.LibGather1
import proofs.«111899_j63788854280708_2_alg».proof.Proof.LibSliceConcat
import proofs.«111899_j63788854280708_2_alg».proof.Proof.Spec
import Idealize.ShloMosaic.Lib.StableHlo.Run
import Idealize.ShloMosaic.Lib.Pipeline.Value
import Idealize.ShloMosaic.Lib.IdealHost
import Idealize.ShloMosaic.Lib.ValueIdx

/-!
# The region's input arrays and blocks, read at an index

Before the region the host lines build twelve arrays of shape [2, 125, 16000] and two of shape [1, 1]
from the arguments: six node columns gathered along the edges' two node indices (made non-negative),
two columns of the direction array, the four per-edge vectors, and the two scale factors. Element
(p, r, cc) of each [2, 125, 16000] array is the corresponding per-edge quantity of edge
e = p * 2000000 + r * 16000 + cc (section A). At grid point t = p * 25 + j the window of such an array
is its block (p, all rows, columns j * 640 … j * 640 + 639), so element (0, r, l) of the block is element
(p, r, j * 640 + l) of the array (section B).
-/

set_option maxRecDepth 16384
set_option Elab.async false

noncomputable section

namespace Cert.KernelIdeal.Blocks

open Cert.KernelIdeal Cert.KernelIdeal.Gen Cert.KernelIdeal.Fr
open Idealize.ShloMosaic Idealize.ShloMosaic.TcCoe Idealize.ShloMosaic.ValueIdx
open Idealize.SL.Sem
open Cert.LibGather1 Cert.LibRowScatter Cert.LibSliceConcat

/-! ## The host operations read at an index -/

section Pure
variable {α : Type}

/-- A vector of 4,000,000 entries re-laid as [2, 125, 16000] (row-major): element (p, r, cc) is entry
    p * 2000000 + r * 16000 + cc. -/
theorem reshape3_apply (y : S4000000.Idx → α) (h : S4000000.ShapeCasts S2x125x16000)
    (p : Fin 2) (r : Fin 125) (cc : Fin 16000) (e : Fin 4000000)
    (he : e.val = p.val * 2000000 + r.val * 16000 + cc.val) :
    shapeCast S2x125x16000 y h (ix3 p r cc) = y (ix1 e) :=
  shapeCast_apply y h _ _ (by
    rw [Shape.rowMajor_val_one, Shape.rowMajor_val_three]
    show e.val = (p.val * 125 + r.val) * 16000 + cc.val
    rw [he]; ring)

/-- Column k of an [a, b] array, cut out as [a, 1] and flattened to [a]: entry p is element (p, k). -/
theorem col_apply {a b : ℕ} (k : ℕ) (x : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (p : Fin a) (K : Fin b) (hK : K.val = k) :
    shapeCast ⟨1, ![a]⟩ (extractStridedSlice ⟨2, ![a, 1]⟩ ![0, k] x hs) hc (ix1 p) = x (ix2 p K) := by
  rw [shapeCast_a1_a_apply, slice2_apply 0 k x hs p 0 p K (by omega) (by rw [hK]; rfl)]

/-- A signed index vector made non-negative (compare with 0, add 1,000,000, select), read at e. -/
theorem wrap_apply (v : IVec S4000000 32) (hb : S_.BroadcastsInDim S4000000 ![]) (e : Fin 4000000) :
    select (cmpi .slt v (broadcastInDim S4000000 ![] hb (constantI S_ 32 0#32)))
        (addi v (broadcastInDim S4000000 ![] hb (constantI S_ 32 1000000#32))) v (ix1 e)
      = Cert.Spec.wrapIdx (v (ix1 e)) := by
  show Scalar.select (IntOp.cmpi .slt (v (ix1 e)) (broadcastInDim S4000000 ![] hb (constantI S_ 32 0#32) (ix1 e)))
      (IntOp.addi (v (ix1 e)) (broadcastInDim S4000000 ![] hb (constantI S_ 32 1000000#32) (ix1 e))) (v (ix1 e)) = _
  rw [broadcastInDim_scalar_apply, broadcastInDim_scalar_apply]
  unfold Cert.Spec.wrapIdx
  rfl

/-- A vector [E] viewed as a column [E, 1] by a broadcast along axis 0: element (e, 0) is entry e. -/
theorem asCol_apply (w : S4000000.Idx → α) (hb : S4000000.BroadcastsInDim S4000000x1 ![0]) (e : Fin 4000000) :
    broadcastInDim S4000000x1 ![0] hb w (ix2 e (0 : Fin 1)) = w (ix1 e) :=
  broadcastInDim_apply _ hb w _ _ (fun a => match a with
    | ⟨0, _⟩ => by
      show e.val = if (4000000 : ℕ) = 1 then 0 else e.val
      rw [if_neg (by decide)])

/-- The flat position of element (p, r, cc) of the [2, 125, 16000] layout. -/
abbrev flat (p : Fin 2) (r : Fin 125) (cc : Fin 16000) : Fin 4000000 :=
  ⟨p.val * 2000000 + r.val * 16000 + cc.val, by have := p.isLt; have := r.isLt; have := cc.isLt; omega⟩

/-- A node column (column kc of the node array) gathered along end kn of the edges' node indices made
    non-negative, re-laid as [2, 125, 16000]: element (p, r, cc) is the node array at the node of end kn of
    edge e = p * 2000000 + r * 16000 + cc, column kc. -/
theorem nodeCol_apply (g : GatherDims S1000000 S4000000x1 S4000000)
    (hod : g.offsetDims = []) (hcd : g.collapsedSliceDims = [0])
    (hob : g.operandBatchingDims = []) (hsb : g.startIndicesBatchingDims = []) (hsm : g.startIndexMap = [0])
    (hiv : g.indexVectorDim = 1) (hss : g.sliceSizes = ![1])
    (x : S1000000x3.Idx → α) (conn : IVec S4000000x2 32) (kc kn : ℕ) (Kc : Fin 3) (Kn : Fin 2)
    (hKc : Kc.val = kc) (hKn : Kn.val = kn)
    (hsx : S1000000x3.Slices ![0, kc] S1000000x1) (hcx : S1000000x1.ShapeCasts S1000000)
    (hsn : S4000000x2.Slices ![0, kn] S4000000x1) (hcn : S4000000x1.ShapeCasts S4000000)
    (hb0 : S_.BroadcastsInDim S4000000 ![]) (hb1 : S4000000.BroadcastsInDim S4000000x1 ![0])
    (hc3 : S4000000.ShapeCasts S2x125x16000) (p : Fin 2) (r : Fin 125) (cc : Fin 16000) :
    shapeCast S2x125x16000
        (Host.gather g (shapeCast S1000000 (extractStridedSlice S1000000x1 ![0, kc] x hsx) hcx)
          (broadcastInDim S4000000x1 ![0] hb1
            (select
              (cmpi .slt (shapeCast S4000000 (extractStridedSlice S4000000x1 ![0, kn] conn hsn) hcn)
                (broadcastInDim S4000000 ![] hb0 (constantI S_ 32 0#32)))
              (addi (shapeCast S4000000 (extractStridedSlice S4000000x1 ![0, kn] conn hsn) hcn)
                (broadcastInDim S4000000 ![] hb0 (constantI S_ 32 1000000#32)))
              (shapeCast S4000000 (extractStridedSlice S4000000x1 ![0, kn] conn hsn) hcn))))
        hc3 (ix3 p r cc)
      = x (ix2 (Cert.Spec.node conn Kn (flat p r cc)) Kc) := by
  rw [reshape3_apply _ hc3 p r cc (flat p r cc) rfl,
    gather1_apply g hod hcd hob hsb hsm hiv hss (by decide) _ _ (flat p r cc), col_apply kc x hsx hcx _ Kc hKc]
  have hrow : ∀ (idx : IVec S4000000x1 32) (hidx : idx (ix2 (flat p r cc) (0 : Fin 1))
      = Cert.Spec.wrapIdx (conn (ix2 (flat p r cc) Kn))),
      rowOf (N := 1000000) (by decide) idx (flat p r cc) = Cert.Spec.node conn Kn (flat p r cc) := by
    intro idx hidx
    apply Fin.ext
    rw [rowOf_val, Cert.Spec.node_val, hidx]
  rw [hrow _ (by rw [asCol_apply, wrap_apply, col_apply kn conn hsn hcn _ Kn hKn])]

/-- Column k of the [4000000, 3] array, flattened and re-laid as [2, 125, 16000]. -/
theorem dirCol_apply (x : S4000000x3.Idx → α) (k : ℕ) (K : Fin 3) (hK : K.val = k)
    (hs : S4000000x3.Slices ![0, k] S4000000x1) (hc : S4000000x1.ShapeCasts S4000000)
    (hc3 : S4000000.ShapeCasts S2x125x16000) (p : Fin 2) (r : Fin 125) (cc : Fin 16000) :
    shapeCast S2x125x16000 (shapeCast S4000000 (extractStridedSlice S4000000x1 ![0, k] x hs) hc) hc3 (ix3 p r cc)
      = x (ix2 (flat p r cc) K) := by
  rw [reshape3_apply _ hc3 p r cc (flat p r cc) rfl, col_apply k x hs hc _ K hK]

/-- A one-entry vector viewed as a [1, 1] array. -/
theorem scalar_apply (x : S1.Idx → α) (h : S1.ShapeCasts S1x1) :
    shapeCast S1x1 x h (ix2 (0 : Fin 1) (0 : Fin 1)) = x (ix1 (0 : Fin 1)) :=
  shapeCast_apply x h _ _ (by
    rw [Shape.rowMajor_val_one, Shape.rowMajor_val_two]
    show (0 : ℕ) = 0 * 1 + 0
    rfl)

end Pure

/-! ## A. The arrays the region is entered with -/

section Arrays
variable (m : (ℓ : Loc nD τ sig) → Buf (Elt Ideal) ℓ)

set_option maxHeartbeats 4000000 in
/-- Element (p, r, cc): column 0 of the node array at the node of end 0 of edge p * 2000000 + r * 16000 + cc. -/
theorem v17_apply (c : Dev nD) (p : Fin 2) (r : Fin 125) (cc : Fin 16000) :
    (V m c main_v17 : S2x125x16000.Idx → EReal) (ix3 p r cc)
      = (m ((c : Thread nD τ).loc main_arg0) : S1000000x3.Idx → EReal)
          (ix2 (Cert.Spec.node (m ((c : Thread nD τ).loc main_arg1) : S4000000x2.Idx → BitVec 32) 0 (flat p r cc)) 0) := by
  dsimp only [V, V0]
  simp only [List.flatten_cons, List.flatten_nil, List.append_nil]
  after_results_simp
  exact nodeCol_apply _ rfl rfl rfl rfl rfl rfl rfl _ _ 0 0 0 0 rfl rfl _ _ _ _ _ _ _ p r cc

set_option maxHeartbeats 4000000 in
/-- Element (p, r, cc): column 1 of the node array at the node of end 0 of edge p * 2000000 + r * 16000 + cc. -/
theorem v25_apply (c : Dev nD) (p : Fin 2) (r : Fin 125) (cc : Fin 16000) :
    (V m c main_v25 : S2x125x16000.Idx → EReal) (ix3 p r cc)
      = (m ((c : Thread nD τ).loc main_arg0) : S1000000x3.Idx → EReal)
          (ix2 (Cert.Spec.node (m ((c : Thread nD τ).loc main_arg1) : S4000000x2.Idx → BitVec 32) 0 (flat p r cc)) 1) := by
  dsimp only [V, V0]
  simp only [List.flatten_cons, List.flatten_nil, List.append_nil]
  after_results_simp
  exact nodeCol_apply _ rfl rfl rfl rfl rfl rfl rfl _ _ 1 0 1 0 rfl rfl _ _ _ _ _ _ _ p r cc

set_option maxHeartbeats 4000000 in
/-- Element (p, r, cc): column 2 of the node array at the node of end 0 of edge p * 2000000 + r * 16000 + cc. -/
theorem v33_apply (c : Dev nD) (p : Fin 2) (r : Fin 125) (cc : Fin 16000) :
    (V m c main_v33 : S2x125x16000.Idx → EReal) (ix3 p r cc)
      = (m ((c : Thread nD τ).loc main_arg0) : S1000000x3.Idx → EReal)
          (ix2 (Cert.Spec.node (m ((c : Thread nD τ).loc main_arg1) : S4000000x2.Idx → BitVec 32) 0 (flat p r cc)) 2) := by
  dsimp only [V, V0]
  simp only [List.flatten_cons, List.flatten_nil, List.append_nil]
  after_results_simp
  exact nodeCol_apply _ rfl rfl rfl rfl rfl rfl rfl _ _ 2 0 2 0 rfl rfl _ _ _ _ _ _ _ p r cc

set_option maxHeartbeats 4000000 in
/-- Element (p, r, cc): column 0 of the node array at the node of end 1 of edge p * 2000000 + r * 16000 + cc. -/
theorem v41_apply (c : Dev nD) (p : Fin 2) (r : Fin 125) (cc : Fin 16000) :
    (V m c main_v41 : S2x125x16000.Idx → EReal) (ix3 p r cc)
      = (m ((c : Thread nD τ).loc main_arg0) : S1000000x3.Idx → EReal)
          (ix2 (Cert.Spec.node (m ((c : Thread nD τ).loc main_arg1) : S4000000x2.Idx → BitVec 32) 1 (flat p r cc)) 0) := by
  dsimp only [V, V0]
  simp only [List.flatten_cons, List.flatten_nil, List.append_nil]
  after_results_simp
  exact nodeCol_apply _ rfl rfl rfl rfl rfl rfl rfl _ _ 0 1 0 1 rfl rfl _ _ _ _ _ _ _ p r cc

set_option maxHeartbeats 4000000 in
/-- Element (p, r, cc): column 1 of the node array at the node of end 1 of edge p * 2000000 + r * 16000 + cc. -/
theorem v49_apply (c : Dev nD) (p : Fin 2) (r : Fin 125) (cc : Fin 16000) :
    (V m c main_v49 : S2x125x16000.Idx → EReal) (ix3 p r cc)
      = (m ((c : Thread nD τ).loc main_arg0) : S1000000x3.Idx → EReal)
          (ix2 (Cert.Spec.node (m ((c : Thread nD τ).loc main_arg1) : S4000000x2.Idx → BitVec 32) 1 (flat p r cc)) 1) := by
  dsimp only [V, V0]
  simp only [List.flatten_cons, List.flatten_nil, List.append_nil]
  after_results_simp
  exact nodeCol_apply _ rfl rfl rfl rfl rfl rfl rfl _ _ 1 1 1 1 rfl rfl _ _ _ _ _ _ _ p r cc

set_option maxHeartbeats 4000000 in
/-- Element (p, r, cc): column 2 of the node array at the node of end 1 of edge p * 2000000 + r * 16000 + cc. -/
theorem v57_apply (c : Dev nD) (p : Fin 2) (r : Fin 125) (cc : Fin 16000) :
    (V m c main_v57 : S2x125x16000.Idx → EReal) (ix3 p r cc)
      = (m ((c : Thread nD τ).loc main_arg0) : S1000000x3.Idx → EReal)
          (ix2 (Cert.Spec.node (m ((c : Thread nD τ).loc main_arg1) : S4000000x2.Idx → BitVec 32) 1 (flat p r cc)) 2) := by
  dsimp only [V, V0]
  simp only [List.flatten_cons, List.flatten_nil, List.append_nil]
  after_results_simp
  exact nodeCol_apply _ rfl rfl rfl rfl rfl rfl rfl _ _ 2 1 2 1 rfl rfl _ _ _ _ _ _ _ p r cc

set_option maxHeartbeats 4000000 in
/-- Element (p, r, cc): column 0 of the direction array at edge p * 2000000 + r * 16000 + cc. -/
theorem v60_apply (c : Dev nD) (p : Fin 2) (r : Fin 125) (cc : Fin 16000) :
    (V m c main_v60 : S2x125x16000.Idx → EReal) (ix3 p r cc)
      = (m ((c : Thread nD τ).loc main_arg6) : S4000000x3.Idx → EReal) (ix2 (flat p r cc) 0) := by
  dsimp only [V, V0]
  simp only [List.flatten_cons, List.flatten_nil, List.append_nil]
  after_results_simp
  exact dirCol_apply _ 0 0 rfl _ _ _ p r cc

set_option maxHeartbeats 4000000 in
/-- Element (p, r, cc): column 2 of the direction array at edge p * 2000000 + r * 16000 + cc. -/
theorem v63_apply (c : Dev nD) (p : Fin 2) (r : Fin 125) (cc : Fin 16000) :
    (V m c main_v63 : S2x125x16000.Idx → EReal) (ix3 p r cc)
      = (m ((c : Thread nD τ).loc main_arg6) : S4000000x3.Idx → EReal) (ix2 (flat p r cc) 2) := by
  dsimp only [V, V0]
  simp only [List.flatten_cons, List.flatten_nil, List.append_nil]
  after_results_simp
  exact dirCol_apply _ 2 2 rfl _ _ _ p r cc

set_option maxHeartbeats 4000000 in
/-- Element (p, r, cc): entry p * 2000000 + r * 16000 + cc of argument 2. -/
theorem v64_apply (c : Dev nD) (p : Fin 2) (r : Fin 125) (cc : Fin 16000) :
    (V m c main_v64 : S2x125x16000.Idx → EReal) (ix3 p r cc)
      = (m ((c : Thread nD τ).loc main_arg2) : S4000000.Idx → EReal) (ix1 (flat p r cc)) := by
  dsimp only [V, V0]
  simp only [List.flatten_cons, List.flatten_nil, List.append_nil]
  after_results_simp
  exact reshape3_apply _ _ p r cc _ rfl

set_option maxHeartbeats 4000000 in
/-- Element (p, r, cc): entry p * 2000000 + r * 16000 + cc of argument 3. -/
theorem v65_apply (c : Dev nD) (p : Fin 2) (r : Fin 125) (cc : Fin 16000) :
    (V m c main_v65 : S2x125x16000.Idx → EReal) (ix3 p r cc)
      = (m ((c : Thread nD τ).loc main_arg3) : S4000000.Idx → EReal) (ix1 (flat p r cc)) := by
  dsimp only [V, V0]
  simp only [List.flatten_cons, List.flatten_nil, List.append_nil]
  after_results_simp
  exact reshape3_apply _ _ p r cc _ rfl

set_option maxHeartbeats 4000000 in
/-- Element (p, r, cc): entry p * 2000000 + r * 16000 + cc of argument 4. -/
theorem v66_apply (c : Dev nD) (p : Fin 2) (r : Fin 125) (cc : Fin 16000) :
    (V m c main_v66 : S2x125x16000.Idx → EReal) (ix3 p r cc)
      = (m ((c : Thread nD τ).loc main_arg4) : S4000000.Idx → EReal) (ix1 (flat p r cc)) := by
  dsimp only [V, V0]
  simp only [List.flatten_cons, List.flatten_nil, List.append_nil]
  after_results_simp
  exact reshape3_apply _ _ p r cc _ rfl

set_option maxHeartbeats 4000000 in
/-- Element (p, r, cc): entry p * 2000000 + r * 16000 + cc of argument 5. -/
theorem v67_apply (c : Dev nD) (p : Fin 2) (r : Fin 125) (cc : Fin 16000) :
    (V m c main_v67 : S2x125x16000.Idx → EReal) (ix3 p r cc)
      = (m ((c : Thread nD τ).loc main_arg5) : S4000000.Idx → EReal) (ix1 (flat p r cc)) := by
  dsimp only [V, V0]
  simp only [List.flatten_cons, List.flatten_nil, List.append_nil]
  after_results_simp
  exact reshape3_apply _ _ p r cc _ rfl

set_option maxHeartbeats 4000000 in
/-- The one element: the one entry of argument 8. -/
theorem v68_apply (c : Dev nD) :
    (V m c main_v68 : S1x1.Idx → EReal) (ix2 (0 : Fin 1) (0 : Fin 1))
      = (m ((c : Thread nD τ).loc main_arg8) : S1.Idx → EReal) (ix1 (0 : Fin 1)) := by
  dsimp only [V, V0]
  simp only [List.flatten_cons, List.flatten_nil, List.append_nil]
  after_results_simp
  exact scalar_apply _ _

set_option maxHeartbeats 4000000 in
/-- The one element: the one entry of argument 9. -/
theorem v69_apply (c : Dev nD) :
    (V m c main_v69 : S1x1.Idx → EReal) (ix2 (0 : Fin 1) (0 : Fin 1))
      = (m ((c : Thread nD τ).loc main_arg9) : S1.Idx → EReal) (ix1 (0 : Fin 1)) := by
  dsimp only [V, V0]
  simp only [List.flatten_cons, List.flatten_nil, List.append_nil]
  after_results_simp
  exact scalar_apply _ _

end Arrays

/-! ## B. The windows' blocks at a grid point -/

section BlocksAt
variable (m : (ℓ : Loc nD τ sig) → Buf (Elt Ideal) ℓ)

/-- The row half p of grid point t = p * 25 + j. -/
abbrev tP (t : Fin cfg0.N) : Fin 2 := ⟨t.val / 25, by have := t.isLt; have : cfg0.N = 50 := Gen.N_0; omega⟩
/-- Column j * 640 + l of the row: tile j of grid point t = p * 25 + j, column l of the tile. -/
abbrev tC (t : Fin cfg0.N) (l : Fin 640) : Fin 16000 :=
  ⟨t.val % 25 * 640 + l.val, by have := l.isLt; omega⟩

/-- Window 0's index map over the 50 grid points: block (t / 25, 0, t % 25). -/
theorem idx0 : ∀ t : Fin grid0.N, win0_0.index t (0 : Fin 3) = t.val / 25 ∧ win0_0.index t 1 = 0 ∧ win0_0.index t 2 = t.val % 25 := by
  decide +kernel

/-- Window 0's block at t read off any contents A of its array: element (0, r, l) of the block is element
    (t / 25, r, t % 25 * 640 + l) of A. -/
theorem blk_read_0 (A : (⟨S2x125x16000, .f32⟩ : BufTy).Contents (Elt Ideal)) (t : Fin cfg0.N) (r : Fin 125) (l : Fin 640) :
    (((cfg0.win 0).blk t).view.read (Elt Ideal) A : S1x125x640.Idx → EReal) (ix3 (0 : Fin 1) r l)
      = (A : S2x125x16000.Idx → EReal) (ix3 (tP t) r (tC t l)) := by
  obtain ⟨h0, h1, h2⟩ := idx0 t
  rw [View.read_apply]
  show (A : S2x125x16000.Idx → EReal) _ = (A : S2x125x16000.Idx → EReal) _
  congr 1
  funext a
  apply Fin.ext
  match a with
  | ⟨0, _⟩ => show win0_0.index t 0 * 1 + 1 * 0 = t.val / 25; rw [h0]; omega
  | ⟨1, _⟩ => show win0_0.index t 1 * 125 + 1 * r.val = r.val; rw [h1]; omega
  | ⟨2, _⟩ => show win0_0.index t 2 * 640 + 1 * l.val = t.val % 25 * 640 + l.val; rw [h2]; omega

/-- Element (0, r, l) of window 0's block at t is element (t / 25, r, t % 25 * 640 + l) of its array. -/
theorem iblk_0 (c : Dev nD) (t : Fin cfg0.N) (r : Fin 125) (l : Fin 640) :
    (iblk m c 0 t : S1x125x640.Idx → EReal) (ix3 (0 : Fin 1) r l)
      = (V m c main_v17 : S2x125x16000.Idx → EReal) (ix3 (tP t) r (tC t l)) := by
  unfold iblk
  exact blk_read_0 (V m c main_v17) t r l

/-- Window 1's index map over the 50 grid points: block (t / 25, 0, t % 25). -/
theorem idx1 : ∀ t : Fin grid0.N, win0_1.index t (0 : Fin 3) = t.val / 25 ∧ win0_1.index t 1 = 0 ∧ win0_1.index t 2 = t.val % 25 := by
  decide +kernel

/-- Window 1's block at t read off any contents A of its array: element (0, r, l) of the block is element
    (t / 25, r, t % 25 * 640 + l) of A. -/
theorem blk_read_1 (A : (⟨S2x125x16000, .f32⟩ : BufTy).Contents (Elt Ideal)) (t : Fin cfg0.N) (r : Fin 125) (l : Fin 640) :
    (((cfg0.win 1).blk t).view.read (Elt Ideal) A : S1x125x640.Idx → EReal) (ix3 (0 : Fin 1) r l)
      = (A : S2x125x16000.Idx → EReal) (ix3 (tP t) r (tC t l)) := by
  obtain ⟨h0, h1, h2⟩ := idx1 t
  rw [View.read_apply]
  show (A : S2x125x16000.Idx → EReal) _ = (A : S2x125x16000.Idx → EReal) _
  congr 1
  funext a
  apply Fin.ext
  match a with
  | ⟨0, _⟩ => show win0_1.index t 0 * 1 + 1 * 0 = t.val / 25; rw [h0]; omega
  | ⟨1, _⟩ => show win0_1.index t 1 * 125 + 1 * r.val = r.val; rw [h1]; omega
  | ⟨2, _⟩ => show win0_1.index t 2 * 640 + 1 * l.val = t.val % 25 * 640 + l.val; rw [h2]; omega

/-- Element (0, r, l) of window 1's block at t is element (t / 25, r, t % 25 * 640 + l) of its array. -/
theorem iblk_1 (c : Dev nD) (t : Fin cfg0.N) (r : Fin 125) (l : Fin 640) :
    (iblk m c 1 t : S1x125x640.Idx → EReal) (ix3 (0 : Fin 1) r l)
      = (V m c main_v25 : S2x125x16000.Idx → EReal) (ix3 (tP t) r (tC t l)) := by
  unfold iblk
  exact blk_read_1 (V m c main_v25) t r l

/-- Window 2's index map over the 50 grid points: block (t / 25, 0, t % 25). -/
theorem idx2 : ∀ t : Fin grid0.N, win0_2.index t (0 : Fin 3) = t.val / 25 ∧ win0_2.index t 1 = 0 ∧ win0_2.index t 2 = t.val % 25 := by
  decide +kernel

/-- Window 2's block at t read off any contents A of its array: element (0, r, l) of the block is element
    (t / 25, r, t % 25 * 640 + l) of A. -/
theorem blk_read_2 (A : (⟨S2x125x16000, .f32⟩ : BufTy).Contents (Elt Ideal)) (t : Fin cfg0.N) (r : Fin 125) (l : Fin 640) :
    (((cfg0.win 2).blk t).view.read (Elt Ideal) A : S1x125x640.Idx → EReal) (ix3 (0 : Fin 1) r l)
      = (A : S2x125x16000.Idx → EReal) (ix3 (tP t) r (tC t l)) := by
  obtain ⟨h0, h1, h2⟩ := idx2 t
  rw [View.read_apply]
  show (A : S2x125x16000.Idx → EReal) _ = (A : S2x125x16000.Idx → EReal) _
  congr 1
  funext a
  apply Fin.ext
  match a with
  | ⟨0, _⟩ => show win0_2.index t 0 * 1 + 1 * 0 = t.val / 25; rw [h0]; omega
  | ⟨1, _⟩ => show win0_2.index t 1 * 125 + 1 * r.val = r.val; rw [h1]; omega
  | ⟨2, _⟩ => show win0_2.index t 2 * 640 + 1 * l.val = t.val % 25 * 640 + l.val; rw [h2]; omega

/-- Element (0, r, l) of window 2's block at t is element (t / 25, r, t % 25 * 640 + l) of its array. -/
theorem iblk_2 (c : Dev nD) (t : Fin cfg0.N) (r : Fin 125) (l : Fin 640) :
    (iblk m c 2 t : S1x125x640.Idx → EReal) (ix3 (0 : Fin 1) r l)
      = (V m c main_v33 : S2x125x16000.Idx → EReal) (ix3 (tP t) r (tC t l)) := by
  unfold iblk
  exact blk_read_2 (V m c main_v33) t r l

/-- Window 3's index map over the 50 grid points: block (t / 25, 0, t % 25). -/
theorem idx3 : ∀ t : Fin grid0.N, win0_3.index t (0 : Fin 3) = t.val / 25 ∧ win0_3.index t 1 = 0 ∧ win0_3.index t 2 = t.val % 25 := by
  decide +kernel

/-- Window 3's block at t read off any contents A of its array: element (0, r, l) of the block is element
    (t / 25, r, t % 25 * 640 + l) of A. -/
theorem blk_read_3 (A : (⟨S2x125x16000, .f32⟩ : BufTy).Contents (Elt Ideal)) (t : Fin cfg0.N) (r : Fin 125) (l : Fin 640) :
    (((cfg0.win 3).blk t).view.read (Elt Ideal) A : S1x125x640.Idx → EReal) (ix3 (0 : Fin 1) r l)
      = (A : S2x125x16000.Idx → EReal) (ix3 (tP t) r (tC t l)) := by
  obtain ⟨h0, h1, h2⟩ := idx3 t
  rw [View.read_apply]
  show (A : S2x125x16000.Idx → EReal) _ = (A : S2x125x16000.Idx → EReal) _
  congr 1
  funext a
  apply Fin.ext
  match a with
  | ⟨0, _⟩ => show win0_3.index t 0 * 1 + 1 * 0 = t.val / 25; rw [h0]; omega
  | ⟨1, _⟩ => show win0_3.index t 1 * 125 + 1 * r.val = r.val; rw [h1]; omega
  | ⟨2, _⟩ => show win0_3.index t 2 * 640 + 1 * l.val = t.val % 25 * 640 + l.val; rw [h2]; omega

/-- Element (0, r, l) of window 3's block at t is element (t / 25, r, t % 25 * 640 + l) of its array. -/
theorem iblk_3 (c : Dev nD) (t : Fin cfg0.N) (r : Fin 125) (l : Fin 640) :
    (iblk m c 3 t : S1x125x640.Idx → EReal) (ix3 (0 : Fin 1) r l)
      = (V m c main_v41 : S2x125x16000.Idx → EReal) (ix3 (tP t) r (tC t l)) := by
  unfold iblk
  exact blk_read_3 (V m c main_v41) t r l

/-- Window 4's index map over the 50 grid points: block (t / 25, 0, t % 25). -/
theorem idx4 : ∀ t : Fin grid0.N, win0_4.index t (0 : Fin 3) = t.val / 25 ∧ win0_4.index t 1 = 0 ∧ win0_4.index t 2 = t.val % 25 := by
  decide +kernel

/-- Window 4's block at t read off any contents A of its array: element (0, r, l) of the block is element
    (t / 25, r, t % 25 * 640 + l) of A. -/
theorem blk_read_4 (A : (⟨S2x125x16000, .f32⟩ : BufTy).Contents (Elt Ideal)) (t : Fin cfg0.N) (r : Fin 125) (l : Fin 640) :
    (((cfg0.win 4).blk t).view.read (Elt Ideal) A : S1x125x640.Idx → EReal) (ix3 (0 : Fin 1) r l)
      = (A : S2x125x16000.Idx → EReal) (ix3 (tP t) r (tC t l)) := by
  obtain ⟨h0, h1, h2⟩ := idx4 t
  rw [View.read_apply]
  show (A : S2x125x16000.Idx → EReal) _ = (A : S2x125x16000.Idx → EReal) _
  congr 1
  funext a
  apply Fin.ext
  match a with
  | ⟨0, _⟩ => show win0_4.index t 0 * 1 + 1 * 0 = t.val / 25; rw [h0]; omega
  | ⟨1, _⟩ => show win0_4.index t 1 * 125 + 1 * r.val = r.val; rw [h1]; omega
  | ⟨2, _⟩ => show win0_4.index t 2 * 640 + 1 * l.val = t.val % 25 * 640 + l.val; rw [h2]; omega

/-- Element (0, r, l) of window 4's block at t is element (t / 25, r, t % 25 * 640 + l) of its array. -/
theorem iblk_4 (c : Dev nD) (t : Fin cfg0.N) (r : Fin 125) (l : Fin 640) :
    (iblk m c 4 t : S1x125x640.Idx → EReal) (ix3 (0 : Fin 1) r l)
      = (V m c main_v49 : S2x125x16000.Idx → EReal) (ix3 (tP t) r (tC t l)) := by
  unfold iblk
  exact blk_read_4 (V m c main_v49) t r l

/-- Window 5's index map over the 50 grid points: block (t / 25, 0, t % 25). -/
theorem idx5 : ∀ t : Fin grid0.N, win0_5.index t (0 : Fin 3) = t.val / 25 ∧ win0_5.index t 1 = 0 ∧ win0_5.index t 2 = t.val % 25 := by
  decide +kernel

/-- Window 5's block at t read off any contents A of its array: element (0, r, l) of the block is element
    (t / 25, r, t % 25 * 640 + l) of A. -/
theorem blk_read_5 (A : (⟨S2x125x16000, .f32⟩ : BufTy).Contents (Elt Ideal)) (t : Fin cfg0.N) (r : Fin 125) (l : Fin 640) :
    (((cfg0.win 5).blk t).view.read (Elt Ideal) A : S1x125x640.Idx → EReal) (ix3 (0 : Fin 1) r l)
      = (A : S2x125x16000.Idx → EReal) (ix3 (tP t) r (tC t l)) := by
  obtain ⟨h0, h1, h2⟩ := idx5 t
  rw [View.read_apply]
  show (A : S2x125x16000.Idx → EReal) _ = (A : S2x125x16000.Idx → EReal) _
  congr 1
  funext a
  apply Fin.ext
  match a with
  | ⟨0, _⟩ => show win0_5.index t 0 * 1 + 1 * 0 = t.val / 25; rw [h0]; omega
  | ⟨1, _⟩ => show win0_5.index t 1 * 125 + 1 * r.val = r.val; rw [h1]; omega
  | ⟨2, _⟩ => show win0_5.index t 2 * 640 + 1 * l.val = t.val % 25 * 640 + l.val; rw [h2]; omega

/-- Element (0, r, l) of window 5's block at t is element (t / 25, r, t % 25 * 640 + l) of its array. -/
theorem iblk_5 (c : Dev nD) (t : Fin cfg0.N) (r : Fin 125) (l : Fin 640) :
    (iblk m c 5 t : S1x125x640.Idx → EReal) (ix3 (0 : Fin 1) r l)
      = (V m c main_v57 : S2x125x16000.Idx → EReal) (ix3 (tP t) r (tC t l)) := by
  unfold iblk
  exact blk_read_5 (V m c main_v57) t r l

/-- Window 6's index map over the 50 grid points: block (t / 25, 0, t % 25). -/
theorem idx6 : ∀ t : Fin grid0.N, win0_6.index t (0 : Fin 3) = t.val / 25 ∧ win0_6.index t 1 = 0 ∧ win0_6.index t 2 = t.val % 25 := by
  decide +kernel

/-- Window 6's block at t read off any contents A of its array: element (0, r, l) of the block is element
    (t / 25, r, t % 25 * 640 + l) of A. -/
theorem blk_read_6 (A : (⟨S2x125x16000, .f32⟩ : BufTy).Contents (Elt Ideal)) (t : Fin cfg0.N) (r : Fin 125) (l : Fin 640) :
    (((cfg0.win 6).blk t).view.read (Elt Ideal) A : S1x125x640.Idx → EReal) (ix3 (0 : Fin 1) r l)
      = (A : S2x125x16000.Idx → EReal) (ix3 (tP t) r (tC t l)) := by
  obtain ⟨h0, h1, h2⟩ := idx6 t
  rw [View.read_apply]
  show (A : S2x125x16000.Idx → EReal) _ = (A : S2x125x16000.Idx → EReal) _
  congr 1
  funext a
  apply Fin.ext
  match a with
  | ⟨0, _⟩ => show win0_6.index t 0 * 1 + 1 * 0 = t.val / 25; rw [h0]; omega
  | ⟨1, _⟩ => show win0_6.index t 1 * 125 + 1 * r.val = r.val; rw [h1]; omega
  | ⟨2, _⟩ => show win0_6.index t 2 * 640 + 1 * l.val = t.val % 25 * 640 + l.val; rw [h2]; omega

/-- Element (0, r, l) of window 6's block at t is element (t / 25, r, t % 25 * 640 + l) of its array. -/
theorem iblk_6 (c : Dev nD) (t : Fin cfg0.N) (r : Fin 125) (l : Fin 640) :
    (iblk m c 6 t : S1x125x640.Idx → EReal) (ix3 (0 : Fin 1) r l)
      = (V m c main_v60 : S2x125x16000.Idx → EReal) (ix3 (tP t) r (tC t l)) := by
  unfold iblk
  exact blk_read_6 (V m c main_v60) t r l

/-- Window 7's index map over the 50 grid points: block (t / 25, 0, t % 25). -/
theorem idx7 : ∀ t : Fin grid0.N, win0_7.index t (0 : Fin 3) = t.val / 25 ∧ win0_7.index t 1 = 0 ∧ win0_7.index t 2 = t.val % 25 := by
  decide +kernel

/-- Window 7's block at t read off any contents A of its array: element (0, r, l) of the block is element
    (t / 25, r, t % 25 * 640 + l) of A. -/
theorem blk_read_7 (A : (⟨S2x125x16000, .f32⟩ : BufTy).Contents (Elt Ideal)) (t : Fin cfg0.N) (r : Fin 125) (l : Fin 640) :
    (((cfg0.win 7).blk t).view.read (Elt Ideal) A : S1x125x640.Idx → EReal) (ix3 (0 : Fin 1) r l)
      = (A : S2x125x16000.Idx → EReal) (ix3 (tP t) r (tC t l)) := by
  obtain ⟨h0, h1, h2⟩ := idx7 t
  rw [View.read_apply]
  show (A : S2x125x16000.Idx → EReal) _ = (A : S2x125x16000.Idx → EReal) _
  congr 1
  funext a
  apply Fin.ext
  match a with
  | ⟨0, _⟩ => show win0_7.index t 0 * 1 + 1 * 0 = t.val / 25; rw [h0]; omega
  | ⟨1, _⟩ => show win0_7.index t 1 * 125 + 1 * r.val = r.val; rw [h1]; omega
  | ⟨2, _⟩ => show win0_7.index t 2 * 640 + 1 * l.val = t.val % 25 * 640 + l.val; rw [h2]; omega

/-- Element (0, r, l) of window 7's block at t is element (t / 25, r, t % 25 * 640 + l) of its array. -/
theorem iblk_7 (c : Dev nD) (t : Fin cfg0.N) (r : Fin 125) (l : Fin 640) :
    (iblk m c 7 t : S1x125x640.Idx → EReal) (ix3 (0 : Fin 1) r l)
      = (V m c main_v63 : S2x125x16000.Idx → EReal) (ix3 (tP t) r (tC t l)) := by
  unfold iblk
  exact blk_read_7 (V m c main_v63) t r l

/-- Window 8's index map over the 50 grid points: block (t / 25, 0, t % 25). -/
theorem idx8 : ∀ t : Fin grid0.N, win0_8.index t (0 : Fin 3) = t.val / 25 ∧ win0_8.index t 1 = 0 ∧ win0_8.index t 2 = t.val % 25 := by
  decide +kernel

/-- Window 8's block at t read off any contents A of its array: element (0, r, l) of the block is element
    (t / 25, r, t % 25 * 640 + l) of A. -/
theorem blk_read_8 (A : (⟨S2x125x16000, .f32⟩ : BufTy).Contents (Elt Ideal)) (t : Fin cfg0.N) (r : Fin 125) (l : Fin 640) :
    (((cfg0.win 8).blk t).view.read (Elt Ideal) A : S1x125x640.Idx → EReal) (ix3 (0 : Fin 1) r l)
      = (A : S2x125x16000.Idx → EReal) (ix3 (tP t) r (tC t l)) := by
  obtain ⟨h0, h1, h2⟩ := idx8 t
  rw [View.read_apply]
  show (A : S2x125x16000.Idx → EReal) _ = (A : S2x125x16000.Idx → EReal) _
  congr 1
  funext a
  apply Fin.ext
  match a with
  | ⟨0, _⟩ => show win0_8.index t 0 * 1 + 1 * 0 = t.val / 25; rw [h0]; omega
  | ⟨1, _⟩ => show win0_8.index t 1 * 125 + 1 * r.val = r.val; rw [h1]; omega
  | ⟨2, _⟩ => show win0_8.index t 2 * 640 + 1 * l.val = t.val % 25 * 640 + l.val; rw [h2]; omega

/-- Element (0, r, l) of window 8's block at t is element (t / 25, r, t % 25 * 640 + l) of its array. -/
theorem iblk_8 (c : Dev nD) (t : Fin cfg0.N) (r : Fin 125) (l : Fin 640) :
    (iblk m c 8 t : S1x125x640.Idx → EReal) (ix3 (0 : Fin 1) r l)
      = (V m c main_v64 : S2x125x16000.Idx → EReal) (ix3 (tP t) r (tC t l)) := by
  unfold iblk
  exact blk_read_8 (V m c main_v64) t r l

/-- Window 9's index map over the 50 grid points: block (t / 25, 0, t % 25). -/
theorem idx9 : ∀ t : Fin grid0.N, win0_9.index t (0 : Fin 3) = t.val / 25 ∧ win0_9.index t 1 = 0 ∧ win0_9.index t 2 = t.val % 25 := by
  decide +kernel

/-- Window 9's block at t read off any contents A of its array: element (0, r, l) of the block is element
    (t / 25, r, t % 25 * 640 + l) of A. -/
theorem blk_read_9 (A : (⟨S2x125x16000, .f32⟩ : BufTy).Contents (Elt Ideal)) (t : Fin cfg0.N) (r : Fin 125) (l : Fin 640) :
    (((cfg0.win 9).blk t).view.read (Elt Ideal) A : S1x125x640.Idx → EReal) (ix3 (0 : Fin 1) r l)
      = (A : S2x125x16000.Idx → EReal) (ix3 (tP t) r (tC t l)) := by
  obtain ⟨h0, h1, h2⟩ := idx9 t
  rw [View.read_apply]
  show (A : S2x125x16000.Idx → EReal) _ = (A : S2x125x16000.Idx → EReal) _
  congr 1
  funext a
  apply Fin.ext
  match a with
  | ⟨0, _⟩ => show win0_9.index t 0 * 1 + 1 * 0 = t.val / 25; rw [h0]; omega
  | ⟨1, _⟩ => show win0_9.index t 1 * 125 + 1 * r.val = r.val; rw [h1]; omega
  | ⟨2, _⟩ => show win0_9.index t 2 * 640 + 1 * l.val = t.val % 25 * 640 + l.val; rw [h2]; omega

/-- Element (0, r, l) of window 9's block at t is element (t / 25, r, t % 25 * 640 + l) of its array. -/
theorem iblk_9 (c : Dev nD) (t : Fin cfg0.N) (r : Fin 125) (l : Fin 640) :
    (iblk m c 9 t : S1x125x640.Idx → EReal) (ix3 (0 : Fin 1) r l)
      = (V m c main_v65 : S2x125x16000.Idx → EReal) (ix3 (tP t) r (tC t l)) := by
  unfold iblk
  exact blk_read_9 (V m c main_v65) t r l

/-- Window 10's index map over the 50 grid points: block (t / 25, 0, t % 25). -/
theorem idx10 : ∀ t : Fin grid0.N, win0_10.index t (0 : Fin 3) = t.val / 25 ∧ win0_10.index t 1 = 0 ∧ win0_10.index t 2 = t.val % 25 := by
  decide +kernel

/-- Window 10's block at t read off any contents A of its array: element (0, r, l) of the block is element
    (t / 25, r, t % 25 * 640 + l) of A. -/
theorem blk_read_10 (A : (⟨S2x125x16000, .f32⟩ : BufTy).Contents (Elt Ideal)) (t : Fin cfg0.N) (r : Fin 125) (l : Fin 640) :
    (((cfg0.win 10).blk t).view.read (Elt Ideal) A : S1x125x640.Idx → EReal) (ix3 (0 : Fin 1) r l)
      = (A : S2x125x16000.Idx → EReal) (ix3 (tP t) r (tC t l)) := by
  obtain ⟨h0, h1, h2⟩ := idx10 t
  rw [View.read_apply]
  show (A : S2x125x16000.Idx → EReal) _ = (A : S2x125x16000.Idx → EReal) _
  congr 1
  funext a
  apply Fin.ext
  match a with
  | ⟨0, _⟩ => show win0_10.index t 0 * 1 + 1 * 0 = t.val / 25; rw [h0]; omega
  | ⟨1, _⟩ => show win0_10.index t 1 * 125 + 1 * r.val = r.val; rw [h1]; omega
  | ⟨2, _⟩ => show win0_10.index t 2 * 640 + 1 * l.val = t.val % 25 * 640 + l.val; rw [h2]; omega

/-- Element (0, r, l) of window 10's block at t is element (t / 25, r, t % 25 * 640 + l) of its array. -/
theorem iblk_10 (c : Dev nD) (t : Fin cfg0.N) (r : Fin 125) (l : Fin 640) :
    (iblk m c 10 t : S1x125x640.Idx → EReal) (ix3 (0 : Fin 1) r l)
      = (V m c main_v66 : S2x125x16000.Idx → EReal) (ix3 (tP t) r (tC t l)) := by
  unfold iblk
  exact blk_read_10 (V m c main_v66) t r l

/-- Window 11's index map over the 50 grid points: block (t / 25, 0, t % 25). -/
theorem idx11 : ∀ t : Fin grid0.N, win0_11.index t (0 : Fin 3) = t.val / 25 ∧ win0_11.index t 1 = 0 ∧ win0_11.index t 2 = t.val % 25 := by
  decide +kernel

/-- Window 11's block at t read off any contents A of its array: element (0, r, l) of the block is element
    (t / 25, r, t % 25 * 640 + l) of A. -/
theorem blk_read_11 (A : (⟨S2x125x16000, .f32⟩ : BufTy).Contents (Elt Ideal)) (t : Fin cfg0.N) (r : Fin 125) (l : Fin 640) :
    (((cfg0.win 11).blk t).view.read (Elt Ideal) A : S1x125x640.Idx → EReal) (ix3 (0 : Fin 1) r l)
      = (A : S2x125x16000.Idx → EReal) (ix3 (tP t) r (tC t l)) := by
  obtain ⟨h0, h1, h2⟩ := idx11 t
  rw [View.read_apply]
  show (A : S2x125x16000.Idx → EReal) _ = (A : S2x125x16000.Idx → EReal) _
  congr 1
  funext a
  apply Fin.ext
  match a with
  | ⟨0, _⟩ => show win0_11.index t 0 * 1 + 1 * 0 = t.val / 25; rw [h0]; omega
  | ⟨1, _⟩ => show win0_11.index t 1 * 125 + 1 * r.val = r.val; rw [h1]; omega
  | ⟨2, _⟩ => show win0_11.index t 2 * 640 + 1 * l.val = t.val % 25 * 640 + l.val; rw [h2]; omega

/-- Element (0, r, l) of window 11's block at t is element (t / 25, r, t % 25 * 640 + l) of its array. -/
theorem iblk_11 (c : Dev nD) (t : Fin cfg0.N) (r : Fin 125) (l : Fin 640) :
    (iblk m c 11 t : S1x125x640.Idx → EReal) (ix3 (0 : Fin 1) r l)
      = (V m c main_v67 : S2x125x16000.Idx → EReal) (ix3 (tP t) r (tC t l)) := by
  unfold iblk
  exact blk_read_11 (V m c main_v67) t r l

/-- Window 12's index map over the 50 grid points: block (0, 0). -/
theorem idx12 : ∀ t : Fin grid0.N, win0_12.index t (0 : Fin 2) = 0 ∧ win0_12.index t 1 = 0 := by
  decide +kernel

/-- Window 12's block at any point read off any contents A of its array: the one element. -/
theorem blk_read_12 (A : (⟨S1x1, .f32⟩ : BufTy).Contents (Elt Ideal)) (t : Fin cfg0.N) :
    (((cfg0.win 12).blk t).view.read (Elt Ideal) A : S1x1.Idx → EReal) (ix2 (0 : Fin 1) (0 : Fin 1))
      = (A : S1x1.Idx → EReal) (ix2 (0 : Fin 1) (0 : Fin 1)) := by
  obtain ⟨h0, h1⟩ := idx12 t
  rw [View.read_apply]
  show (A : S1x1.Idx → EReal) _ = (A : S1x1.Idx → EReal) _
  congr 1
  funext a
  apply Fin.ext
  match a with
  | ⟨0, _⟩ => show win0_12.index t 0 * 1 + 1 * 0 = 0; rw [h0]
  | ⟨1, _⟩ => show win0_12.index t 1 * 1 + 1 * 0 = 0; rw [h1]

/-- Window 12's block at any point is the whole one-element array. -/
theorem iblk_12 (c : Dev nD) (t : Fin cfg0.N) :
    (iblk m c 12 t : S1x1.Idx → EReal) (ix2 (0 : Fin 1) (0 : Fin 1))
      = (V m c main_v68 : S1x1.Idx → EReal) (ix2 (0 : Fin 1) (0 : Fin 1)) := by
  unfold iblk
  exact blk_read_12 (V m c main_v68) t

/-- Window 13's index map over the 50 grid points: block (0, 0). -/
theorem idx13 : ∀ t : Fin grid0.N, win0_13.index t (0 : Fin 2) = 0 ∧ win0_13.index t 1 = 0 := by
  decide +kernel

/-- Window 13's block at any point read off any contents A of its array: the one element. -/
theorem blk_read_13 (A : (⟨S1x1, .f32⟩ : BufTy).Contents (Elt Ideal)) (t : Fin cfg0.N) :
    (((cfg0.win 13).blk t).view.read (Elt Ideal) A : S1x1.Idx → EReal) (ix2 (0 : Fin 1) (0 : Fin 1))
      = (A : S1x1.Idx → EReal) (ix2 (0 : Fin 1) (0 : Fin 1)) := by
  obtain ⟨h0, h1⟩ := idx13 t
  rw [View.read_apply]
  show (A : S1x1.Idx → EReal) _ = (A : S1x1.Idx → EReal) _
  congr 1
  funext a
  apply Fin.ext
  match a with
  | ⟨0, _⟩ => show win0_13.index t 0 * 1 + 1 * 0 = 0; rw [h0]
  | ⟨1, _⟩ => show win0_13.index t 1 * 1 + 1 * 0 = 0; rw [h1]

/-- Window 13's block at any point is the whole one-element array. -/
theorem iblk_13 (c : Dev nD) (t : Fin cfg0.N) :
    (iblk m c 13 t : S1x1.Idx → EReal) (ix2 (0 : Fin 1) (0 : Fin 1))
      = (V m c main_v69 : S1x1.Idx → EReal) (ix2 (0 : Fin 1) (0 : Fin 1)) := by
  unfold iblk
  exact blk_read_13 (V m c main_v69) t

end BlocksAt

end Cert.KernelIdeal.Blocks

end
-- ==== Proof.LibWholeStores.lean ====
/-
  Loads after stores of a WHOLE buffer.

  A kernel body that keeps an accumulator in one buffer stores and loads that buffer whole, several times in a row.
  The contents after a list of stores are read back store by store, the last store first; when the last store
  already covers the buffer the earlier ones do not matter.  The library states this for a single store; here it is
  for any number of them.
-/
import Idealize.ShloMosaic.Lib.Pipeline.Value

noncomputable section

namespace Cert.LibWholeStores

open Idealize.ShloMosaic

/-- A load of the whole buffer (the rectangle of the buffer's own sizes at zero offsets, however the zeros are
    spelt) after several stores of the whole buffer reads the LAST store's payload `w`, whatever the earlier stores
    `L` wrote (the list holds the stores last first, as the executor records them).  For `L = []` this is the
    library's `View.readCov_unit_zero`. -/
theorem readCov_last_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

end Cert.LibWholeStores

end
-- ==== Proof.KI.CaseValue.lean ====
/- What the body leaves in the running total's buffer and in the output block, case by case.

   At every grid point the body forms the block's energy sum and adds it to the running total held in a
   whole [8, 128] buffer: at a row's first tile the total restarts from the zero block, elsewhere it
   continues from what the tile before left; at a row's last tile the new total is also copied, with a
   leading unit axis, into the output block. Each store and load here is of a whole buffer, so what a
   case leaves is the payload of its last store, with every load read as the contents loaded. -/
import proofs.«111899_j63788854280708_2_alg».proof.Proof.KI.Frame
import proofs.«111899_j63788854280708_2_alg».proof.Proof.LibWholeStores
import Idealize.ShloMosaic.Lib.Pipeline.Value
import Idealize.ShloMosaic.Lib.Tactic

set_option maxRecDepth 16384

noncomputable section

namespace Cert.KernelIdeal.OutValue

open Cert.KernelIdeal Cert.KernelIdeal.Gen Cert.KernelIdeal.Fr
open Idealize.ShloMosaic Idealize.ShloMosaic.TcCoe Idealize.ShloMosaic.Tactic Idealize.SL.Sem

variable {F : FTy → Type} [FloatOps F]

/-- Offsets that are all zero, at rank two and at rank three. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The new running total: the previous total xs plus the block's energy sum, as the body forms it from the
    twelve per-edge blocks x0 … x11 and the two scale factors x12, x13. -/
abbrev PAY (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) : FVec F S8x128 .f32 :=
  k0_pay21 (k0_pay7 x13 x2) (k0_pay10 x13 x5) (k0_pay14 x8) (k0_pay15 x8) (k0_pay16 x9 x11)
    (k0_pay17 (k0_pay5 x12 x0) (k0_pay6 x12 x1) x6 x7) (k0_pay18 (k0_pay8 x12 x3) (k0_pay9 x12 x4) x6 x7)
    (k0_pay19 (k0_pay5 x12 x0) (k0_pay6 x12 x1) (k0_pay8 x12 x3) (k0_pay9 x12 x4) x6 x7 x8 x9 x10)
    (k0_pay20 (k0_pay5 x12 x0) (k0_pay6 x12 x1) (k0_pay8 x12 x3) (k0_pay9 x12 x4) x6 x7) xs

/-- A row's first tile: the total restarts from the zero block. -/
theorem sLeftFirst_eq (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) :
    sLeftFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 = PAY x0 x1 x2 x3 x4 x5 x6 x7 x8 x9 x10 x11 x12 x13 k0_pay2 := by
  unfold sLeftFirst
  rw [View.read_writes_eq_canon _ _ _ (scoverFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13)]
  unfold runFirst
  dsimp only
  sl_unfold_words
  rw [View.canon_cons_unit_zero (S := S8x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x128) hz2, View.ld_unit_zero (S := S1x125x640) hz3, View.ld_unit_zero (S := S1x1) hz2,
    View.ld_unit_zero (S := S1x8x128) hz3, View.readCov_unit_zero (S := S8x128) _ hz2]

/-- A middle tile: the total continues from xs. -/
theorem sLeftMid_eq (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : ¬condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) :
    sLeftMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs = PAY x0 x1 x2 x3 x4 x5 x6 x7 x8 x9 x10 x11 x12 x13 xs := by
  unfold sLeftMid
  rw [View.read_writes_eq_canon _ _ _ (scoverMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs)]
  unfold runMid
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x128) hz2, View.ld_unit_zero (S := S1x125x640) hz3, View.ld_unit_zero (S := S1x1) hz2,
    View.ld_unit_zero (S := S1x8x128) hz3, View.readCov_unit_zero (S := S8x128) _ hz2]

/-- A row's last tile: the total continues from xs, -/
theorem sLeftLast_eq (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) :
    sLeftLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs = PAY x0 x1 x2 x3 x4 x5 x6 x7 x8 x9 x10 x11 x12 x13 xs := by
  unfold sLeftLast
  rw [View.read_writes_eq_canon _ _ _ (scoverLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs)]
  unfold runLast
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x128) hz2, View.ld_unit_zero (S := S1x125x640) hz3, View.ld_unit_zero (S := S1x1) hz2,
    View.ld_unit_zero (S := S1x8x128) hz3, View.readCov_unit_zero (S := S8x128) _ hz2]

/-- and the output block receives that total with a leading unit axis. -/
theorem oLeftLast_eq (c : Dev nD) (i : grid0.Coords) (arg2 : Memref sig .tc .vmem S1x125x640 .f32) (harg2 : arg2.IsWhole) (arg3 : Memref sig .tc .vmem S1x125x640 .f32) (harg3 : arg3.IsWhole) (arg4 : Memref sig .tc .vmem S1x125x640 .f32) (harg4 : arg4.IsWhole) (arg5 : Memref sig .tc .vmem S1x125x640 .f32) (harg5 : arg5.IsWhole) (arg6 : Memref sig .tc .vmem S1x125x640 .f32) (harg6 : arg6.IsWhole) (arg7 : Memref sig .tc .vmem S1x125x640 .f32) (harg7 : arg7.IsWhole) (arg8 : Memref sig .tc .vmem S1x125x640 .f32) (harg8 : arg8.IsWhole) (arg9 : Memref sig .tc .vmem S1x125x640 .f32) (harg9 : arg9.IsWhole) (arg10 : Memref sig .tc .vmem S1x125x640 .f32) (harg10 : arg10.IsWhole) (arg11 : Memref sig .tc .vmem S1x125x640 .f32) (harg11 : arg11.IsWhole) (arg12 : Memref sig .tc .vmem S1x125x640 .f32) (harg12 : arg12.IsWhole) (arg13 : Memref sig .tc .vmem S1x125x640 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x8x128 .f32) (harg16 : arg16.IsWhole) (arg17 : Memref sig .tc .vmem S8x128 .f32) (harg17 : arg17.IsWhole) (hc0 : ¬condFirst i) (hc1 : condLast i)
    (x0 : Vec F S1x125x640 .f32) (x1 : Vec F S1x125x640 .f32) (x2 : Vec F S1x125x640 .f32) (x3 : Vec F S1x125x640 .f32) (x4 : Vec F S1x125x640 .f32) (x5 : Vec F S1x125x640 .f32) (x6 : Vec F S1x125x640 .f32) (x7 : Vec F S1x125x640 .f32) (x8 : Vec F S1x125x640 .f32) (x9 : Vec F S1x125x640 .f32) (x10 : Vec F S1x125x640 .f32) (x11 : Vec F S1x125x640 .f32) (x12 : Vec F S1x1 .f32) (x13 : Vec F S1x1 .f32) (xs : Vec F S8x128 .f32) :
    oLeftLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs = k0_pay1 (PAY x0 x1 x2 x3 x4 x5 x6 x7 x8 x9 x10 x11 x12 x13 xs) := by
  unfold oLeftLast
  rw [View.read_writes_eq_canon _ _ _ (ocoverLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 x13 xs)]
  unfold runLast
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x128) hz2, View.ld_unit_zero (S := S1x125x640) hz3, View.ld_unit_zero (S := S1x1) hz2,
    View.ld_unit_zero (S := S1x8x128) hz3, View.readCov_unit_zero (S := S8x128) _ hz2]

end Cert.KernelIdeal.OutValue

end
-- ==== Proof.LibLayout.lean ====
/- Layout operations of "keepdims" column vectors and doubly unit-led blocks, read at an index built from explicit
   coordinates. Each lemma says which element of the operand an element of the result is. -/
import Idealize.ShloMosaic.Lib.Pipeline.Value
import Idealize.ShloMosaic.Lib.ValueIdx

noncomputable section

namespace Cert.LibLayout

open Idealize.ShloMosaic Idealize.ShloMosaic.ValueIdx

variable {α : Type}

/-- A [1, 1, a, b] block viewed as [a, b]: element (p, q) is element (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] value stored as a [1, 1, a, b] block: element (0, 0, p, q) is element (p, q). -/
theorem shapeCast_ab_11ab_apply {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp only [Nat.zero_mul, Nat.zero_add])

/-- A vector [a] viewed as a column [a, 1]: element (p, 0) is element p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    simp only [Nat.mul_one, Nat.add_zero])

/-- A column [a, 1] broadcast along its rows to [a, b]: element (p, q) is element (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) :=
  broadcastTo_apply x h _ _ (fun c => by
    match c with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl])

end Cert.LibLayout

end
-- ==== Proof.LibColSum.lean ====
/-
  A column sum read at an index, at the ideal values.

  A `vector.multi_reduction <add>` of an [a, b] array over its first axis, into a zero accumulator, is at column q the sum
  over the rows r of the entry (r, q): the reduced index with the row coordinate put back is (r, q).
-/
import Idealize.ShloMosaic.PureOps.Ideal.Laws
import Idealize.ShloMosaic.Lib.ValueIdx

noncomputable section

namespace Cert.LibColSum

open Idealize.ShloMosaic Idealize.ShloMosaic.ValueIdx

/-- The sum down the rows, at column q. The accumulator hypothesis is typed as the printed programs' proof of it is. -/
theorem colsum_apply {a b : Nat} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ r : Fin a, src (ix2 r q) := by
  refine (Ideal.multiReduction_add_single src 0x00000000#32 h hφ hacc (ix1 q)).trans ?_
  refine Finset.sum_congr rfl fun r _ => congrArg src ?_
  funext d
  apply Fin.ext
  match d with
  | ⟨0, _⟩ => rfl
  | ⟨1, _⟩ => rfl

end Cert.LibColSum

end
-- ==== Proof.BlockTotal.lean ====
/- One grid step's contribution to the running total, at the extended reals.

   The body forms, on a [125, 640] block of edges, each edge's energy from fourteen numbers (the two scale
   factors, broadcast from [1, 1] arrays, and twelve per-edge arrays stored as [1, 125, 640] blocks), sums
   the block along its rows and then down the resulting column, and adds that one number to every element of
   the previous [8, 128] accumulator. Element (a, b) of the result is therefore the previous element plus
   the double sum over the block of the per-edge energy `edgeK`. -/
import Mathlib
import Idealize.ShloMosaic.Lib.ValueIdx
import Idealize.ShloMosaic.Lib.Pipeline.Value
import Idealize.ShloMosaic.Lib.ValueLayout
import Idealize.ShloMosaic.PureOps.Ideal.Laws
import proofs.«111899_j63788854280708_2_alg».proof.Proof.Gen.KernelIdeal.Skeleton
import proofs.«111899_j63788854280708_2_alg».proof.Proof.EdgeLaw
import proofs.«111899_j63788854280708_2_alg».proof.Proof.LibLayout
import proofs.«111899_j63788854280708_2_alg».proof.Proof.LibColSum

noncomputable section

namespace Cert.KernelIdeal.BlockTotal

open Idealize.ShloMosaic Idealize.ShloMosaic.ValueIdx Cert.KernelIdeal Cert.KernelIdeal.Gen

/-! ### Reading the layout operations at an index -/

/-- A sum along the rows: a reduction of an [a, b] array over its second axis into a zero accumulator is, at row p,
    the sum over the columns l of the entry (p, l). -/
theorem rowsum_apply {a b : Nat} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ l : Fin b, src (ix2 p l) := by
  refine (Ideal.multiReduction_add_single src 0x00000000#32 h hφ hacc (ix1 p)).trans ?_
  refine Finset.sum_congr rfl fun l _ => congrArg src ?_
  funext d
  apply Fin.ext
  match d with
  | ⟨0, _⟩ => rfl
  | ⟨1, _⟩ => rfl

/-- The element of a [1, 1] array taken at position (0, 0). -/
theorem extract00 (v : Vec Ideal S1x1 .f32) (h : ∀ a, (![0, 0] : Fin 2 → Nat) a < S1x1.size a) :
    extractAt ![0, 0] v h = v (ix2 (0 : Fin 1) (0 : Fin 1)) := by
  unfold extractAt
  refine congrArg v ?_
  funext d
  apply Fin.ext
  match d with
  | ⟨0, _⟩ => rfl
  | ⟨1, _⟩ => rfl

/-- The block total added to an accumulator: element (a, b) of the result is the accumulator's element plus the sum
    over the whole [125, 640] block of the summand. -/
theorem tail_apply (src : FVec Ideal S125x640 .f32) (prev : Vec Ideal S8x128 .f32) (a : Fin 8) (b : Fin 128) :
    shapeCast S8x128 (addf (F := Ideal) (φ := .f32) prev (broadcastTo S8x128 (shapeCast S1x1 (shapeCast S1x1
      (multiReduction .add [0] S1 (shapeCast S125x1
        (multiReduction .add [1] S125 src 0x00000000#32 reduces_S125x640_S125 (.inl rfl) rfl) shapeCasts_S125_S125x1)
        0x00000000#32 reduces_S125x1_S1 (.inl rfl) rfl) shapeCasts_S1_S1x1) shapeCasts_S1x1_S1x1) broadcasts_S1x1_S8x128))
      shapeCasts_S8x128_S8x128 (ix2 a b)
      = prev (ix2 a b) + ∑ r : Fin 125, ∑ l : Fin 640, src (ix2 r l) := by
  refine (shapeCast_apply _ _ (ix2 a b) (ix2 a b) rfl).trans ?_
  rw [addf_apply]
  congr 1
  refine (broadcastTo_apply _ _ (ix2 a b) (ix2 (0 : Fin 1) (0 : Fin 1)) ?_).trans ?_
  · intro ax
    match ax with
    | ⟨0, _⟩ => rfl
    | ⟨1, _⟩ => rfl
  refine (shapeCast_apply _ _ (ix2 (0 : Fin 1) (0 : Fin 1)) (ix2 (0 : Fin 1) (0 : Fin 1)) rfl).trans ?_
  refine (Cert.LibLayout.shapeCast_a_a1_apply _ _ (0 : Fin 1)).trans ?_
  refine (Cert.LibColSum.colsum_apply _ _ _ _ (0 : Fin 1)).trans ?_
  refine Finset.sum_congr rfl fun r _ => ?_
  refine (Cert.LibLayout.shapeCast_a_a1_apply _ _ r).trans ?_
  exact rowsum_apply _ _ _ _ r

/-! ### The payloads at an index -/

section Payloads

variable (uc thc : Vec Ideal S1x1 .f32) (x y z w : Vec Ideal S1x125x640 .f32)
  (v10 v14 v22 v26 : FVec Ideal S125x640 .f32) (r : Fin 125) (l : Fin 640)

theorem scalar_ofBits (b : BitVec 32) : Scalar.ofBits (F := Ideal) .f32 b = Ideal.ofBits .f32 b := rfl

theorem pay3_eq : k0_pay3 (F := Ideal) uc = uc (ix2 (0 : Fin 1) (0 : Fin 1)) := extract00 uc _
theorem pay4_eq : k0_pay4 (F := Ideal) thc = thc (ix2 (0 : Fin 1) (0 : Fin 1)) := extract00 thc _

/-- A stored [1, 125, 640] block viewed as [125, 640]. -/
theorem cast_apply : shapeCast S125x640 x shapeCasts_S1x125x640_S125x640 (ix2 r l) = x (ix3 (0 : Fin 1) r l) :=
  shapeCast_1ab_ab_apply x _ r l

theorem pay5_apply : k0_pay5 (F := Ideal) uc x (ix2 r l) = x (ix3 (0 : Fin 1) r l) * uc (ix2 (0 : Fin 1) (0 : Fin 1)) := by
  unfold k0_pay5; rw [mulf_apply, cast_apply, broadcast_apply, pay3_eq]
theorem pay6_apply : k0_pay6 (F := Ideal) uc x (ix2 r l) = x (ix3 (0 : Fin 1) r l) * uc (ix2 (0 : Fin 1) (0 : Fin 1)) := by
  unfold k0_pay6; rw [mulf_apply, cast_apply, broadcast_apply, pay3_eq]
theorem pay7_apply : k0_pay7 (F := Ideal) thc x (ix2 r l) = x (ix3 (0 : Fin 1) r l) * thc (ix2 (0 : Fin 1) (0 : Fin 1)) := by
  unfold k0_pay7; rw [mulf_apply, cast_apply, broadcast_apply, pay4_eq]
theorem pay8_apply : k0_pay8 (F := Ideal) uc x (ix2 r l) = x (ix3 (0 : Fin 1) r l) * uc (ix2 (0 : Fin 1) (0 : Fin 1)) := by
  unfold k0_pay8; rw [mulf_apply, cast_apply, broadcast_apply, pay3_eq]
theorem pay9_apply : k0_pay9 (F := Ideal) uc x (ix2 r l) = x (ix3 (0 : Fin 1) r l) * uc (ix2 (0 : Fin 1) (0 : Fin 1)) := by
  unfold k0_pay9; rw [mulf_apply, cast_apply, broadcast_apply, pay3_eq]
theorem pay10_apply : k0_pay10 (F := Ideal) thc x (ix2 r l) = x (ix3 (0 : Fin 1) r l) * thc (ix2 (0 : Fin 1) (0 : Fin 1)) := by
  unfold k0_pay10; rw [mulf_apply, cast_apply, broadcast_apply, pay4_eq]
theorem pay11_apply : k0_pay11 (F := Ideal) x (ix2 r l) = x (ix3 (0 : Fin 1) r l) := cast_apply x r l
theorem pay12_apply : k0_pay12 (F := Ideal) x (ix2 r l) = x (ix3 (0 : Fin 1) r l) := cast_apply x r l
theorem pay13_apply : k0_pay13 (F := Ideal) x (ix2 r l) = x (ix3 (0 : Fin 1) r l) := cast_apply x r l

theorem pay14_apply : k0_pay14 (F := Ideal) x (ix2 r l)
    = Ideal.div (Ideal.ofBits .f32 0x3F800000#32) (x (ix3 (0 : Fin 1) r l)) := by
  unfold k0_pay14; rw [divf_apply, broadcast_apply, cast_apply, scalar_ofBits]
theorem pay15_apply : k0_pay15 (F := Ideal) x (ix2 r l)
    = Ideal.div (Ideal.ofBits .f32 0x3F800000#32) (x (ix3 (0 : Fin 1) r l))
      * Ideal.div (Ideal.ofBits .f32 0x3F800000#32) (x (ix3 (0 : Fin 1) r l)) := by
  unfold k0_pay15; rw [mulf_apply, pay14_apply]
theorem pay16_apply : k0_pay16 (F := Ideal) x y (ix2 r l) = x (ix3 (0 : Fin 1) r l) * y (ix3 (0 : Fin 1) r l) := by
  unfold k0_pay16; rw [mulf_apply, pay13_apply, cast_apply]
/-- The transverse displacement of an end node: `(0 - s) * a + c * b`. -/
theorem pay17_apply : k0_pay17 (F := Ideal) v10 v14 x y (ix2 r l)
    = (Ideal.ofBits .f32 0x00000000#32 - y (ix3 (0 : Fin 1) r l)) * v10 (ix2 r l) + x (ix3 (0 : Fin 1) r l) * v14 (ix2 r l) := by
  unfold k0_pay17
  rw [addf_apply, mulf_apply, mulf_apply, subf_apply, broadcast_apply, pay12_apply, pay11_apply, scalar_ofBits]
theorem pay18_apply : k0_pay18 (F := Ideal) v22 v26 x y (ix2 r l)
    = (Ideal.ofBits .f32 0x00000000#32 - y (ix3 (0 : Fin 1) r l)) * v22 (ix2 r l) + x (ix3 (0 : Fin 1) r l) * v26 (ix2 r l) := by
  unfold k0_pay18
  rw [addf_apply, mulf_apply, mulf_apply, subf_apply, broadcast_apply, pay12_apply, pay11_apply, scalar_ofBits]
/-- The axial term: `(((0.5 * (E * A)) * (1 / L)) * du) * du` with `du` the difference of the axial displacements. -/
theorem pay19_apply (x8 x9 x10 : Vec Ideal S1x125x640 .f32) :
    k0_pay19 (F := Ideal) v10 v14 v22 v26 x y x8 x9 x10 (ix2 r l)
    = (((Ideal.ofBits .f32 0x3F000000#32 * (x9 (ix3 (0 : Fin 1) r l) * x10 (ix3 (0 : Fin 1) r l)))
          * Ideal.div (Ideal.ofBits .f32 0x3F800000#32) (x8 (ix3 (0 : Fin 1) r l)))
        * ((x (ix3 (0 : Fin 1) r l) * v22 (ix2 r l) + y (ix3 (0 : Fin 1) r l) * v26 (ix2 r l))
            - (x (ix3 (0 : Fin 1) r l) * v10 (ix2 r l) + y (ix3 (0 : Fin 1) r l) * v14 (ix2 r l))))
      * ((x (ix3 (0 : Fin 1) r l) * v22 (ix2 r l) + y (ix3 (0 : Fin 1) r l) * v26 (ix2 r l))
            - (x (ix3 (0 : Fin 1) r l) * v10 (ix2 r l) + y (ix3 (0 : Fin 1) r l) * v14 (ix2 r l))) := by
  unfold k0_pay19
  simp only [mulf_apply, addf_apply, subf_apply, broadcast_apply, cast_apply, pay11_apply, pay12_apply, pay13_apply,
    pay14_apply, scalar_ofBits]
  rw [cast_apply]
theorem pay20_apply : k0_pay20 (F := Ideal) v10 v14 v22 v26 x y (ix2 r l)
    = k0_pay18 (F := Ideal) v22 v26 x y (ix2 r l) - k0_pay17 (F := Ideal) v10 v14 x y (ix2 r l) := by
  unfold k0_pay20; rw [subf_apply]

end Payloads

/-! ### The block total -/

/-- Element (a, b) of the new accumulator: the old one plus the sum over the block of each edge's energy. -/
theorem block_total (uc thc : Vec Ideal S1x1 .f32) (x0 x1 x2 x3 x4 x5 x6 x7 x8 x9 x10 x11 : Vec Ideal S1x125x640 .f32)
    (prev : Vec Ideal S8x128 .f32) (a : Fin 8) (b : Fin 128) :
    k0_pay21 (F := Ideal) (k0_pay7 thc x2) (k0_pay10 thc x5) (k0_pay14 x8) (k0_pay15 x8) (k0_pay16 x9 x11)
        (k0_pay17 (k0_pay5 uc x0) (k0_pay6 uc x1) x6 x7) (k0_pay18 (k0_pay8 uc x3) (k0_pay9 uc x4) x6 x7)
        (k0_pay19 (k0_pay5 uc x0) (k0_pay6 uc x1) (k0_pay8 uc x3) (k0_pay9 uc x4) x6 x7 x8 x9 x10)
        (k0_pay20 (k0_pay5 uc x0) (k0_pay6 uc x1) (k0_pay8 uc x3) (k0_pay9 uc x4) x6 x7) prev (ix2 a b)
      = prev (ix2 a b) + ∑ r : Fin 125, ∑ l : Fin 640,
          Cert.Edge.edgeK (uc (ix2 0 0)) (thc (ix2 0 0)) (x0 (ix3 0 r l)) (x1 (ix3 0 r l)) (x2 (ix3 0 r l))
            (x3 (ix3 0 r l)) (x4 (ix3 0 r l)) (x5 (ix3 0 r l)) (x6 (ix3 0 r l)) (x7 (ix3 0 r l)) (x8 (ix3 0 r l))
            (x9 (ix3 0 r l)) (x10 (ix3 0 r l)) (x11 (ix3 0 r l)) := by
  refine (tail_apply _ prev a b).trans ?_
  congr 1
  refine Finset.sum_congr rfl fun r _ => Finset.sum_congr rfl fun l _ => ?_
  simp only [mulf_apply, addf_apply, subf_apply, broadcast_apply, scalar_ofBits, pay20_apply, pay19_apply, pay18_apply,
    pay17_apply, pay16_apply, pay15_apply, pay14_apply, pay10_apply, pay9_apply, pay8_apply, pay7_apply, pay6_apply,
    pay5_apply, Cert.Edge.edgeK]

end Cert.KernelIdeal.BlockTotal

end
-- ==== Proof.SumBlocks.lean ====
import Mathlib

/-!
# Regrouping a sum over 4,000,000 consecutive indices into tiled blocks

The index set `{0, …, 3999999}` is viewed as a row-major array of shape `[2, 125, 16000]`
(`e = p * 2000000 + r * 16000 + cc`), and the last axis is cut into 25 tiles of 640 columns
(`cc = j * 640 + l`).  In any additive commutative monoid the flat sum equals the sum taken
tile by tile.  The file also records the elementary fact that a sequence of partial sums
defined by a recurrence equals the corresponding finite sum.
-/

open Finset

namespace Cert.Sums

variable {M : Type*} [AddCommMonoid M]

/-- A sum over `m * n` consecutive naturals splits into `m` consecutive blocks of length `n`:
every `e < m * n` is uniquely `i * n + k` with `i < m`, `k < n`. -/
theorem sum_fin_mul (m n : ℕ) (f : ℕ → M) :
    ∑ e : Fin (m * n), f e.val = ∑ i : Fin m, ∑ k : Fin n, f (i.val * n + k.val) := by
  rw [← (finProdFinEquiv (m := m) (n := n)).sum_comp, Fintype.sum_prod_type]
  refine Finset.sum_congr rfl fun i _ => Finset.sum_congr rfl fun k _ => ?_
  have h : (finProdFinEquiv (i, k)).val = i.val * n + k.val := by
    simp only [finProdFinEquiv_apply_val]
    rw [Nat.mul_comm, Nat.add_comm]
  rw [h]

/-- The same splitting when the length is given as a number equal to `m * n`. -/
theorem sum_fin_of_eq_mul {N m n : ℕ} (h : N = m * n) (f : ℕ → M) :
    ∑ e : Fin N, f e.val = ∑ i : Fin m, ∑ k : Fin n, f (i.val * n + k.val) := by
  subst h
  exact sum_fin_mul m n f

/-- The tiled index stays below 4,000,000. -/
theorem idx_lt (p : Fin 2) (j : Fin 25) (r : Fin 125) (l : Fin 640) :
    p.val * 2000000 + r.val * 16000 + (j.val * 640 + l.val) < 4000000 := by
  have := p.isLt
  have := j.isLt
  have := r.isLt
  have := l.isLt
  omega

/-- Flat sum over 4,000,000 indices = sum over halves `p`, tiles `j`, rows `r`, tile columns `l`.
Three successive block splittings (4000000 = 2 * 2000000, 2000000 = 125 * 16000,
16000 = 25 * 640), followed by exchanging the row sum with the tile sum. -/
theorem sum_edges_blocks (f : ℕ → M) :
    ∑ e : Fin 4000000, f e.val
      = ∑ p : Fin 2, ∑ j : Fin 25, ∑ r : Fin 125, ∑ l : Fin 640,
          f (p.val * 2000000 + r.val * 16000 + (j.val * 640 + l.val)) := by
  refine (sum_fin_of_eq_mul (show 4000000 = 2 * 2000000 by norm_num) f).trans ?_
  refine Finset.sum_congr rfl fun p _ => ?_
  refine (sum_fin_of_eq_mul (show 2000000 = 125 * 16000 by norm_num)
    (fun q => f (p.val * 2000000 + q))).trans ?_
  refine Eq.trans ?_ (Finset.sum_comm (s := (Finset.univ : Finset (Fin 125)))
    (t := (Finset.univ : Finset (Fin 25)))
    (f := fun r j => ∑ l : Fin 640, f (p.val * 2000000 + r.val * 16000 + (j.val * 640 + l.val))))
  refine Finset.sum_congr rfl fun r _ => ?_
  refine (sum_fin_of_eq_mul (show 16000 = 25 * 640 by norm_num)
    (fun c => f (p.val * 2000000 + (r.val * 16000 + c)))).trans ?_
  refine Finset.sum_congr rfl fun j _ => Finset.sum_congr rfl fun l _ => ?_
  rw [Nat.add_assoc]

/-- The block regrouping for a function given on the index type itself. -/
theorem sum_edges_blocks' (g : Fin 4000000 → M) :
    ∑ e, g e
      = ∑ p : Fin 2, ∑ j : Fin 25, ∑ r : Fin 125, ∑ l : Fin 640,
          g ⟨p.val * 2000000 + r.val * 16000 + (j.val * 640 + l.val), idx_lt p j r l⟩ := by
  calc ∑ e, g e
      = ∑ e : Fin 4000000, (fun n => if h : n < 4000000 then g ⟨n, h⟩ else 0) e.val := by
        refine Finset.sum_congr rfl fun e _ => ?_
        show g e = if h : e.val < 4000000 then g ⟨e.val, h⟩ else 0
        rw [dif_pos e.isLt]
    _ = ∑ p : Fin 2, ∑ j : Fin 25, ∑ r : Fin 125, ∑ l : Fin 640,
          (fun n => if h : n < 4000000 then g ⟨n, h⟩ else 0)
            (p.val * 2000000 + r.val * 16000 + (j.val * 640 + l.val)) :=
        sum_edges_blocks (fun n => if h : n < 4000000 then g ⟨n, h⟩ else 0)
    _ = _ := by
        refine Finset.sum_congr rfl fun p _ => Finset.sum_congr rfl fun j _ =>
          Finset.sum_congr rfl fun r _ => Finset.sum_congr rfl fun l _ => ?_
        exact dif_pos (idx_lt p j r l)

/-- A sum over `range n` is the sum over `Fin n` of the values. -/
theorem sum_range_eq_sum_fin (n : ℕ) (a : ℕ → M) :
    ∑ i ∈ Finset.range n, a i = ∑ i : Fin n, a i.val :=
  Finset.sum_range a

/-- Partial sums given by a recurrence: if `S 0 = 0 + a 0` and `S (k+1) = S k + a (k+1)`
for the steps inside `[0, n)`, then `S k = a 0 + … + a k` for every `k < n`. -/
theorem running_total (n : ℕ) (a : ℕ → M) (S : ℕ → M) (h0 : S 0 = 0 + a 0)
    (hs : ∀ k, k + 1 < n → S (k + 1) = S k + a (k + 1)) :
    ∀ k, k < n → S k = ∑ i ∈ Finset.range (k + 1), a i := by
  intro k
  induction k with
  | zero =>
    intro _
    rw [h0, zero_add, Finset.sum_range_one]
  | succ k ih =>
    intro hk
    rw [hs k hk, ih (Nat.lt_of_succ_lt hk), Finset.sum_range_succ _ (k + 1)]

/-- The last partial sum of `m + 1` steps is the full sum over `Fin (m + 1)`. -/
theorem running_total_last (m : ℕ) (a : ℕ → M) (S : ℕ → M) (h0 : S 0 = 0 + a 0)
    (hs : ∀ k, k + 1 < m + 1 → S (k + 1) = S k + a (k + 1)) :
    S m = ∑ i : Fin (m + 1), a i.val := by
  rw [running_total (m + 1) a S h0 hs m (Nat.lt_succ_self m), sum_range_eq_sum_fin]

end Cert.Sums
-- ==== Proof.KI.OutValue.lean ====
/- The region's result array, at the extended reals.

   The grid has 50 points t = 25 p + j: p the row (two of them), j the column tile (25 per row). At each point
   the body adds the tile's energy sum to a running total that restarts at a row's first tile; at a row's last
   tile the total — by then the sum over the row's 25 tiles — is written, in every one of its [8, 128]
   elements, to block p of the [2, 8, 128] result. So element (p, a, b) of the result is the sum over the
   25 tiles of row p of the tile's energy sum. -/
import proofs.«111899_j63788854280708_2_alg».proof.Proof.KI.CaseValue
import proofs.«111899_j63788854280708_2_alg».proof.Proof.BlockTotal
import proofs.«111899_j63788854280708_2_alg».proof.Proof.SumBlocks
import Idealize.ShloMosaic.Lib.Pipeline.Value
import Idealize.ShloMosaic.Lib.ValueIdx
import Idealize.ShloMosaic.Lib.ValueLayout

set_option maxRecDepth 16384

noncomputable section

namespace Cert.KernelIdeal.OutValue

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ### The grid -/

theorem N_eq : cfg0.N = 50 := rfl

/-- Row p, tile k is a grid point. -/
theorem pt_lt (p : Fin 2) (k : ℕ) (hk : k < 25) : 25 * p.val + k < cfg0.N := by
  rw [N_eq]; have := p.isLt; omega

/-- What the body's arithmetic makes of the running total's buffer does not depend on how the position is written. -/
theorem accAt_congr (c : Dev nD) {n n' : ℕ} (e : n = n') (h : n < cfg0.N) (h' : n' < cfg0.N) :
    accAt m c n h = accAt m c n' h' := by
  subst e; rfl

/-! ### One tile -/

/-- The energy sum of the tile at point t: over the [125, 640] block of edges, each edge's energy from the point's
    blocks of the fourteen input windows. -/
def tileSum (c : Dev nD) (t : Fin cfg0.N) : EReal :=
  ∑ r : Fin 125, ∑ l : Fin 640, Cert.Edge.edgeK
      ((iblk m c 12 t : Vec Ideal S1x1 .f32) (ix2 0 0)) ((iblk m c 13 t : Vec Ideal S1x1 .f32) (ix2 0 0))
      ((iblk m c 0 t : Vec Ideal S1x125x640 .f32) (ix3 0 r l)) ((iblk m c 1 t : Vec Ideal S1x125x640 .f32) (ix3 0 r l)) ((iblk m c 2 t : Vec Ideal S1x125x640 .f32) (ix3 0 r l)) ((iblk m c 3 t : Vec Ideal S1x125x640 .f32) (ix3 0 r l)) ((iblk m c 4 t : Vec Ideal S1x125x640 .f32) (ix3 0 r l)) ((iblk m c 5 t : Vec Ideal S1x125x640 .f32) (ix3 0 r l)) ((iblk m c 6 t : Vec Ideal S1x125x640 .f32) (ix3 0 r l)) ((iblk m c 7 t : Vec Ideal S1x125x640 .f32) (ix3 0 r l)) ((iblk m c 8 t : Vec Ideal S1x125x640 .f32) (ix3 0 r l)) ((iblk m c 9 t : Vec Ideal S1x125x640 .f32) (ix3 0 r l)) ((iblk m c 10 t : Vec Ideal S1x125x640 .f32) (ix3 0 r l)) ((iblk m c 11 t : Vec Ideal S1x125x640 .f32) (ix3 0 r l))

/-- The zero block is zero everywhere. -/
theorem pay2_apply (a : Fin 8) (b : Fin 128) : k0_pay2 (F := Ideal) (ix2 a b) = 0 := by
  refine (congrFun (shapeCast_self (broadcast S8x128 (Scalar.ofBits (F := Ideal) .f32 0x00000000#32))
    shapeCasts_S8x128_S8x128) (ix2 a b)).trans ?_
  show Ideal.ofBits .f32 0x00000000#32 = 0
  exact Cert.Edge.zero_eq.trans EReal.coe_zero

/-- At a row's first tile the total is the tile's sum (added to zero). -/
theorem total_first (c : Dev nD) (t : Fin cfg0.N) (h0 : t.val % 25 = 0) (a : Fin 8) (b : Fin 128) :
    (accAt m c t.val t.isLt).2 (ix2 a b) = 0 + tileSum m c t := by
  have h1 : ¬t.val % 25 = 24 := by omega
  refine (congrFun (congrArg Prod.snd (accAt_First m c t h0 h1)) (ix2 a b)).trans ?_
  refine (congrFun (sLeftFirst_eq (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _)
    ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (ix2 a b)).trans ?_
  refine (Cert.KernelIdeal.BlockTotal.block_total (iblk m c 12 t) (iblk m c 13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (k0_pay2 (F := Ideal)) a b).trans ?_
  rw [pay2_apply]
  rfl

/-- At any other tile the total is the one the tile before left plus the tile's sum. -/
theorem total_next (c : Dev nD) (t : Fin cfg0.N) (h0 : ¬t.val % 25 = 0) (a : Fin 8) (b : Fin 128) :
    (accAt m c t.val t.isLt).2 (ix2 a b) = (accAt m c (t.val - 1) (Nat.lt_of_le_of_lt (Nat.sub_le _ _) t.isLt)).2 (ix2 a b) + tileSum m c t := by
  by_cases h1 : t.val % 25 = 24
  · refine (congrFun (congrArg Prod.snd (accAt_Last m c t h0 h1)) (ix2 a b)).trans ?_
    refine (congrFun (sLeftLast_eq (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _)
      (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      (accAt m c (t.val - 1) (Nat.lt_of_le_of_lt (Nat.sub_le _ _) t.isLt)).2) (ix2 a b)).trans ?_
    exact Cert.KernelIdeal.BlockTotal.block_total (iblk m c 12 t) (iblk m c 13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (accAt m c (t.val - 1) (Nat.lt_of_le_of_lt (Nat.sub_le _ _) t.isLt)).2 a b
  · refine (congrFun (congrArg Prod.snd (accAt_Mid m c t h0 h1)) (ix2 a b)).trans ?_
    refine (congrFun (sLeftMid_eq (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scM (Memref.isWhole_whole _)
      (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      (accAt m c (t.val - 1) (Nat.lt_of_le_of_lt (Nat.sub_le _ _) t.isLt)).2) (ix2 a b)).trans ?_
    exact Cert.KernelIdeal.BlockTotal.block_total (iblk m c 12 t) (iblk m c 13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (accAt m c (t.val - 1) (Nat.lt_of_le_of_lt (Nat.sub_le _ _) t.isLt)).2 a b

/-! ### A row's total -/

/-- After a row's last tile the running total is the sum of the row's 25 tile sums, in every element. -/
theorem acc_total (c : Dev nD) (p : Fin 2) (a : Fin 8) (b : Fin 128) :
    (accAt m c (25 * p.val + 24) (pt_lt p 24 (by norm_num))).2 (ix2 a b)
      = ∑ j : Fin 25, tileSum m c ⟨25 * p.val + j.val, pt_lt p j.val j.isLt⟩ := by
  have hp := p.isLt
  have key := Cert.Sums.running_total_last 24
    (fun k => if h : 25 * p.val + k < cfg0.N then tileSum m c ⟨25 * p.val + k, h⟩ else 0)
    (fun k => if h : 25 * p.val + k < cfg0.N then (accAt m c (25 * p.val + k) h).2 (ix2 a b) else 0)
    (by
      show (if h : 25 * p.val + 0 < cfg0.N then (accAt m c (25 * p.val + 0) h).2 (ix2 a b) else 0)
        = 0 + (if h : 25 * p.val + 0 < cfg0.N then tileSum m c ⟨25 * p.val + 0, h⟩ else 0)
      rw [dif_pos (pt_lt p 0 (by norm_num)), dif_pos (pt_lt p 0 (by norm_num))]
      exact total_first m c ⟨25 * p.val + 0, pt_lt p 0 (by norm_num)⟩ (by show (25 * p.val + 0) % 25 = 0; omega) a b)
    (by
      intro k hk
      have hk' : k + 1 < 25 := hk
      show (if h : 25 * p.val + (k + 1) < cfg0.N then (accAt m c (25 * p.val + (k + 1)) h).2 (ix2 a b) else 0)
        = (if h : 25 * p.val + k < cfg0.N then (accAt m c (25 * p.val + k) h).2 (ix2 a b) else 0)
          + (if h : 25 * p.val + (k + 1) < cfg0.N then tileSum m c ⟨25 * p.val + (k + 1), h⟩ else 0)
      rw [dif_pos (pt_lt p (k + 1) hk'), dif_pos (pt_lt p k (by omega)), dif_pos (pt_lt p (k + 1) hk')]
      refine (total_next m c ⟨25 * p.val + (k + 1), pt_lt p (k + 1) hk'⟩
        (by show ¬(25 * p.val + (k + 1)) % 25 = 0; omega) a b).trans ?_
      congr 2)
  have h24 : 25 * p.val + 24 < cfg0.N := pt_lt p 24 (by norm_num)
  have key' : (if h : 25 * p.val + 24 < cfg0.N then (accAt m c (25 * p.val + 24) h).2 (ix2 a b) else 0)
      = ∑ i : Fin 25, (if h : 25 * p.val + i.val < cfg0.N then tileSum m c ⟨25 * p.val + i.val, h⟩ else 0) := key
  rw [dif_pos h24] at key'
  refine key'.trans (Finset.sum_congr rfl fun j _ => ?_)
  rw [dif_pos (pt_lt p j.val j.isLt)]

/-! ### The result array -/

/-- Window 14's block index at point t: row t / 25, and no movement along the other two axes. -/
theorem idx_facts14 : ∀ t : Fin cfg0.N, win0_14.index t (0 : Fin 3) = t.val / 25
    ∧ win0_14.index t (1 : Fin 3) = 0 ∧ win0_14.index t (2 : Fin 3) = 0 :=
  (by decide +kernel : ∀ t : Fin grid0.N, _)

/-- The array the region leaves: element (p, a, b) is row p's total, the sum of its 25 tile sums. -/
def G (c : Dev nD) : S2x8x128.Idx → EReal :=
  fun i => ∑ j : Fin 25, tileSum m c ⟨25 * (i 0).val + j.val, pt_lt (i 0) j.val j.isLt⟩

theorem G_eq (c : Dev nD) (i : S2x8x128.Idx) (p : Fin 2) (hp : (i 0).val = p.val) :
    G m c i = ∑ j : Fin 25, tileSum m c ⟨25 * p.val + j.val, pt_lt p j.val j.isLt⟩ := by
  unfold G
  refine Finset.sum_congr rfl fun j _ => congrArg (tileSum m c) (Fin.ext ?_)
  show 25 * (i 0).val + j.val = 25 * p.val + j.val
  rw [hp]

/-- The running total after the last tile of the row that point t closes. -/
theorem acc_last (c : Dev nD) (t : Fin cfg0.N) (h1 : t.val % 25 = 24) (p : Fin 2) (hp : p.val = t.val / 25)
    (a : Fin 8) (b : Fin 128) :
    (accAt m c t.val t.isLt).2 (ix2 a b) = ∑ j : Fin 25, tileSum m c ⟨25 * p.val + j.val, pt_lt p j.val j.isLt⟩ := by
  have e : t.val = 25 * p.val + 24 := by omega
  rw [accAt_congr m c e t.isLt (pt_lt p 24 (by norm_num))]
  exact acc_total m c p a b

/-- At a row's last tile the output block is the running total with a leading unit axis. -/
theorem out_block (c : Dev nD) (t : Fin cfg0.N) (h0 : ¬t.val % 25 = 0) (h1 : t.val % 25 = 24) :
    (accAt m c t.val t.isLt).1 = k0_pay1 (F := Ideal) (accAt m c t.val t.isLt).2 := by
  rw [accAt_Last m c t h0 h1]
  dsimp only
  rw [oLeftLast_eq, sLeftLast_eq]

/-- What a row's last point writes back is its block of G. -/
theorem flushed14_eq (c : Dev nD) (t : Fin cfg0.N) (hf : (cfg0.win 14).flush t = true) :
    (dats m 0 c).flushed 14 t = ((cfg0.win 14).blk t).view.read (Elt Ideal) (G m c) := by
  have h1 : t.val % 25 = 24 := (flush0_14 t).mp hf
  have h0 : ¬t.val % 25 = 0 := by omega
  have hN : t.val < 50 := t.isLt
  obtain ⟨e0, e1, e2⟩ := idx_facts14 t
  show (cfg0.win 14).cut (grid0.coords t) ((dats m 0 c).after 14 t) = _
  rw [after14, out_block m c t h0 h1]
  funext j
  obtain ⟨a0, a1, a2, rfl⟩ : ∃ (a0 : Fin 1) (a1 : Fin 8) (a2 : Fin 128), j = ix3 a0 a1 a2 := ⟨j 0, j 1, j 2, eq_ix3 j⟩
  show shapeCast S1x8x128 (accAt m c t.val t.isLt).2 shapeCasts_S8x128_S1x8x128 (ix3 a0 a1 a2)
    = G m c (((cfg0.win 14).blk t).view.emb (ix3 a0 a1 a2))
  rw [shapeCast_ab_1ab_apply, acc_last m c t h1 ⟨t.val / 25, by omega⟩ rfl,
    G_eq m c _ ⟨t.val / 25, by omega⟩ ?_]
  show win0_14.index t (0 : Fin 3) * 1 + 1 * a0.val = t.val / 25
  have : a0.val < 1 := a0.isLt
  omega

/-- An index of the array is in point t's block iff each coordinate is in the block's range on its axis. -/
theorem mem_blk14 (t : Fin cfg0.N) (i : S2x8x128.Idx) :
    i ∈ ((cfg0.win 14).blk t).view.set ↔ ∀ a : Fin 3, win0_14.index t a * S1x8x128.size a ≤ (i a).val
      ∧ (i a).val < win0_14.index t a * S1x8x128.size a + S1x8x128.size a := by
  show i ∈ ((View.whole main_v70).slice (win0_14.rect t)).set ↔ _
  rw [View.set_slice_whole, Rect.mem_set_unit]
  exact Iff.rfl

/-- Every element (p, a, b) lies in the block that row p's last point writes back. -/
theorem cover14 (i : S2x8x128.Idx) :
    ∃ t : Fin cfg0.N, (cfg0.win 14).flush t = true ∧ i ∈ ((cfg0.win 14).blk t).view.set := by
  have hi0 : (i 0).val < 2 := (i 0).isLt
  have hi1 : (i 1).val < 8 := (i 1).isLt
  have hi2 : (i 2).val < 128 := (i 2).isLt
  obtain ⟨e0, e1, e2⟩ := idx_facts14 ⟨25 * (i 0).val + 24, pt_lt (i 0) 24 (by norm_num)⟩
  have e0' : win0_14.index ⟨25 * (i 0).val + 24, pt_lt (i 0) 24 (by norm_num)⟩ (0 : Fin 3) = (25 * (i 0).val + 24) / 25 := e0
  refine ⟨⟨25 * (i 0).val + 24, pt_lt (i 0) 24 (by norm_num)⟩,
    (flush0_14 _).mpr (by show (25 * (i 0).val + 24) % 25 = 24; omega), ?_⟩
  rw [mem_blk14]
  intro a
  match a with
  | ⟨0, _⟩ =>
    show win0_14.index ⟨25 * (i 0).val + 24, _⟩ (0 : Fin 3) * 1 ≤ (i 0).val
      ∧ (i 0).val < win0_14.index ⟨25 * (i 0).val + 24, _⟩ (0 : Fin 3) * 1 + 1
    omega
  | ⟨1, _⟩ =>
    show win0_14.index ⟨25 * (i 0).val + 24, _⟩ (1 : Fin 3) * 8 ≤ (i 1).val
      ∧ (i 1).val < win0_14.index ⟨25 * (i 0).val + 24, _⟩ (1 : Fin 3) * 8 + 8
    omega
  | ⟨2, _⟩ =>
    show win0_14.index ⟨25 * (i 0).val + 24, _⟩ (2 : Fin 3) * 128 ≤ (i 2).val
      ∧ (i 2).val < win0_14.index ⟨25 * (i 0).val + 24, _⟩ (2 : Fin 3) * 128 + 128
    omega

/-- THE RESULT ARRAY after the run: element (p, a, b) is the sum over row p's 25 tiles of the tile's energy sum. -/
theorem out_value (c : Dev nD) : (dats m 0 c).arrAt 14 cfg0.N = G m c :=
  (dats m 0 c).arrAt_eq_of_cover 14 (G m c) (fun t hf => flushed14_eq m c t hf) cover14

theorem out_value_apply (c : Dev nD) (p : Fin 2) (a : Fin 8) (b : Fin 128) :
    (dats m 0 c).arrAt 14 cfg0.N (ix3 p a b)
      = ∑ j : Fin 25, tileSum m c ⟨25 * p.val + j.val, pt_lt p j.val j.isLt⟩ := by
  rw [out_value]
  exact G_eq m c _ p rfl

end Cert.KernelIdeal.OutValue

end
-- ==== Proof.PreDecode.lean ====
import proofs.«111899_j63788854280708_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal

/-!
# Reading the finiteness precondition back as facts about the inputs

The precondition is a conjunction of ten tests "every element has absolute value below +∞"
(one per float argument) and one test "every element of the third argument differs from 0".
Over extended reals, `max x (-x) < ⊤` holds exactly when `x` is a real number, so the
precondition says that every float input is real-valued and that the third argument has no
zero entry.
-/

noncomputable section

namespace Cert.PreDecode

open Idealize.ShloMosaic Cert.Pre_finite_inputs

/-- The rank-0 shape has a single index. -/
instance : Subsingleton S_.Idx := ⟨fun _ _ => funext fun d => d.elim0⟩

/-- The pattern `0x7F800000` denotes +∞. -/
theorem inf_bits : Ideal.ofBits .f32 0x7F800000#32 = ⊤ := by simp [Ideal.ofBits, Ideal.ieee]

/-- An extended real whose absolute value `max x (-x)` is below +∞ is a real number:
for `x = ⊤` or `x = ⊥` the maximum is `⊤`, which is not below `⊤`. -/
theorem real_of_abs_lt_inf (x : EReal)
    (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

/-- An extended real that the comparison "not equal" separates from the pattern of zero is nonzero. -/
theorem ne_zero_of_une (x : EReal)
    (h : Ideal.cmp .une x (Ideal.ofBits .f32 0x00000000#32) = 1#1) : x ≠ 0 := by
  rw [Ideal.ofBits_zero_f32] at h
  intro hx
  simp [Ideal.cmp, hx] at h

/-- One element of the test `|x| < +∞` (the bound a broadcast scalar constant). -/
theorem finite_elem {s : Shape} (hb : S_.BroadcastsInDim s ![]) (x : FVec Ideal s .f32) (i : s.Idx)
    (h : cmpf .olt (Host.absf x) (broadcastInDim s ![] hb (constant S_ .f32 0x7F800000#32)) i = 1#1) :
    ∃ r : ℝ, x i = (r : EReal) := by
  apply real_of_abs_lt_inf
  have e : broadcastInDim s ![] hb (constant (F := Ideal) S_ .f32 0x7F800000#32) i
      = Ideal.ofBits .f32 0x7F800000#32 := by
    rw [ValueIdx.broadcastInDim_scalar_apply]; rfl
  rw [← e]
  exact h

/-- One element of the test `x ≠ 0` (the zero a broadcast scalar constant). -/
theorem ne_zero_elem {s : Shape} (hb : S_.BroadcastsInDim s ![]) (x : FVec Ideal s .f32) (i : s.Idx)
    (h : cmpf .une x (broadcastInDim s ![] hb (constant S_ .f32 0x00000000#32)) i = 1#1) :
    x i ≠ (0 : EReal) := by
  apply ne_zero_of_une
  have e : broadcastInDim s ![] hb (constant (F := Ideal) S_ .f32 0x00000000#32) i
      = Ideal.ofBits .f32 0x00000000#32 := by
    rw [ValueIdx.broadcastInDim_scalar_apply]; rfl
  rw [← e]
  exact h

/-- A conjunction of two `i1` arrays is 1 at an index only if both are. -/
theorem and_split {s : Shape} (x y : IVec s 1) (i : s.Idx) (h : andi x y i = 1#1) :
    x i = 1#1 ∧ y i = 1#1 :=
  IntOp.andi_eq_one.1 h

/-- The precondition, read back: every float input is real-valued and the third argument
has no zero entry. -/
theorem decode [Facts] (a0 : FVec Ideal S1000000x3 .f32) (a1 : IVec S4000000x2 32)
    (a2 a3 a4 a5 : FVec Ideal S4000000 .f32) (a6 : FVec Ideal S4000000x3 .f32)
    (a7 : FVec Ideal S1000000x3 .f32) (a8 a9 a10 : FVec Ideal S1 .f32)
    (h : Cert.Pre_finite_inputs.fn (F := Ideal) a0 a1 a2 a3 a4 a5 a6 a7 a8 a9 a10 = (fun _ => 1#1)) :
    (∀ i, ∃ r : ℝ, a0 i = (r : EReal)) ∧ (∀ i, ∃ r : ℝ, a2 i = (r : EReal))
      ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal))
      ∧ (∀ i, a2 i ≠ (0 : EReal)) := by
  have h0 := congrFun h ValueIdx.ix0
  dsimp only [fn, fn_part1, fn_part2, fn_part3] at h0
  obtain ⟨h0, hne⟩ := and_split _ _ _ h0
  obtain ⟨h0, h10⟩ := and_split _ _ _ h0
  obtain ⟨h0, h9⟩ := and_split _ _ _ h0
  obtain ⟨h0, h8⟩ := and_split _ _ _ h0
  obtain ⟨h0, h7⟩ := and_split _ _ _ h0
  obtain ⟨h0, h6⟩ := and_split _ _ _ h0
  obtain ⟨h0, h5⟩ := and_split _ _ _ h0
  obtain ⟨h0, h4⟩ := and_split _ _ _ h0
  obtain ⟨h0, h3⟩ := and_split _ _ _ h0
  obtain ⟨h0, h2⟩ := and_split _ _ _ h0
  refine ⟨fun i => ?_, fun i => ?_, fun i => ?_, fun i => ?_, fun i => ?_, fun i => ?_,
    fun i => ?_, fun i => ?_, fun i => ?_, fun i => ?_, fun i => ?_⟩
  · exact finite_elem _ a0 i (Host.reduce_andi_all _ _ _ _ _ h0 i)
  · exact finite_elem _ a2 i (Host.reduce_andi_all _ _ _ _ _ h2 i)
  · exact finite_elem _ a3 i (Host.reduce_andi_all _ _ _ _ _ h3 i)
  · exact finite_elem _ a4 i (Host.reduce_andi_all _ _ _ _ _ h4 i)
  · exact finite_elem _ a5 i (Host.reduce_andi_all _ _ _ _ _ h5 i)
  · exact finite_elem _ a6 i (Host.reduce_andi_all _ _ _ _ _ h6 i)
  · exact finite_elem _ a7 i (Host.reduce_andi_all _ _ _ _ _ h7 i)
  · exact finite_elem _ a8 i (Host.reduce_andi_all _ _ _ _ _ h8 i)
  · exact finite_elem _ a9 i (Host.reduce_andi_all _ _ _ _ _ h9 i)
  · exact finite_elem _ a10 i (Host.reduce_andi_all _ _ _ _ _ h10 i)
  · exact ne_zero_elem _ a2 i (Host.reduce_andi_all _ _ _ _ _ hne i)

end Cert.PreDecode

end
-- ==== Proof.Bridge.lean ====
/-
  The equivalence of the kernel and the reference at the extended reals.
  Both programs end by applying one and the same function (refTail) to a sum of per-edge energies: the reference
  to 0 plus the sum over all 4,000,000 edges of the energy formed with quotients by the length L, the kernel to
  0 plus the two row totals its region leaves, each the sum over the row's 25 column tiles of the tile's 125 x 640
  energies formed with one reciprocal 1 / L. Under the precondition (every float input real-valued, no length
  zero) the two per-edge formulas agree, and the sum over the edges may be regrouped by row, tile and position
  in the tile; so the two sums, and hence the two results, are equal.
-/
import proofs.«111899_j63788854280708_2_alg».proof.Defs
import proofs.«111899_j63788854280708_2_alg».proof.Proof.RefValue
import proofs.«111899_j63788854280708_2_alg».proof.Proof.KI.Tail
import proofs.«111899_j63788854280708_2_alg».proof.Proof.KI.Frame
import proofs.«111899_j63788854280708_2_alg».proof.Proof.KI.Blocks
import proofs.«111899_j63788854280708_2_alg».proof.Proof.KI.OutValue
import proofs.«111899_j63788854280708_2_alg».proof.Proof.SumBlocks
import proofs.«111899_j63788854280708_2_alg».proof.Proof.PreDecode
import proofs.«111899_j63788854280708_2_alg».proof.Proof.Spec

noncomputable section

namespace Cert.Bridge

open Idealize.ShloMosaic Idealize.ShloMosaic.ValueIdx Idealize.SL.Sem

/-! ### The two sums -/

/-- If entry (p, 0, 0) of an array OUT is the sum over the 25 column tiles j of row p of a tile total, and each
    tile total is the sum over the tile's 125 x 640 positions of the kernel's per-edge formula at the edge
    p · 2000000 + r · 16000 + (j · 640 + l), then on finite inputs with no zero length the two entries of OUT
    add up to the sum over all edges of the reference's per-edge formula. -/
theorem totals (pred : Cert.Spec.SN3.Idx → EReal) (conn : Cert.Spec.SE2.Idx → BitVec 32)
    (len pE pA pI : Cert.Spec.SE.Idx → EReal) (dir : Cert.Spec.SE3.Idx → EReal) (uc thc : Cert.Spec.SOne.Idx → EReal)
    (tile : Fin 2 → Fin 25 → EReal) (OUT : (⟨3, ![2, 8, 128]⟩ : Shape).Idx → EReal)
    (hOUT : ∀ p : Fin 2, OUT (ix3 p (0 : Fin 8) (0 : Fin 128)) = ∑ j : Fin 25, tile p j)
    (htile : ∀ (p : Fin 2) (j : Fin 25), tile p j = ∑ r : Fin 125, ∑ l : Fin 640,
      Cert.Spec.eK pred conn len pE pA pI dir uc thc
        ⟨p.val * 2000000 + r.val * 16000 + (j.val * 640 + l.val), Cert.Sums.idx_lt p j r l⟩)
    (hpred : ∀ i, ∃ r : ℝ, pred i = r) (hlen : ∀ i, ∃ r : ℝ, len i = r) (hpE : ∀ i, ∃ r : ℝ, pE i = r)
    (hpA : ∀ i, ∃ r : ℝ, pA i = r) (hpI : ∀ i, ∃ r : ℝ, pI i = r) (hdir : ∀ i, ∃ r : ℝ, dir i = r)
    (huc : ∀ i, ∃ r : ℝ, uc i = r) (hthc : ∀ i, ∃ r : ℝ, thc i = r) (hL : ∀ i, len i ≠ 0) :
    (0 : EReal) + ∑ p : Fin 2, OUT (ix3 p (0 : Fin 8) (0 : Fin 128))
      = 0 + ∑ e : Fin 4000000, Cert.Spec.eR pred conn len pE pA pI dir uc thc e := by
  refine congrArg (0 + ·) ?_
  calc ∑ p : Fin 2, OUT (ix3 p (0 : Fin 8) (0 : Fin 128))
      = ∑ p : Fin 2, ∑ j : Fin 25, ∑ r : Fin 125, ∑ l : Fin 640,
          Cert.Spec.eK pred conn len pE pA pI dir uc thc
            ⟨p.val * 2000000 + r.val * 16000 + (j.val * 640 + l.val), Cert.Sums.idx_lt p j r l⟩ :=
        Finset.sum_congr rfl fun p _ => (hOUT p).trans (Finset.sum_congr rfl fun j _ => htile p j)
    _ = ∑ e : Fin 4000000, Cert.Spec.eK pred conn len pE pA pI dir uc thc e :=
        (Cert.Sums.sum_edges_blocks' (fun e => Cert.Spec.eK pred conn len pE pA pI dir uc thc e)).symm
    _ = ∑ e : Fin 4000000, Cert.Spec.eR pred conn len pE pA pI dir uc thc e :=
        Finset.sum_congr rfl fun e _ =>
          Cert.Spec.eK_eq_eR pred conn len pE pA pI dir uc thc hpred hlen hpE hpA hpI hdir huc hthc hL e

/-- The kernel's sum and the reference's sum are the same scalar array. -/
theorem kU_eq (a0 : FVec Ideal Cert.ReferenceIdeal.S1000000x3 .f32) (a1 : IVec Cert.ReferenceIdeal.S4000000x2 32)
    (a2 a3 a4 a5 : FVec Ideal Cert.ReferenceIdeal.S4000000 .f32) (a6 : FVec Ideal Cert.ReferenceIdeal.S4000000x3 .f32)
    (a8 a9 : FVec Ideal Cert.ReferenceIdeal.S1 .f32) (OUT : FVec Ideal Cert.KernelIdeal.S2x8x128 .f32)
    (tile : Fin 2 → Fin 25 → EReal)
    (hOUT : ∀ p : Fin 2, OUT (ix3 p (0 : Fin 8) (0 : Fin 128)) = ∑ j : Fin 25, tile p j)
    (htile : ∀ (p : Fin 2) (j : Fin 25), tile p j = ∑ r : Fin 125, ∑ l : Fin 640,
      Cert.Spec.eK a0 a1 a2 a3 a4 a5 a6 a8 a9
        ⟨p.val * 2000000 + r.val * 16000 + (j.val * 640 + l.val), Cert.Sums.idx_lt p j r l⟩)
    (h0 : ∀ i, ∃ r : ℝ, a0 i = r) (h2 : ∀ i, ∃ r : ℝ, a2 i = r) (h3 : ∀ i, ∃ r : ℝ, a3 i = r)
    (h4 : ∀ i, ∃ r : ℝ, a4 i = r) (h5 : ∀ i, ∃ r : ℝ, a5 i = r) (h6 : ∀ i, ∃ r : ℝ, a6 i = r)
    (h8 : ∀ i, ∃ r : ℝ, a8 i = r) (h9 : ∀ i, ∃ r : ℝ, a9 i = r) (hL : ∀ i, a2 i ≠ 0) :
    Cert.KernelIdeal.Tail.kU OUT
      = Host.reduceAdd (F := Ideal) (Cert.ReferenceIdeal.Read.val_main_v102 (F := Ideal) a0 a1 a2 a3 a4 a5 a6 a8 a9)
          (constant (F := Ideal) Cert.ReferenceIdeal.S_ .f32 0x00000000#32)
          Cert.ReferenceIdeal.Gen.reducesTo_S4000000_S_d0 Cert.ReferenceIdeal.Gen.h_S_ := by
  funext i
  rw [eq_ix0 i, Cert.KernelIdeal.Tail.kU_apply, Cert.ReferenceIdeal.RefValue.total_apply]
  exact totals a0 a1 a2 a3 a4 a5 a6 a8 a9 tile OUT hOUT htile h0 h2 h3 h4 h5 h6 h8 h9 hL

/-- A tile's total, formed from the fourteen numbers the kernel's windows hold at each of its positions, is the
    sum over the positions of the per-edge formula of the specification, once each of those numbers is known to
    be the corresponding number of the edge p · 2000000 + r · 16000 + (j · 640 + l). -/
theorem tile_congr (pred : Cert.Spec.SN3.Idx → EReal) (conn : Cert.Spec.SE2.Idx → BitVec 32)
    (len pE pA pI : Cert.Spec.SE.Idx → EReal) (dir : Cert.Spec.SE3.Idx → EReal) (uc thc : Cert.Spec.SOne.Idx → EReal)
    (p : Fin 2) (j : Fin 25) (b12 b13 : EReal) (b0 b1 b2 b3 b4 b5 b6 b7 b8 b9 b10 b11 : Fin 125 → Fin 640 → EReal)
    (h12 : b12 = uc (ix1 (0 : Fin 1))) (h13 : b13 = thc (ix1 (0 : Fin 1)))
    (h0 : ∀ r l, b0 r l = pred (ix2 (Cert.Spec.node conn 0 ⟨p.val * 2000000 + r.val * 16000 + (j.val * 640 + l.val), Cert.Sums.idx_lt p j r l⟩) 0))
    (h1 : ∀ r l, b1 r l = pred (ix2 (Cert.Spec.node conn 0 ⟨p.val * 2000000 + r.val * 16000 + (j.val * 640 + l.val), Cert.Sums.idx_lt p j r l⟩) 1))
    (h2 : ∀ r l, b2 r l = pred (ix2 (Cert.Spec.node conn 0 ⟨p.val * 2000000 + r.val * 16000 + (j.val * 640 + l.val), Cert.Sums.idx_lt p j r l⟩) 2))
    (h3 : ∀ r l, b3 r l = pred (ix2 (Cert.Spec.node conn 1 ⟨p.val * 2000000 + r.val * 16000 + (j.val * 640 + l.val), Cert.Sums.idx_lt p j r l⟩) 0))
    (h4 : ∀ r l, b4 r l = pred (ix2 (Cert.Spec.node conn 1 ⟨p.val * 2000000 + r.val * 16000 + (j.val * 640 + l.val), Cert.Sums.idx_lt p j r l⟩) 1))
    (h5 : ∀ r l, b5 r l = pred (ix2 (Cert.Spec.node conn 1 ⟨p.val * 2000000 + r.val * 16000 + (j.val * 640 + l.val), Cert.Sums.idx_lt p j r l⟩) 2))
    (h6 : ∀ r l, b6 r l = dir (ix2 ⟨p.val * 2000000 + r.val * 16000 + (j.val * 640 + l.val), Cert.Sums.idx_lt p j r l⟩ 0))
    (h7 : ∀ r l, b7 r l = dir (ix2 ⟨p.val * 2000000 + r.val * 16000 + (j.val * 640 + l.val), Cert.Sums.idx_lt p j r l⟩ 2))
    (h8 : ∀ r l, b8 r l = len (ix1 ⟨p.val * 2000000 + r.val * 16000 + (j.val * 640 + l.val), Cert.Sums.idx_lt p j r l⟩))
    (h9 : ∀ r l, b9 r l = pE (ix1 ⟨p.val * 2000000 + r.val * 16000 + (j.val * 640 + l.val), Cert.Sums.idx_lt p j r l⟩))
    (h10 : ∀ r l, b10 r l = pA (ix1 ⟨p.val * 2000000 + r.val * 16000 + (j.val * 640 + l.val), Cert.Sums.idx_lt p j r l⟩))
    (h11 : ∀ r l, b11 r l = pI (ix1 ⟨p.val * 2000000 + r.val * 16000 + (j.val * 640 + l.val), Cert.Sums.idx_lt p j r l⟩)) :
    (∑ r : Fin 125, ∑ l : Fin 640, Cert.Edge.edgeK b12 b13 (b0 r l) (b1 r l) (b2 r l) (b3 r l) (b4 r l) (b5 r l)
        (b6 r l) (b7 r l) (b8 r l) (b9 r l) (b10 r l) (b11 r l))
      = ∑ r : Fin 125, ∑ l : Fin 640, Cert.Spec.eK pred conn len pE pA pI dir uc thc
          ⟨p.val * 2000000 + r.val * 16000 + (j.val * 640 + l.val), Cert.Sums.idx_lt p j r l⟩ := by
  refine Finset.sum_congr rfl fun r _ => Finset.sum_congr rfl fun l _ => ?_
  rw [h12, h13, h0, h1, h2, h3, h4, h5, h6, h7, h8, h9, h10, h11]
  rfl

/-- Tile 25 p + j of the grid lies in row p, at column tile j. -/
theorem tile_div (p : Fin 2) (j : Fin 25) : (25 * p.val + j.val) / 25 = p.val := by
  have := j.isLt
  omega

theorem tile_mod (p : Fin 2) (j : Fin 25) : (25 * p.val + j.val) % 25 = j.val := by
  have := j.isLt
  omega

/-! ### The two runs -/

set_option maxHeartbeats 4000000 in
/-- The claim, from a run of the kernel to the launch theorem's post for some proof data and from the reading of
    the region's result array as row totals of tile totals of the kernel's per-edge formula. -/
theorem algebraic_of
    (dats : (m : (ℓ : Loc Cert.KernelIdeal.nD Cert.KernelIdeal.τ Cert.KernelIdeal.sig) → Buf (Elt Ideal) ℓ) → (p : Fin 1) → (c : Dev Cert.KernelIdeal.nD) →
      Pipeline.Dat Cert.KernelIdeal.τ (Elt Ideal) Unit ℕ (UR Cert.KernelIdeal.sig Cert.KernelIdeal.nD Cert.KernelIdeal.τ) ℕ (Cert.KernelIdeal.cfgs p) c)
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (Pipeline.FramePost Cert.KernelIdeal.cfgs (dats m) 0
          (Pipeline.afterTail₀ Cert.KernelIdeal.cfgs (dats m) 0 (Cert.KernelIdeal.Fr.V0 m) [Cert.KernelIdeal.Gen.hostOps1])))
    (hsum : ∀ (m : (ℓ : Loc Cert.KernelIdeal.nD Cert.KernelIdeal.τ Cert.KernelIdeal.sig) → Buf (Elt Ideal) ℓ) (c : Dev Cert.KernelIdeal.nD),
      ∃ tile : Fin 2 → Fin 25 → EReal,
        (∀ p : Fin 2, ((dats m 0 c).arrAt 14 Cert.KernelIdeal.cfg0.N : FVec Ideal Cert.KernelIdeal.S2x8x128 .f32) (ix3 p (0 : Fin 8) (0 : Fin 128))
            = ∑ j : Fin 25, tile p j)
        ∧ ∀ (p : Fin 2) (j : Fin 25), tile p j = ∑ r : Fin 125, ∑ l : Fin 640,
            Cert.Spec.eK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
              ⟨p.val * 2000000 + r.val * 16000 + (j.val * 640 + l.val), Cert.Sums.idx_lt p j r l⟩) :
    Cert.algebraic_KernelIdeal_ReferenceIdeal := by
  intro m ρ m' ρ' hpre hagree
  refine ⟨fun c => Cert.ReferenceIdeal.RefValue.refTail
      (Cert.KernelIdeal.Tail.kU ((dats m 0 c).arrAt 14 Cert.KernelIdeal.cfg0.N)) (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun _ h c => ⟨?_,
      ((h c).2 Cert.KernelIdeal.main_arg0 (Pipeline.mem_restRefs_of Cert.KernelIdeal.main_arg0 (by decide) (by decide))).trans
        (Cert.KernelIdeal.Fr.W_main_arg0 m (dats m) c),
      ((h c).2 Cert.KernelIdeal.main_arg1 (Pipeline.mem_restRefs_of Cert.KernelIdeal.main_arg1 (by decide) (by decide))).trans
        (Cert.KernelIdeal.Fr.W_main_arg1 m (dats m) c),
      ((h c).2 Cert.KernelIdeal.main_arg2 (Pipeline.mem_restRefs_of Cert.KernelIdeal.main_arg2 (by decide) (by decide))).trans
        (Cert.KernelIdeal.Fr.W_main_arg2 m (dats m) c),
      ((h c).2 Cert.KernelIdeal.main_arg3 (Pipeline.mem_restRefs_of Cert.KernelIdeal.main_arg3 (by decide) (by decide))).trans
        (Cert.KernelIdeal.Fr.W_main_arg3 m (dats m) c),
      ((h c).2 Cert.KernelIdeal.main_arg4 (Pipeline.mem_restRefs_of Cert.KernelIdeal.main_arg4 (by decide) (by decide))).trans
        (Cert.KernelIdeal.Fr.W_main_arg4 m (dats m) c),
      ((h c).2 Cert.KernelIdeal.main_arg5 (Pipeline.mem_restRefs_of Cert.KernelIdeal.main_arg5 (by decide) (by decide))).trans
        (Cert.KernelIdeal.Fr.W_main_arg5 m (dats m) c),
      ((h c).2 Cert.KernelIdeal.main_arg6 (Pipeline.mem_restRefs_of Cert.KernelIdeal.main_arg6 (by decide) (by decide))).trans
        (Cert.KernelIdeal.Fr.W_main_arg6 m (dats m) c),
      ((h c).2 Cert.KernelIdeal.main_arg7 (Pipeline.mem_restRefs_of Cert.KernelIdeal.main_arg7 (by decide) (by decide))).trans
        (Cert.KernelIdeal.Fr.W_main_arg7 m (dats m) c),
      ((h c).2 Cert.KernelIdeal.main_arg8 (Pipeline.mem_restRefs_of Cert.KernelIdeal.main_arg8 (by decide) (by decide))).trans
        (Cert.KernelIdeal.Fr.W_main_arg8 m (dats m) c),
      ((h c).2 Cert.KernelIdeal.main_arg9 (Pipeline.mem_restRefs_of Cert.KernelIdeal.main_arg9 (by decide) (by decide))).trans
        (Cert.KernelIdeal.Fr.W_main_arg9 m (dats m) c),
      ((h c).2 Cert.KernelIdeal.main_arg10 (Pipeline.mem_restRefs_of Cert.KernelIdeal.main_arg10 (by decide) (by decide))).trans
        (Cert.KernelIdeal.Fr.W_main_arg10 m (dats m) c)⟩) (hrun m ρ)
    exact ((h c).2 Cert.KernelIdeal.main_v85 (Pipeline.mem_restRefs_of Cert.KernelIdeal.main_v85 (by decide) (by decide))).trans
      ((Cert.KernelIdeal.Tail.tail_value m (dats m) c).trans (Cert.KernelIdeal.Tail.kTail_eq_refTail _ _ _ _ _ _))
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.RefValue.result_run_eq, e0, e1, e2, e3, e4, e5, e6, e7, e8, e9, e10]
    obtain ⟨f0, f2, f3, f4, f5, f6, _, f8, f9, _, fL⟩ := Cert.PreDecode.decode _ _ _ _ _ _ _ _ _ _ _ (hpre c)
    obtain ⟨tile, hOUT, htile⟩ := hsum m c
    exact congrArg (fun U => Cert.ReferenceIdeal.RefValue.refTail U (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))
      (kU_eq _ _ _ _ _ _ _ _ _ _ tile hOUT htile f0 f2 f3 f4 f5 f6 f8 f9 fL).symm

/-- The same for the proof data and the run of the kernel's frame proof. -/
theorem algebraic_of_sums
    (hsum : ∀ (m : (ℓ : Loc Cert.KernelIdeal.nD Cert.KernelIdeal.τ Cert.KernelIdeal.sig) → Buf (Elt Ideal) ℓ) (c : Dev Cert.KernelIdeal.nD),
      ∃ tile : Fin 2 → Fin 25 → EReal,
        (∀ p : Fin 2, ((Cert.KernelIdeal.Fr.dats (F := Ideal) m 0 c).arrAt 14 Cert.KernelIdeal.cfg0.N : FVec Ideal Cert.KernelIdeal.S2x8x128 .f32)
            (ix3 p (0 : Fin 8) (0 : Fin 128)) = ∑ j : Fin 25, tile p j)
        ∧ ∀ (p : Fin 2) (j : Fin 25), tile p j = ∑ r : Fin 125, ∑ l : Fin 640,
            Cert.Spec.eK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
              ⟨p.val * 2000000 + r.val * 16000 + (j.val * 640 + l.val), Cert.Sums.idx_lt p j r l⟩) :
    Cert.algebraic_KernelIdeal_ReferenceIdeal :=
  algebraic_of (fun m => Cert.KernelIdeal.Fr.dats (F := Ideal) m) (fun m ρ => Cert.KernelIdeal.Fr.run_main (F := Ideal) m ρ) hsum

/-! ### The region's result array as tile totals -/

/-- The grid point of row p, column tile j. -/
abbrev pt (p : Fin 2) (j : Fin 25) : Fin Cert.KernelIdeal.cfg0.N :=
  ⟨25 * p.val + j.val, Cert.KernelIdeal.OutValue.pt_lt p j.val j.isLt⟩

/-- Position (r, l) of the block of grid point 25 p + j is edge p · 2000000 + r · 16000 + (j · 640 + l). -/
theorem flat_pt (p : Fin 2) (j : Fin 25) (r : Fin 125) (l : Fin 640) :
    Cert.KernelIdeal.Blocks.flat (Cert.KernelIdeal.Blocks.tP (pt p j)) r (Cert.KernelIdeal.Blocks.tC (pt p j) l) = ⟨p.val * 2000000 + r.val * 16000 + (j.val * 640 + l.val), Cert.Sums.idx_lt p j r l⟩ :=
  Fin.ext (by
    show (25 * p.val + j.val) / 25 * 2000000 + r.val * 16000 + ((25 * p.val + j.val) % 25 * 640 + l.val) = _
    rw [tile_div, tile_mod])

/-- The total of tile 25 p + j, formed from what the fourteen windows hold at its 125 x 640 positions, is the sum
    over the positions of the kernel's per-edge formula: each window's block is a block of an array the host lines
    before the region laid out from the arguments. -/
theorem tile_value (m : (ℓ : Loc Cert.KernelIdeal.nD Cert.KernelIdeal.τ Cert.KernelIdeal.sig) → Buf (Elt Ideal) ℓ) (c : Dev Cert.KernelIdeal.nD) (p : Fin 2) (j : Fin 25) :
    (∑ r : Fin 125, ∑ l : Fin 640, Cert.Edge.edgeK ((Cert.KernelIdeal.Fr.iblk m c 12 (pt p j) : Cert.KernelIdeal.S1x1.Idx → EReal) (ix2 (0 : Fin 1) (0 : Fin 1))) ((Cert.KernelIdeal.Fr.iblk m c 13 (pt p j) : Cert.KernelIdeal.S1x1.Idx → EReal) (ix2 (0 : Fin 1) (0 : Fin 1)))
        ((Cert.KernelIdeal.Fr.iblk m c 0 (pt p j) : Cert.KernelIdeal.S1x125x640.Idx → EReal) (ix3 (0 : Fin 1) r l))
        ((Cert.KernelIdeal.Fr.iblk m c 1 (pt p j) : Cert.KernelIdeal.S1x125x640.Idx → EReal) (ix3 (0 : Fin 1) r l))
        ((Cert.KernelIdeal.Fr.iblk m c 2 (pt p j) : Cert.KernelIdeal.S1x125x640.Idx → EReal) (ix3 (0 : Fin 1) r l))
        ((Cert.KernelIdeal.Fr.iblk m c 3 (pt p j) : Cert.KernelIdeal.S1x125x640.Idx → EReal) (ix3 (0 : Fin 1) r l))
        ((Cert.KernelIdeal.Fr.iblk m c 4 (pt p j) : Cert.KernelIdeal.S1x125x640.Idx → EReal) (ix3 (0 : Fin 1) r l))
        ((Cert.KernelIdeal.Fr.iblk m c 5 (pt p j) : Cert.KernelIdeal.S1x125x640.Idx → EReal) (ix3 (0 : Fin 1) r l))
        ((Cert.KernelIdeal.Fr.iblk m c 6 (pt p j) : Cert.KernelIdeal.S1x125x640.Idx → EReal) (ix3 (0 : Fin 1) r l))
        ((Cert.KernelIdeal.Fr.iblk m c 7 (pt p j) : Cert.KernelIdeal.S1x125x640.Idx → EReal) (ix3 (0 : Fin 1) r l))
        ((Cert.KernelIdeal.Fr.iblk m c 8 (pt p j) : Cert.KernelIdeal.S1x125x640.Idx → EReal) (ix3 (0 : Fin 1) r l))
        ((Cert.KernelIdeal.Fr.iblk m c 9 (pt p j) : Cert.KernelIdeal.S1x125x640.Idx → EReal) (ix3 (0 : Fin 1) r l))
        ((Cert.KernelIdeal.Fr.iblk m c 10 (pt p j) : Cert.KernelIdeal.S1x125x640.Idx → EReal) (ix3 (0 : Fin 1) r l))
        ((Cert.KernelIdeal.Fr.iblk m c 11 (pt p j) : Cert.KernelIdeal.S1x125x640.Idx → EReal) (ix3 (0 : Fin 1) r l)))
      = ∑ r : Fin 125, ∑ l : Fin 640,
          Cert.Spec.eK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) ⟨p.val * 2000000 + r.val * 16000 + (j.val * 640 + l.val), Cert.Sums.idx_lt p j r l⟩ :=
  tile_congr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) p j
    ((Cert.KernelIdeal.Fr.iblk m c 12 (pt p j) : Cert.KernelIdeal.S1x1.Idx → EReal) (ix2 (0 : Fin 1) (0 : Fin 1))) ((Cert.KernelIdeal.Fr.iblk m c 13 (pt p j) : Cert.KernelIdeal.S1x1.Idx → EReal) (ix2 (0 : Fin 1) (0 : Fin 1)))
    (fun r l => ((Cert.KernelIdeal.Fr.iblk m c 0 (pt p j) : Cert.KernelIdeal.S1x125x640.Idx → EReal) (ix3 (0 : Fin 1) r l)))
    (fun r l => ((Cert.KernelIdeal.Fr.iblk m c 1 (pt p j) : Cert.KernelIdeal.S1x125x640.Idx → EReal) (ix3 (0 : Fin 1) r l)))
    (fun r l => ((Cert.KernelIdeal.Fr.iblk m c 2 (pt p j) : Cert.KernelIdeal.S1x125x640.Idx → EReal) (ix3 (0 : Fin 1) r l)))
    (fun r l => ((Cert.KernelIdeal.Fr.iblk m c 3 (pt p j) : Cert.KernelIdeal.S1x125x640.Idx → EReal) (ix3 (0 : Fin 1) r l)))
    (fun r l => ((Cert.KernelIdeal.Fr.iblk m c 4 (pt p j) : Cert.KernelIdeal.S1x125x640.Idx → EReal) (ix3 (0 : Fin 1) r l)))
    (fun r l => ((Cert.KernelIdeal.Fr.iblk m c 5 (pt p j) : Cert.KernelIdeal.S1x125x640.Idx → EReal) (ix3 (0 : Fin 1) r l)))
    (fun r l => ((Cert.KernelIdeal.Fr.iblk m c 6 (pt p j) : Cert.KernelIdeal.S1x125x640.Idx → EReal) (ix3 (0 : Fin 1) r l)))
    (fun r l => ((Cert.KernelIdeal.Fr.iblk m c 7 (pt p j) : Cert.KernelIdeal.S1x125x640.Idx → EReal) (ix3 (0 : Fin 1) r l)))
    (fun r l => ((Cert.KernelIdeal.Fr.iblk m c 8 (pt p j) : Cert.KernelIdeal.S1x125x640.Idx → EReal) (ix3 (0 : Fin 1) r l)))
    (fun r l => ((Cert.KernelIdeal.Fr.iblk m c 9 (pt p j) : Cert.KernelIdeal.S1x125x640.Idx → EReal) (ix3 (0 : Fin 1) r l)))
    (fun r l => ((Cert.KernelIdeal.Fr.iblk m c 10 (pt p j) : Cert.KernelIdeal.S1x125x640.Idx → EReal) (ix3 (0 : Fin 1) r l)))
    (fun r l => ((Cert.KernelIdeal.Fr.iblk m c 11 (pt p j) : Cert.KernelIdeal.S1x125x640.Idx → EReal) (ix3 (0 : Fin 1) r l)))
    ((Cert.KernelIdeal.Blocks.iblk_12 m c (pt p j)).trans (Cert.KernelIdeal.Blocks.v68_apply m c))
    ((Cert.KernelIdeal.Blocks.iblk_13 m c (pt p j)).trans (Cert.KernelIdeal.Blocks.v69_apply m c))
    (fun r l => (Cert.KernelIdeal.Blocks.iblk_0 m c (pt p j) r l).trans ((Cert.KernelIdeal.Blocks.v17_apply m c _ r _).trans
      (congrArg (fun e => ((m ((c.tc : Thread Cert.KernelIdeal.nD Cert.KernelIdeal.τ).loc Cert.KernelIdeal.main_arg0)) : Cert.Spec.SN3.Idx → EReal) (ix2 (Cert.Spec.node (m ((c.tc : Thread Cert.KernelIdeal.nD Cert.KernelIdeal.τ).loc Cert.KernelIdeal.main_arg1)) 0 e) 0)) (flat_pt p j r l))))
    (fun r l => (Cert.KernelIdeal.Blocks.iblk_1 m c (pt p j) r l).trans ((Cert.KernelIdeal.Blocks.v25_apply m c _ r _).trans
      (congrArg (fun e => ((m ((c.tc : Thread Cert.KernelIdeal.nD Cert.KernelIdeal.τ).loc Cert.KernelIdeal.main_arg0)) : Cert.Spec.SN3.Idx → EReal) (ix2 (Cert.Spec.node (m ((c.tc : Thread Cert.KernelIdeal.nD Cert.KernelIdeal.τ).loc Cert.KernelIdeal.main_arg1)) 0 e) 1)) (flat_pt p j r l))))
    (fun r l => (Cert.KernelIdeal.Blocks.iblk_2 m c (pt p j) r l).trans ((Cert.KernelIdeal.Blocks.v33_apply m c _ r _).trans
      (congrArg (fun e => ((m ((c.tc : Thread Cert.KernelIdeal.nD Cert.KernelIdeal.τ).loc Cert.KernelIdeal.main_arg0)) : Cert.Spec.SN3.Idx → EReal) (ix2 (Cert.Spec.node (m ((c.tc : Thread Cert.KernelIdeal.nD Cert.KernelIdeal.τ).loc Cert.KernelIdeal.main_arg1)) 0 e) 2)) (flat_pt p j r l))))
    (fun r l => (Cert.KernelIdeal.Blocks.iblk_3 m c (pt p j) r l).trans ((Cert.KernelIdeal.Blocks.v41_apply m c _ r _).trans
      (congrArg (fun e => ((m ((c.tc : Thread Cert.KernelIdeal.nD Cert.KernelIdeal.τ).loc Cert.KernelIdeal.main_arg0)) : Cert.Spec.SN3.Idx → EReal) (ix2 (Cert.Spec.node (m ((c.tc : Thread Cert.KernelIdeal.nD Cert.KernelIdeal.τ).loc Cert.KernelIdeal.main_arg1)) 1 e) 0)) (flat_pt p j r l))))
    (fun r l => (Cert.KernelIdeal.Blocks.iblk_4 m c (pt p j) r l).trans ((Cert.KernelIdeal.Blocks.v49_apply m c _ r _).trans
      (congrArg (fun e => ((m ((c.tc : Thread Cert.KernelIdeal.nD Cert.KernelIdeal.τ).loc Cert.KernelIdeal.main_arg0)) : Cert.Spec.SN3.Idx → EReal) (ix2 (Cert.Spec.node (m ((c.tc : Thread Cert.KernelIdeal.nD Cert.KernelIdeal.τ).loc Cert.KernelIdeal.main_arg1)) 1 e) 1)) (flat_pt p j r l))))
    (fun r l => (Cert.KernelIdeal.Blocks.iblk_5 m c (pt p j) r l).trans ((Cert.KernelIdeal.Blocks.v57_apply m c _ r _).trans
      (congrArg (fun e => ((m ((c.tc : Thread Cert.KernelIdeal.nD Cert.KernelIdeal.τ).loc Cert.KernelIdeal.main_arg0)) : Cert.Spec.SN3.Idx → EReal) (ix2 (Cert.Spec.node (m ((c.tc : Thread Cert.KernelIdeal.nD Cert.KernelIdeal.τ).loc Cert.KernelIdeal.main_arg1)) 1 e) 2)) (flat_pt p j r l))))
    (fun r l => (Cert.KernelIdeal.Blocks.iblk_6 m c (pt p j) r l).trans ((Cert.KernelIdeal.Blocks.v60_apply m c _ r _).trans
      (congrArg (fun e => ((m ((c.tc : Thread Cert.KernelIdeal.nD Cert.KernelIdeal.τ).loc Cert.KernelIdeal.main_arg6)) : Cert.Spec.SE3.Idx → EReal) (ix2 e 0)) (flat_pt p j r l))))
    (fun r l => (Cert.KernelIdeal.Blocks.iblk_7 m c (pt p j) r l).trans ((Cert.KernelIdeal.Blocks.v63_apply m c _ r _).trans
      (congrArg (fun e => ((m ((c.tc : Thread Cert.KernelIdeal.nD Cert.KernelIdeal.τ).loc Cert.KernelIdeal.main_arg6)) : Cert.Spec.SE3.Idx → EReal) (ix2 e 2)) (flat_pt p j r l))))
    (fun r l => (Cert.KernelIdeal.Blocks.iblk_8 m c (pt p j) r l).trans ((Cert.KernelIdeal.Blocks.v64_apply m c _ r _).trans
      (congrArg (fun e => ((m ((c.tc : Thread Cert.KernelIdeal.nD Cert.KernelIdeal.τ).loc Cert.KernelIdeal.main_arg2)) : Cert.Spec.SE.Idx → EReal) (ix1 e)) (flat_pt p j r l))))
    (fun r l => (Cert.KernelIdeal.Blocks.iblk_9 m c (pt p j) r l).trans ((Cert.KernelIdeal.Blocks.v65_apply m c _ r _).trans
      (congrArg (fun e => ((m ((c.tc : Thread Cert.KernelIdeal.nD Cert.KernelIdeal.τ).loc Cert.KernelIdeal.main_arg3)) : Cert.Spec.SE.Idx → EReal) (ix1 e)) (flat_pt p j r l))))
    (fun r l => (Cert.KernelIdeal.Blocks.iblk_10 m c (pt p j) r l).trans ((Cert.KernelIdeal.Blocks.v66_apply m c _ r _).trans
      (congrArg (fun e => ((m ((c.tc : Thread Cert.KernelIdeal.nD Cert.KernelIdeal.τ).loc Cert.KernelIdeal.main_arg4)) : Cert.Spec.SE.Idx → EReal) (ix1 e)) (flat_pt p j r l))))
    (fun r l => (Cert.KernelIdeal.Blocks.iblk_11 m c (pt p j) r l).trans ((Cert.KernelIdeal.Blocks.v67_apply m c _ r _).trans
      (congrArg (fun e => ((m ((c.tc : Thread Cert.KernelIdeal.nD Cert.KernelIdeal.τ).loc Cert.KernelIdeal.main_arg5)) : Cert.Spec.SE.Idx → EReal) (ix1 e)) (flat_pt p j r l))))

/-! ### The claim -/

/-- The kernel and the reference, run from memories that agree on the arguments and satisfy the precondition,
    end with equal results and unchanged arguments: the region's result array holds, at (p, 0, 0), the sum over
    row p's 25 column tiles of the tiles' totals. -/
theorem algebraic : Cert.algebraic_KernelIdeal_ReferenceIdeal :=
  algebraic_of_sums fun m c =>
    ⟨fun p j => Cert.KernelIdeal.OutValue.tileSum m c (pt p j),
      fun p => Cert.KernelIdeal.OutValue.out_value_apply m c p 0 0,
      fun p j => tile_value m c p j⟩

end Cert.Bridge

end
-- ==== Proof.lean ====
/-
  The five claims about the edge-energy program.
  The kernel computes, for 4,000,000 beam elements laid out as [2, 125, 16000], the total strain energy
  (axial plus bending, from the end nodes' scaled displacements, the element's direction cosines, length and
  section properties), row by row in tiles of 640 columns with a running total per row; the host then adds the
  two rows, subtracts the external work and divides by the characteristic energy. The reference computes the
  same total by one sum over the elements, dividing by the length L where the kernel multiplies by 1/L.
  Frames: the kernel's region meets the launch theorem's obligation point by point (three control cases: first,
  middle and last column tile of a row), at the word-level instance and at the extended reals alike; the
  reference is a straight line of host operations. Nothing was rewritten by the idealization, so it preserves
  the program trivially. Equivalence at the extended reals: under the precondition (every float input finite,
  no element length zero) each element's energy is the same real number in both arrangements, and a sum over
  the elements may be regrouped by row, tile and position inside the tile; the two programs then apply one and
  the same host tail to equal totals.
-/
import proofs.«111899_j63788854280708_2_alg».proof.Defs
import proofs.«111899_j63788854280708_2_alg».proof.Proof.Gen.Kernel
import proofs.«111899_j63788854280708_2_alg».proof.Proof.Gen.KernelIdeal
import proofs.«111899_j63788854280708_2_alg».proof.Proof.Gen.ReferenceIdeal
import proofs.«111899_j63788854280708_2_alg».proof.Proof.Gen.Pre_finite_inputs
import proofs.«111899_j63788854280708_2_alg».proof.Proof.Gen.ReferenceIdeal.Read
import proofs.«111899_j63788854280708_2_alg».proof.Proof.K.Frame
import proofs.«111899_j63788854280708_2_alg».proof.Proof.KI.Frame
import proofs.«111899_j63788854280708_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Fr.frame m ρ

theorem frame_kernelIdeal : Cert.frame_KernelIdeal := fun m ρ _ => Cert.KernelIdeal.Fr.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, Cert.Bridge.algebraic⟩

end Cert.Proof

end
